-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  main_v3
-- ==== Kernel.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x768 : Shape := ⟨2, ![1024, 768]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 23
  | .vmem => 9
  | .smem => 0
  | _ => 0

abbrev bufTy : (tb : Table) → Fin (tcTables nBuf tb) → BufTy
  | .hbm, ⟨0, _⟩ => ⟨S8192x768, .f32⟩
  | .hbm, ⟨1, _⟩ => ⟨S8192x768, .bf16⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1x1024, .f32⟩
  | .local _ .vmem, ⟨5, _⟩ => ⟨S1x1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  reducesTo_S8192x768_S8192_d1 : S8192x768.ReducesTo [1] S8192
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  iota_S1024x1024_d0_w32 : S1024x1024.Iotas .tc 32 [0]
  iota_S1024x1024_d1_w32 : S1024x1024.Iotas .tc 32 [1]
  bcast_S_S8192x1 : S_.BroadcastsInDim S8192x1 (![] : Fin 0 → Fin S8192x1.rank)
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .bf16 = 32 ∨ (Rect.block (s := S8192x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .bf16 = 32 ∨ (Rect.block (s := S8192x768) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S768x8192 : Shape := ⟨2, ![768, 8192]⟩

abbrev nBuf : Space → Nat
  | .hbm => 40
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S768x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x768_S768x8192_1_0 : S8192x768.Transposes [1, 0] S768x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x768_S768x8192_S8192x8192_1_0_0_1_n_n_wf : DotDims.WF S8192x768 S768x8192 S8192x8192 [1] [0] [0] [1] [] []

variable [Facts₀]

def dot_S8192x768_S768x8192_S8192x8192_1_0_0_1_n_n : DotDims S8192x768 S768x8192 S8192x8192 where
  lhsContracting := [1]
  rhsContracting := [0]
  lhsNonContracting := [0]
  rhsNonContracting := [1]
  lhsBatch := []
  rhsBatch := []
  wf := dot_S8192x768_S768x8192_S8192x8192_1_0_0_1_n_n_wf

class Facts : Prop extends Facts₀ where

variable [Facts]
-- ==== Proof.Kernel.Setting.lean ====
/-
  The nearest-neighbour kernel's region and what surrounds it.

  The grid is 8 × 8: point t has query tile i = t / 8 and key tile j = t % 8. At j = 0 the running row minimum (a
  [1024,1] scratch) is reset to +inf; at every point it is lowered by the tile's row minima, the diagonal entries
  excluded on the tiles with i = j; at j = 7 it is copied to the output block of query tile i, which is written back
  there and idle everywhere else. Here: the contents of the buffers when the region is entered, each window's block
  read off them, the four branch conditions decided over the grid in closed form, where the output window is idle,
  and the names of the staging and scratch memrefs the body is called with.
-/
import proofs.«106038_j61701500175092_2_alg».proof.Proof.Gen.Kernel.Launch
import proofs.«106038_j61701500175092_2_alg».proof.Proof.Gen.Kernel.Skeleton
import proofs.«106038_j61701500175092_2_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.RowMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation; -/
abbrev Vl (c : Dev nD) : Valuation τ sig (Elt F) := fun b => m (c, b)
/-- after the six host lines before the region (the bf16 copy, the squares, their row sums, the two reshapes); -/
abbrev V0 (c : Dev nD) : Valuation τ sig (Elt F) := StableHlo.after hostOps0 (Vl m c)
/-- and read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched, the
    block index has not moved since the point before. One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The branch conditions, over the grid -/

/-- Key tile 0: the running minimum is reset. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 8 = 0 :=
  (by decide +kernel : ∀ t : Fin grid0.N, atFirst (grid0.coords t) ↔ t.val % 8 = 0)

/-- Query tile ≠ key tile: no entry of the tile is a distance of a row to itself. -/
abbrev offDiag (i : grid0.Coords) : Prop := (Scalar.cmpi .ne (Scalar.extui (Scalar.cmpi .ne (BitVec.ofNat 32 (i 0).val) (BitVec.ofNat 32 (i 1).val))) 0#32) = 1#1
theorem offDiag_iff : ∀ t : Fin cfg0.N, offDiag (grid0.coords t) ↔ t.val / 8 ≠ t.val % 8 :=
  (by decide +kernel : ∀ t : Fin grid0.N, offDiag (grid0.coords t) ↔ t.val / 8 ≠ t.val % 8)

/-- Query tile = key tile: the tile's diagonal is excluded. -/
abbrev onDiag (i : grid0.Coords) : Prop := (Scalar.cmpi .ne (Scalar.extui (Scalar.cmpi .eq (BitVec.ofNat 32 (i 0).val) (BitVec.ofNat 32 (i 1).val))) 0#32) = 1#1
theorem onDiag_iff : ∀ t : Fin cfg0.N, onDiag (grid0.coords t) ↔ t.val / 8 = t.val % 8 :=
  (by decide +kernel : ∀ t : Fin grid0.N, onDiag (grid0.coords t) ↔ t.val / 8 = t.val % 8)

/-- Key tile 7: the running minimum is copied out. -/
abbrev atLast (i : grid0.Coords) : Prop := k0_cond4 i = 1#1
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live0 : ∀ i, cfg0.idle 0 i = false := fun _ => rfl
theorem live1 : ∀ i, cfg0.idle 1 i = false := fun _ => rfl
theorem live2 : ∀ i, cfg0.idle 2 i = false := fun _ => rfl
/-- Away from key tile 7 the output window is idle and not written back; -/
theorem idle3 : ∀ t : Fin cfg0.N, ¬atLast (grid0.coords t) → cfg0.idle 3 (grid0.coords t) = true := by decide +kernel
theorem noFlush3 : ∀ t : Fin cfg0.N, ¬atLast (grid0.coords t) → (cfg0.win 3).flush t = false := by decide +kernel
/-- at key tile 7 it is live. -/
theorem live3 : ∀ t : Fin cfg0.N, atLast (grid0.coords t) → cfg0.idle 3 (grid0.coords t) = false := by decide +kernel

/-! ## The memrefs the body is called with -/

abbrev ms0 (t : Fin cfg0.N) : Memref sig .tc .vmem S1024x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
/-- The running minimum's buffer, -/
abbrev accM : Memref sig .tc .vmem S1024x1 .f32 := Memref.whole cc0_scratch0
/-- as a view; -/
abbrev accV : View sig .tc .vmem S1024x1 .f32 := accM.view
/-- and one staging buffer of the output window, through which its contents are stated. -/
abbrev outV : View sig .tc .vmem S1024x1 .f32 := (Memref.whole cc0_stg3_0 : Memref sig .tc .vmem S1024x1 .f32).view

/-- The core's scoped buffers that no window stages are the running minimum's buffer, held at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

end Cert.Kernel.RowMin

end
-- ==== Proof.Kernel.Runs.lean ====
/-
  The kernel body run symbolically, once per control case: which of its four conditionals a grid point takes is
  fixed by the key tile being the first, a middle one or the last, and by the tile lying on the diagonal or not.
-/
import proofs.«106038_j61701500175092_2_alg».proof.Proof.Kernel.Setting

set_option maxRecDepth 16384

noncomputable section

namespace Cert.Kernel.RowMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body at a point of key tile 0, off the diagonal: on whole memrefs — the three input blocks at their contents, the output's
    buffer at contents handed back untouched, the running minimum at anything (it is reset) — it runs to the end
    with the inputs as they were and each buffer it stored into holding the stores' pieces, which the run finds. -/
noncomputable def runFirstOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : atFirst i) (h2 : offDiag i) (h3 : ¬onDiag i) (h4 : ¬atLast i)
    (x0 : Vec F S1024x768 .bf16) (x1 : Vec F S1024x768 .bf16) (x2 : Vec F S1x1024 .f32) :
    Σ' (L3 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__koleo_kernel i arg2 harg2 arg3 harg3 arg4 harg4 arg5 harg5 arg6 harg6) K } := by
  refine ⟨[], ?_, fun xi E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The body at a point of key tile 0, on the diagonal (the grid's first point): on whole memrefs — the three input blocks at their contents, the output's
    buffer at contents handed back untouched, the running minimum at anything (it is reset) — it runs to the end
    with the inputs as they were and each buffer it stored into holding the stores' pieces, which the run finds. -/
noncomputable def runFirstDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : atFirst i) (h2 : ¬offDiag i) (h3 : onDiag i) (h4 : ¬atLast i)
    (x0 : Vec F S1024x768 .bf16) (x1 : Vec F S1024x768 .bf16) (x2 : Vec F S1x1024 .f32) :
    Σ' (L3 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__koleo_kernel i arg2 harg2 arg3 harg3 arg4 harg4 arg5 harg5 arg6 harg6) K } := by
  refine ⟨[], ?_, fun xi E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The body at a point of key tiles 1 to 6, off the diagonal: on whole memrefs — the three input blocks at their contents, the output's
    buffer at contents handed back untouched, the running minimum at what the point before left — it runs to the end
    with the inputs as they were and each buffer it stored into holding the stores' pieces, which the run finds. -/
noncomputable def runMidOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : offDiag i) (h3 : ¬onDiag i) (h4 : ¬atLast i)
    (x0 : Vec F S1024x768 .bf16) (x1 : Vec F S1024x768 .bf16) (x2 : Vec F S1x1024 .f32) (xs : Vec F S1024x1 .f32) :
    Σ' (L3 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__koleo_kernel i arg2 harg2 arg3 harg3 arg4 harg4 arg5 harg5 arg6 harg6) K } := by
  refine ⟨[], ?_, fun xi E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The body at a point of key tiles 1 to 6, on the diagonal: on whole memrefs — the three input blocks at their contents, the output's
    buffer at contents handed back untouched, the running minimum at what the point before left — it runs to the end
    with the inputs as they were and each buffer it stored into holding the stores' pieces, which the run finds. -/
noncomputable def runMidDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : ¬offDiag i) (h3 : onDiag i) (h4 : ¬atLast i)
    (x0 : Vec F S1024x768 .bf16) (x1 : Vec F S1024x768 .bf16) (x2 : Vec F S1x1024 .f32) (xs : Vec F S1024x1 .f32) :
    Σ' (L3 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__koleo_kernel i arg2 harg2 arg3 harg3 arg4 harg4 arg5 harg5 arg6 harg6) K } := by
  refine ⟨[], ?_, fun xi E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The body at a point of key tile 7, off the diagonal: on whole memrefs — the three input blocks at their contents, the output's
    buffer at anything, the running minimum at what the point before left — it runs to the end
    with the inputs as they were and each buffer it stored into holding the stores' pieces, which the run finds. -/
noncomputable def runLastOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : offDiag i) (h3 : ¬onDiag i) (h4 : atLast i)
    (x0 : Vec F S1024x768 .bf16) (x1 : Vec F S1024x768 .bf16) (x2 : Vec F S1x1024 .f32) (xs : Vec F S1024x1 .f32) :
    Σ' (L3 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__koleo_kernel i arg2 harg2 arg3 harg3 arg4 harg4 arg5 harg5 arg6 harg6) K } := by
  refine ⟨?_, ?_, fun E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

set_option maxHeartbeats 1000000 in
/-- The body at a point of key tile 7, on the diagonal (the grid's last point): on whole memrefs — the three input blocks at their contents, the output's
    buffer at anything, the running minimum at what the point before left — it runs to the end
    with the inputs as they were and each buffer it stored into holding the stores' pieces, which the run finds. -/
noncomputable def runLastDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : ¬offDiag i) (h3 : onDiag i) (h4 : atLast i)
    (x0 : Vec F S1024x768 .bf16) (x1 : Vec F S1024x768 .bf16) (x2 : Vec F S1x1024 .f32) (xs : Vec F S1024x1 .f32) :
    Σ' (L3 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__koleo_kernel i arg2 harg2 arg3 harg3 arg4 harg4 arg5 harg5 arg6 harg6) K } := by
  refine ⟨?_, ?_, fun E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.RowMin

end
-- ==== Proof.Kernel.Accum.lean ====
/-
  The running row minimum, point by point, and the body's obligation to the pipeline.

  After point t the running minimum's buffer holds what the point's case stored over what the point before left
  (at key tile 0 it was reset first, so nothing earlier matters), and the output's buffer holds the copy made at
  key tile 7. The array of bf16 rows is behind two input windows — the query tile's rows and the key tile's rows —,
  so each of the two holds one half of it.
-/
import proofs.«106038_j61701500175092_2_alg».proof.Proof.Kernel.Runs
import Idealize.ShloMosaic.Lib.Ring

set_option maxRecDepth 16384

noncomputable section

namespace Cert.Kernel.RowMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What a list of stores leaves in the running minimum's buffer, read back over anything; -/
def accOf (L : List (View.Piece (Elt F) S1024x1 .f32)) : Vec F S1024x1 .f32 := accV.read (Elt F) (accV.writes (Elt F) accV.junk L)
/-- and in the output window's buffer. -/
def outOf (L : List (View.Piece (Elt F) S1024x1 .f32)) : Vec F S1024x1 .f32 := outV.read (Elt F) (outV.writes (Elt F) outV.junk L)

/-- The body's run at point `t`, a point of key tile 0, off the diagonal: at the point's memrefs and input blocks. -/
abbrev atFirstOff (c : Dev nD) (t : Fin cfg0.N) (a1 : t.val % 8 = 0) (ad : ¬t.val / 8 = t.val % 8) (a4 : ¬t.val % 8 = 7) :=
  runFirstOff (F := F) c (grid0.coords t) (ms0 t) (hs0 t) (ms1 t) (hs1 t) (ms2 t) (hs2 t) (ms3 t) (hs3 t) accM (Memref.isWhole_whole _) ((atFirst_iff t).mpr a1) ((offDiag_iff t).mpr ad) (fun h => ad ((onDiag_iff t).mp h)) (fun h => a4 ((atLast_iff t).mp h)) (iblk m c 0 t) (iblk m c 1 t) (iblk m c 2 t)

/-- Its stores into the running minimum's buffer cover the buffer. -/
theorem accCoverFirstOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : atFirst i) (h2 : offDiag i) (h3 : ¬onDiag i) (h4 : ¬atLast i)
    (x0 : Vec F S1024x768 .bf16) (x1 : Vec F S1024x768 .bf16) (x2 : Vec F S1x1024 .f32) (y : S1024x1.Idx) :
    ∃ pc ∈ (runFirstOff c i arg2 harg2 arg3 harg3 arg4 harg4 arg5 harg5 arg6 harg6 h1 h2 h3 h4 x0 x1 x2).2.1, y ∈ pc.1.set :=
  View.cover_of_tiledL (runFirstOff c i arg2 harg2 arg3 harg3 arg4 harg4 arg5 harg5 arg6 harg6 h1 h2 h3 h4 x0 x1 x2).2.1 S1024x1.size (by sl_kernel_rfl) y

/-- The body's run at point `t`, a point of key tile 0, on the diagonal (the grid's first point): at the point's memrefs and input blocks. -/
abbrev atFirstDiag (c : Dev nD) (t : Fin cfg0.N) (a1 : t.val % 8 = 0) (ad : t.val / 8 = t.val % 8) (a4 : ¬t.val % 8 = 7) :=
  runFirstDiag (F := F) c (grid0.coords t) (ms0 t) (hs0 t) (ms1 t) (hs1 t) (ms2 t) (hs2 t) (ms3 t) (hs3 t) accM (Memref.isWhole_whole _) ((atFirst_iff t).mpr a1) (fun h => ((offDiag_iff t).mp h) ad) ((onDiag_iff t).mpr ad) (fun h => a4 ((atLast_iff t).mp h)) (iblk m c 0 t) (iblk m c 1 t) (iblk m c 2 t)

/-- Its stores into the running minimum's buffer cover the buffer. -/
theorem accCoverFirstDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : atFirst i) (h2 : ¬offDiag i) (h3 : onDiag i) (h4 : ¬atLast i)
    (x0 : Vec F S1024x768 .bf16) (x1 : Vec F S1024x768 .bf16) (x2 : Vec F S1x1024 .f32) (y : S1024x1.Idx) :
    ∃ pc ∈ (runFirstDiag c i arg2 harg2 arg3 harg3 arg4 harg4 arg5 harg5 arg6 harg6 h1 h2 h3 h4 x0 x1 x2).2.1, y ∈ pc.1.set :=
  View.cover_of_tiledL (runFirstDiag c i arg2 harg2 arg3 harg3 arg4 harg4 arg5 harg5 arg6 harg6 h1 h2 h3 h4 x0 x1 x2).2.1 S1024x1.size (by sl_kernel_rfl) y

/-- The body's run at point `t`, a point of key tiles 1 to 6, off the diagonal: at the point's memrefs and input blocks, the running minimum at `xs`. -/
abbrev atMidOff (c : Dev nD) (t : Fin cfg0.N) (a1 : ¬t.val % 8 = 0) (ad : ¬t.val / 8 = t.val % 8) (a4 : ¬t.val % 8 = 7) (xs : Vec F S1024x1 .f32) :=
  runMidOff (F := F) c (grid0.coords t) (ms0 t) (hs0 t) (ms1 t) (hs1 t) (ms2 t) (hs2 t) (ms3 t) (hs3 t) accM (Memref.isWhole_whole _) (fun h => a1 ((atFirst_iff t).mp h)) ((offDiag_iff t).mpr ad) (fun h => ad ((onDiag_iff t).mp h)) (fun h => a4 ((atLast_iff t).mp h)) (iblk m c 0 t) (iblk m c 1 t) (iblk m c 2 t) xs

/-- Its stores into the running minimum's buffer cover the buffer. -/
theorem accCoverMidOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : offDiag i) (h3 : ¬onDiag i) (h4 : ¬atLast i)
    (x0 : Vec F S1024x768 .bf16) (x1 : Vec F S1024x768 .bf16) (x2 : Vec F S1x1024 .f32) (xs : Vec F S1024x1 .f32) (y : S1024x1.Idx) :
    ∃ pc ∈ (runMidOff c i arg2 harg2 arg3 harg3 arg4 harg4 arg5 harg5 arg6 harg6 h1 h2 h3 h4 x0 x1 x2 xs).2.1, y ∈ pc.1.set :=
  View.cover_of_tiledL (runMidOff c i arg2 harg2 arg3 harg3 arg4 harg4 arg5 harg5 arg6 harg6 h1 h2 h3 h4 x0 x1 x2 xs).2.1 S1024x1.size (by sl_kernel_rfl) y

/-- The body's run at point `t`, a point of key tiles 1 to 6, on the diagonal: at the point's memrefs and input blocks, the running minimum at `xs`. -/
abbrev atMidDiag (c : Dev nD) (t : Fin cfg0.N) (a1 : ¬t.val % 8 = 0) (ad : t.val / 8 = t.val % 8) (a4 : ¬t.val % 8 = 7) (xs : Vec F S1024x1 .f32) :=
  runMidDiag (F := F) c (grid0.coords t) (ms0 t) (hs0 t) (ms1 t) (hs1 t) (ms2 t) (hs2 t) (ms3 t) (hs3 t) accM (Memref.isWhole_whole _) (fun h => a1 ((atFirst_iff t).mp h)) (fun h => ((offDiag_iff t).mp h) ad) ((onDiag_iff t).mpr ad) (fun h => a4 ((atLast_iff t).mp h)) (iblk m c 0 t) (iblk m c 1 t) (iblk m c 2 t) xs

/-- Its stores into the running minimum's buffer cover the buffer. -/
theorem accCoverMidDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : ¬offDiag i) (h3 : onDiag i) (h4 : ¬atLast i)
    (x0 : Vec F S1024x768 .bf16) (x1 : Vec F S1024x768 .bf16) (x2 : Vec F S1x1024 .f32) (xs : Vec F S1024x1 .f32) (y : S1024x1.Idx) :
    ∃ pc ∈ (runMidDiag c i arg2 harg2 arg3 harg3 arg4 harg4 arg5 harg5 arg6 harg6 h1 h2 h3 h4 x0 x1 x2 xs).2.1, y ∈ pc.1.set :=
  View.cover_of_tiledL (runMidDiag c i arg2 harg2 arg3 harg3 arg4 harg4 arg5 harg5 arg6 harg6 h1 h2 h3 h4 x0 x1 x2 xs).2.1 S1024x1.size (by sl_kernel_rfl) y

/-- The body's run at point `t`, a point of key tile 7, off the diagonal: at the point's memrefs and input blocks, the running minimum at `xs`. -/
abbrev atLastOff (c : Dev nD) (t : Fin cfg0.N) (a1 : ¬t.val % 8 = 0) (ad : ¬t.val / 8 = t.val % 8) (a4 : t.val % 8 = 7) (xs : Vec F S1024x1 .f32) :=
  runLastOff (F := F) c (grid0.coords t) (ms0 t) (hs0 t) (ms1 t) (hs1 t) (ms2 t) (hs2 t) (ms3 t) (hs3 t) accM (Memref.isWhole_whole _) (fun h => a1 ((atFirst_iff t).mp h)) ((offDiag_iff t).mpr ad) (fun h => ad ((onDiag_iff t).mp h)) ((atLast_iff t).mpr a4) (iblk m c 0 t) (iblk m c 1 t) (iblk m c 2 t) xs

/-- Its stores into the running minimum's buffer cover the buffer. -/
theorem accCoverLastOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : offDiag i) (h3 : ¬onDiag i) (h4 : atLast i)
    (x0 : Vec F S1024x768 .bf16) (x1 : Vec F S1024x768 .bf16) (x2 : Vec F S1x1024 .f32) (xs : Vec F S1024x1 .f32) (y : S1024x1.Idx) :
    ∃ pc ∈ (runLastOff c i arg2 harg2 arg3 harg3 arg4 harg4 arg5 harg5 arg6 harg6 h1 h2 h3 h4 x0 x1 x2 xs).2.1, y ∈ pc.1.set :=
  View.cover_of_tiledL (runLastOff c i arg2 harg2 arg3 harg3 arg4 harg4 arg5 harg5 arg6 harg6 h1 h2 h3 h4 x0 x1 x2 xs).2.1 S1024x1.size (by sl_kernel_rfl) y

/-- Its store into the output's buffer covers the buffer. -/
theorem outCoverLastOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : offDiag i) (h3 : ¬onDiag i) (h4 : atLast i)
    (x0 : Vec F S1024x768 .bf16) (x1 : Vec F S1024x768 .bf16) (x2 : Vec F S1x1024 .f32) (xs : Vec F S1024x1 .f32) (y : S1024x1.Idx) :
    ∃ pc ∈ (runLastOff c i arg2 harg2 arg3 harg3 arg4 harg4 arg5 harg5 arg6 harg6 h1 h2 h3 h4 x0 x1 x2 xs).1, y ∈ pc.1.set :=
  View.cover_of_tiledL (runLastOff c i arg2 harg2 arg3 harg3 arg4 harg4 arg5 harg5 arg6 harg6 h1 h2 h3 h4 x0 x1 x2 xs).1 S1024x1.size (by sl_kernel_rfl) y

/-- The body's run at point `t`, a point of key tile 7, on the diagonal (the grid's last point): at the point's memrefs and input blocks, the running minimum at `xs`. -/
abbrev atLastDiag (c : Dev nD) (t : Fin cfg0.N) (a1 : ¬t.val % 8 = 0) (ad : t.val / 8 = t.val % 8) (a4 : t.val % 8 = 7) (xs : Vec F S1024x1 .f32) :=
  runLastDiag (F := F) c (grid0.coords t) (ms0 t) (hs0 t) (ms1 t) (hs1 t) (ms2 t) (hs2 t) (ms3 t) (hs3 t) accM (Memref.isWhole_whole _) (fun h => a1 ((atFirst_iff t).mp h)) (fun h => ((offDiag_iff t).mp h) ad) ((onDiag_iff t).mpr ad) ((atLast_iff t).mpr a4) (iblk m c 0 t) (iblk m c 1 t) (iblk m c 2 t) xs

/-- Its stores into the running minimum's buffer cover the buffer. -/
theorem accCoverLastDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : ¬offDiag i) (h3 : onDiag i) (h4 : atLast i)
    (x0 : Vec F S1024x768 .bf16) (x1 : Vec F S1024x768 .bf16) (x2 : Vec F S1x1024 .f32) (xs : Vec F S1024x1 .f32) (y : S1024x1.Idx) :
    ∃ pc ∈ (runLastDiag c i arg2 harg2 arg3 harg3 arg4 harg4 arg5 harg5 arg6 harg6 h1 h2 h3 h4 x0 x1 x2 xs).2.1, y ∈ pc.1.set :=
  View.cover_of_tiledL (runLastDiag c i arg2 harg2 arg3 harg3 arg4 harg4 arg5 harg5 arg6 harg6 h1 h2 h3 h4 x0 x1 x2 xs).2.1 S1024x1.size (by sl_kernel_rfl) y

/-- Its store into the output's buffer covers the buffer. -/
theorem outCoverLastDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : ¬offDiag i) (h3 : onDiag i) (h4 : atLast i)
    (x0 : Vec F S1024x768 .bf16) (x1 : Vec F S1024x768 .bf16) (x2 : Vec F S1x1024 .f32) (xs : Vec F S1024x1 .f32) (y : S1024x1.Idx) :
    ∃ pc ∈ (runLastDiag c i arg2 harg2 arg3 harg3 arg4 harg4 arg5 harg5 arg6 harg6 h1 h2 h3 h4 x0 x1 x2 xs).1, y ∈ pc.1.set :=
  View.cover_of_tiledL (runLastDiag c i arg2 harg2 arg3 harg3 arg4 harg4 arg5 harg5 arg6 harg6 h1 h2 h3 h4 x0 x1 x2 xs).1 S1024x1.size (by sl_kernel_rfl) y

/-! ## What the two buffers hold after each point -/

/-- After position `n`: (the output's staging buffer, the running minimum's buffer). The case is the one the closed
    forms select; a case that reads the running minimum takes what position `n - 1` left. Where the output window
    is idle its component is a placeholder nothing consults. -/
def outsAt (c : Dev nD) : (n : ℕ) → n < cfg0.N → Vec F S1024x1 .f32 × Vec F S1024x1 .f32
  | 0, hn => (outOf (atFirstDiag m c ⟨0, hn⟩ (by (try dsimp only)) (by (try dsimp only)) (by (try dsimp only); omega)).1, accOf (atFirstDiag m c ⟨0, hn⟩ (by (try dsimp only)) (by (try dsimp only)) (by (try dsimp only); omega)).2.1)
  | n + 1, hn =>
    if a1 : (n + 1) % 8 = 0 then
      (outOf (atFirstOff m c ⟨n + 1, hn⟩ a1 (by (try dsimp only); omega) (by (try dsimp only); omega)).1, accOf (atFirstOff m c ⟨n + 1, hn⟩ a1 (by (try dsimp only); omega) (by (try dsimp only); omega)).2.1)
    else if a4 : (n + 1) % 8 = 7 then
      if ad : (n + 1) / 8 = (n + 1) % 8 then
        (outOf (atLastDiag m c ⟨n + 1, hn⟩ a1 ad a4 (outsAt c n (Nat.lt_of_succ_lt hn)).2).1, accOf (atLastDiag m c ⟨n + 1, hn⟩ a1 ad a4 (outsAt c n (Nat.lt_of_succ_lt hn)).2).2.1)
      else
        (outOf (atLastOff m c ⟨n + 1, hn⟩ a1 ad a4 (outsAt c n (Nat.lt_of_succ_lt hn)).2).1, accOf (atLastOff m c ⟨n + 1, hn⟩ a1 ad a4 (outsAt c n (Nat.lt_of_succ_lt hn)).2).2.1)
    else
      if ad : (n + 1) / 8 = (n + 1) % 8 then
        (outOf (atMidDiag m c ⟨n + 1, hn⟩ a1 ad a4 (outsAt c n (Nat.lt_of_succ_lt hn)).2).1, accOf (atMidDiag m c ⟨n + 1, hn⟩ a1 ad a4 (outsAt c n (Nat.lt_of_succ_lt hn)).2).2.1)
      else
        (outOf (atMidOff m c ⟨n + 1, hn⟩ a1 ad a4 (outsAt c n (Nat.lt_of_succ_lt hn)).2).1, accOf (atMidOff m c ⟨n + 1, hn⟩ a1 ad a4 (outsAt c n (Nat.lt_of_succ_lt hn)).2).2.1)

/-- `outsAt` at a point of key tile 0, off the diagonal. -/
theorem outsAt_FirstOff (c : Dev nD) (t : Fin cfg0.N) (a1 : t.val % 8 = 0) (ad : ¬t.val / 8 = t.val % 8) (a4 : ¬t.val % 8 = 7) :
    outsAt m c t.val t.isLt = (outOf (atFirstOff m c t a1 ad a4).1, accOf (atFirstOff m c t a1 ad a4).2.1) := by
  obtain ⟨n, hn⟩ := t
  cases n with
  | zero => exact absurd (by simp) ad
  | succ n => exact (dif_pos a1).trans rfl

/-- `outsAt` at a point of key tile 0, on the diagonal (the grid's first point). -/
theorem outsAt_FirstDiag (c : Dev nD) (t : Fin cfg0.N) (a1 : t.val % 8 = 0) (ad : t.val / 8 = t.val % 8) (a4 : ¬t.val % 8 = 7) :
    outsAt m c t.val t.isLt = (outOf (atFirstDiag m c t a1 ad a4).1, accOf (atFirstDiag m c t a1 ad a4).2.1) := by
  obtain ⟨n, hn⟩ := t
  cases n with
  | zero => exact rfl
  | succ n => exact (by exfalso; (try dsimp only at a1 ad); omega)

/-- `outsAt` at a point of key tiles 1 to 6, off the diagonal. -/
theorem outsAt_MidOff (c : Dev nD) (t : Fin cfg0.N) (a1 : ¬t.val % 8 = 0) (ad : ¬t.val / 8 = t.val % 8) (a4 : ¬t.val % 8 = 7) :
    outsAt m c t.val t.isLt = (outOf (atMidOff m c t a1 ad a4 (outsAt m c (t.val - 1) (Nat.lt_of_le_of_lt (Nat.sub_le _ _) t.isLt)).2).1, accOf (atMidOff m c t a1 ad a4 (outsAt m c (t.val - 1) (Nat.lt_of_le_of_lt (Nat.sub_le _ _) t.isLt)).2).2.1) := by
  obtain ⟨n, hn⟩ := t
  cases n with
  | zero => exact absurd (Nat.zero_mod _) a1
  | succ n => exact (dif_neg a1).trans ((dif_neg a4).trans ((dif_neg ad).trans rfl))

/-- `outsAt` at a point of key tiles 1 to 6, on the diagonal. -/
theorem outsAt_MidDiag (c : Dev nD) (t : Fin cfg0.N) (a1 : ¬t.val % 8 = 0) (ad : t.val / 8 = t.val % 8) (a4 : ¬t.val % 8 = 7) :
    outsAt m c t.val t.isLt = (outOf (atMidDiag m c t a1 ad a4 (outsAt m c (t.val - 1) (Nat.lt_of_le_of_lt (Nat.sub_le _ _) t.isLt)).2).1, accOf (atMidDiag m c t a1 ad a4 (outsAt m c (t.val - 1) (Nat.lt_of_le_of_lt (Nat.sub_le _ _) t.isLt)).2).2.1) := by
  obtain ⟨n, hn⟩ := t
  cases n with
  | zero => exact absurd (Nat.zero_mod _) a1
  | succ n => exact (dif_neg a1).trans ((dif_neg a4).trans ((dif_pos ad).trans rfl))

/-- `outsAt` at a point of key tile 7, off the diagonal. -/
theorem outsAt_LastOff (c : Dev nD) (t : Fin cfg0.N) (a1 : ¬t.val % 8 = 0) (ad : ¬t.val / 8 = t.val % 8) (a4 : t.val % 8 = 7) :
    outsAt m c t.val t.isLt = (outOf (atLastOff m c t a1 ad a4 (outsAt m c (t.val - 1) (Nat.lt_of_le_of_lt (Nat.sub_le _ _) t.isLt)).2).1, accOf (atLastOff m c t a1 ad a4 (outsAt m c (t.val - 1) (Nat.lt_of_le_of_lt (Nat.sub_le _ _) t.isLt)).2).2.1) := by
  obtain ⟨n, hn⟩ := t
  cases n with
  | zero => exact absurd (Nat.zero_mod _) a1
  | succ n => exact (dif_neg a1).trans ((dif_pos a4).trans ((dif_neg ad).trans rfl))

/-- `outsAt` at a point of key tile 7, on the diagonal (the grid's last point). -/
theorem outsAt_LastDiag (c : Dev nD) (t : Fin cfg0.N) (a1 : ¬t.val % 8 = 0) (ad : t.val / 8 = t.val % 8) (a4 : t.val % 8 = 7) :
    outsAt m c t.val t.isLt = (outOf (atLastDiag m c t a1 ad a4 (outsAt m c (t.val - 1) (Nat.lt_of_le_of_lt (Nat.sub_le _ _) t.isLt)).2).1, accOf (atLastDiag m c t a1 ad a4 (outsAt m c (t.val - 1) (Nat.lt_of_le_of_lt (Nat.sub_le _ _) t.isLt)).2).2.1) := by
  obtain ⟨n, hn⟩ := t
  cases n with
  | zero => exact absurd (Nat.zero_mod _) a1
  | succ n => exact (dif_neg a1).trans ((dif_pos a4).trans ((dif_pos ad).trans rfl))

/-! ## The invariant and the proof data -/

/-- Before position `n`: before the first point the running minimum's buffer at anything; afterwards at what the
    point before left. -/
def PhiS (c : Dev nD) : (n : ℕ) → n ≤ cfg0.N → sProp 𝕄
  | 0, _ => (Pipeline.scopedRest (Ix := Unit) (Name := ℕ) (U := UR sig nD τ) (Lvl := ℕ) (Val := Elt F) spec0 c : sProp 𝕄)
  | n + 1, hn => owns (c : Thread nD τ) accM fullShare ((outsAt m c n hn).2)

theorem PhiS_zero (c : Dev nD) (n : ℕ) (h : n ≤ cfg0.N) (hz : n = 0) : PhiS m c n h = (Pipeline.scopedRest (Ix := Unit) (Name := ℕ) (U := UR sig nD τ) (Lvl := ℕ) (Val := Elt F) spec0 c : sProp 𝕄) := by
  subst hz; rfl
theorem PhiS_succ (c : Dev nD) (n : ℕ) (hn : n < cfg0.N) :
    PhiS m c (n + 1) hn = owns (c : Thread nD τ) accM fullShare ((outsAt m c n hn).2) := rfl
theorem PhiS_pos (c : Dev nD) (n : ℕ) (h : n ≤ cfg0.N) (hz : n ≠ 0) :
    PhiS m c n h = owns (c : Thread nD τ) accM fullShare ((outsAt m c (n - 1) (by omega)).2) := by
  cases n with
  | zero => exact absurd rfl hz
  | succ n => rfl

/-- The proof data on core `c`: the arrays as the region finds them; after the body each input's buffer at its block
    and the output's at `outsAt`; the invariant above; nothing owed; the array of bf16 rows dealt in halves to the two
    windows on it, the other arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 4800000 in
/-- The body at any point: the inputs' buffers hold their blocks; arithmetic on the point says which case it is in;
    that case's run applies, the running minimum handed over at what the point before left (at anything at the first
    point) and taken back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 (grid0.coords t)], after0]
  rw [show (dats m 0 c).leavesExact 1 t = owns (c : Thread nD τ) (ms1 t) fullShare ((dats m 0 c).after 1 t) from by
    unfold Dat.leavesExact; rw [live1 (grid0.coords t)], after1]
  rw [show (dats m 0 c).leavesExact 2 t = owns (c : Thread nD τ) (ms2 t) fullShare ((dats m 0 c).after 2 t) from by
    unfold Dat.leavesExact; rw [live2 (grid0.coords t)], after2]
  have hN : t.val < 64 := lt_of_lt_of_eq t.isLt (show cfg0.N = 64 from N_0)
  by_cases a1 : t.val % 8 = 0
  · have a4 : ¬t.val % 8 = 7 := by omega
    by_cases ad : t.val / 8 = t.val % 8
    · have hz : t.val = 0 := by omega
      rw [Dat.leavesExact_idle (dats m 0 c) 3 t (idle3 t (fun h => a4 ((atLast_iff t).mp h))) (noFlush3 t (fun h => a4 ((atLast_iff t).mp h)))]
      rw [outsAt_FirstDiag m c t a1 ad a4]
      unfold outOf accOf; (try dsimp only)
      rw [PhiS_castSucc m c t, PhiS_zero m c _ _ hz, scopedRest_acc]
      iintro ⟨HS, Ho, ⟨%d0, H0⟩, ⟨%d1, H1⟩, ⟨%d2, H2⟩, ⟨%d3, H3⟩⟩
      iapply ((atFirstDiag m c t a1 ad a4).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (accCoverFirstDiag c _ _ _ _ _ _ _ _ _ _ _ _ _ _ _ _ _ _)
      isplitl [Ho]; · iexact Ho
      isplitl [H0]; · iexact H0
      isplitl [H1]; · iexact H1
      isplitl [H2]; · iexact H2
      iexists _; iexact H3
    · have hz : t.val ≠ 0 := by omega
      rw [Dat.leavesExact_idle (dats m 0 c) 3 t (idle3 t (fun h => a4 ((atLast_iff t).mp h))) (noFlush3 t (fun h => a4 ((atLast_iff t).mp h)))]
      rw [outsAt_FirstOff m c t a1 ad a4]
      unfold outOf accOf; (try dsimp only)
      rw [PhiS_castSucc m c t, PhiS_pos m c _ _ hz]
      iintro ⟨HS, Ho, ⟨%d0, H0⟩, ⟨%d1, H1⟩, ⟨%d2, H2⟩, ⟨%d3, H3⟩⟩
      iapply ((atFirstOff m c t a1 ad a4).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS]
      · unfold owns; iexists _; isplitr
        swap; · iexact HS
        ipureintro; exact View.read_writes_of_cover _ _ _ _ _ (accCoverFirstOff c _ _ _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := by omega
    by_cases a4 : t.val % 8 = 7
    · by_cases ad : t.val / 8 = t.val % 8
      ·
        rw [show (dats m 0 c).leavesExact 3 t = owns (c : Thread nD τ) (ms3 t) fullShare ((dats m 0 c).after 3 t) from by
          unfold Dat.leavesExact; rw [live3 t ((atLast_iff t).mpr a4)], after3]
        rw [outsAt_LastDiag m c t a1 ad a4]
        unfold outOf accOf; (try dsimp only)
        rw [PhiS_castSucc m c t, PhiS_pos m c _ _ hz]
        iintro ⟨HS, Ho, ⟨%d0, H0⟩, ⟨%d1, H1⟩, ⟨%d2, H2⟩, ⟨%d3, H3⟩⟩
        iapply ((atLastDiag m c t a1 ad a4 _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS]
        · unfold owns; iexists _; isplitr
          swap; · iexact HS
          ipureintro; exact View.read_writes_of_cover _ _ _ _ _ (accCoverLastDiag c _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLastDiag c _ _ _ _ _ _ _ _ _ _ _ _ _ _ _ _ _ _ _)
      ·
        rw [show (dats m 0 c).leavesExact 3 t = owns (c : Thread nD τ) (ms3 t) fullShare ((dats m 0 c).after 3 t) from by
          unfold Dat.leavesExact; rw [live3 t ((atLast_iff t).mpr a4)], after3]
        rw [outsAt_LastOff m c t a1 ad a4]
        unfold outOf accOf; (try dsimp only)
        rw [PhiS_castSucc m c t, PhiS_pos m c _ _ hz]
        iintro ⟨HS, Ho, ⟨%d0, H0⟩, ⟨%d1, H1⟩, ⟨%d2, H2⟩, ⟨%d3, H3⟩⟩
        iapply ((atLastOff m c t a1 ad a4 _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS]
        · unfold owns; iexists _; isplitr
          swap; · iexact HS
          ipureintro; exact View.read_writes_of_cover _ _ _ _ _ (accCoverLastOff c _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLastOff c _ _ _ _ _ _ _ _ _ _ _ _ _ _ _ _ _ _ _)
    · by_cases ad : t.val / 8 = t.val % 8
      ·
        rw [Dat.leavesExact_idle (dats m 0 c) 3 t (idle3 t (fun h => a4 ((atLast_iff t).mp h))) (noFlush3 t (fun h => a4 ((atLast_iff t).mp h)))]
        rw [outsAt_MidDiag m c t a1 ad a4]
        unfold outOf accOf; (try dsimp only)
        rw [PhiS_castSucc m c t, PhiS_pos m c _ _ hz]
        iintro ⟨HS, Ho, ⟨%d0, H0⟩, ⟨%d1, H1⟩, ⟨%d2, H2⟩, ⟨%d3, H3⟩⟩
        iapply ((atMidDiag m c t a1 ad a4 _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS]
        · unfold owns; iexists _; isplitr
          swap; · iexact HS
          ipureintro; exact View.read_writes_of_cover _ _ _ _ _ (accCoverMidDiag c _ _ _ _ _ _ _ _ _ _ _ _ _ _ _ _ _ _ _)
        isplitl [Ho]; · iexact Ho
        isplitl [H0]; · iexact H0
        isplitl [H1]; · iexact H1
        isplitl [H2]; · iexact H2
        iexists _; iexact H3
      ·
        rw [Dat.leavesExact_idle (dats m 0 c) 3 t (idle3 t (fun h => a4 ((atLast_iff t).mp h))) (noFlush3 t (fun h => a4 ((atLast_iff t).mp h)))]
        rw [outsAt_MidOff m c t a1 ad a4]
        unfold outOf accOf; (try dsimp only)
        rw [PhiS_castSucc m c t, PhiS_pos m c _ _ hz]
        iintro ⟨HS, Ho, ⟨%d0, H0⟩, ⟨%d1, H1⟩, ⟨%d2, H2⟩, ⟨%d3, H3⟩⟩
        iapply ((atMidOff m c t a1 ad a4 _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS]
        · unfold owns; iexists _; isplitr
          swap; · iexact HS
          ipureintro; exact View.read_writes_of_cover _ _ _ _ _ (accCoverMidOff c _ _ _ _ _ _ _ _ _ _ _ _ _ _ _ _ _ _ _)
        isplitl [Ho]; · iexact Ho
        isplitl [H0]; · iexact H0
        isplitl [H1]; · iexact H1
        isplitl [H2]; · iexact H2
        iexists _; iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.RowMin

end
-- ==== Proof.Kernel.Frame.lean ====
/-
  The whole program run: six host lines, the region, fifteen host lines.

  Between the stretches the core holds every unscoped buffer whole at a valuation: the launch contents; those after
  the first six lines; those with the output array replaced by what the region's write-backs leave; those after the
  last fifteen lines. At the region's entry the array of bf16 rows, which two input windows read, is dealt to them in
  halves, and the halves are put together again at its exit — neither window writes it. Every weakly fair
  execution then terminates, with the argument array as launched and the result at the last valuation.
-/
import proofs.«106038_j61701500175092_2_alg».proof.Proof.Kernel.Accum
import Idealize.ShloMosaic.Lib.Pipeline.Frame

set_option maxRecDepth 16384

noncomputable section

namespace Cert.Kernel.RowMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## The buffers between the stretches -/

/-- What the region's write-backs leave in the output array. -/
abbrev rowMins (c : Dev nD) : Buf (Elt F) ((c : Thread nD τ).loc main_v5) := (dats m 0 c).arrAt 3 cfg0.N
/-- Core `c`'s unscoped buffers after the region: the output array at `rowMins`, the others as the region found them. -/
abbrev V2 (c : Dev nD) : Valuation τ sig (Elt F) := Function.update (V0 m c) main_v5 (rowMins m c)
/-- And after the fifteen lines that follow. -/
abbrev V3 (c : Dev nD) : Valuation τ sig (Elt F) := StableHlo.after hostOps1 (V2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The references the first stretch writes, -/
abbrev written0 : List (Ref sig .tc) := [main_v0, main_v1, main_cst, main_v2, main_v3, main_v4]
theorem hostOps0_writes : (hostOps0 : List (HloOp τ sig (Elt F))).Forall fun op => op.writes ⊆ (written0.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
/-- and the last. -/
abbrev written1 : List (Ref sig .tc) := [main_v6, main_cst_0, main_v7, main_v8, main_v9, main_v10, main_cst_1, main_v11, main_v12, main_v13, main_cst_2, main_v14, main_cst_3, main_v15, main_v16]
theorem hostOps1_writes : (hostOps1 : List (HloOp τ sig (Elt F))).Forall fun op => op.writes ⊆ (written1.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩)

theorem V0_of (c : Dev nD) (r : Ref sig .tc) (h : r ∉ written0) : V0 m c r = Vl m c r :=
  StableHlo.after_of_writes_sub hostOps0 _ hostOps0_writes h
theorem V2_of (c : Dev nD) (r : Ref sig .tc) (h : r ≠ main_v5) : V2 m c r = V0 m c r := by
  simp only [V2, Function.update_of_ne (StableHlo.devRef_ne_of_ne h : (Proc.devRef .tc r : DevRef τ sig) ≠ Proc.devRef .tc main_v5)]
theorem V2_out (c : Dev nD) : V2 m c main_v5 = rowMins m c := by
  simp only [V2, Function.update_self]
theorem V3_of (c : Dev nD) (r : Ref sig .tc) (h : r ∉ written1) : V3 m c r = V2 m c r :=
  StableHlo.after_of_writes_sub hostOps1 _ hostOps1_writes h
/-- No line and no window writes the argument. -/
theorem V3_arg (c : Dev nD) : V3 m c main_arg0 = m ((c : Thread nD τ).loc main_arg0) :=
  (V3_of m c main_arg0 (by decide)).trans <| (V2_of m c main_arg0 (by decide)).trans <| (V0_of m c main_arg0 (by decide)).trans rfl

/-! ## One array behind two windows -/

theorem arrRefs_eq : Finset.univ.image (Pipeline.arrRef spec0) = ({main_v0, main_v4, main_v5} : Finset (Ref sig .tc)) := by decide

/-- The distinct buffers behind the windows' arrays, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v4) ↦{fullShare} W main_v4) ∗ (((c : Thread nD τ).loc main_v5) ↦{fullShare} W main_v5)) := by
  unfold Pipeline.arrBufs
  rw [arrRefs_eq, BI.bigSep_insert (by decide), BI.bigSep_insert (by decide), BI.bigSep_singleton]
  rfl

/-- The windows' holdings, one by one: the two windows on the array of bf16 rows hold a half each. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1) ∗ (((c : Thread nD τ).loc main_v4) ↦{fullShare} G 2) ∗ (((c : Thread nD τ).loc main_v5) ↦{fullShare} G 3)) := by
  unfold Dat.arrays
  rw [bigSep_W0]
  rw [show (cfg0.win 0).arr.view.set = Finset.univ from (arr_whole0 0).set_eq_univ,
    show (cfg0.win 2).arr.view.set = Finset.univ from (arr_whole0 2).set_eq_univ,
    show (cfg0.win 3).arr.view.set = Finset.univ from (arr_whole0 3).set_eq_univ]
  rw [show (dats m 0 c).share 0 = fullShare.left from rfl, show (dats m 0 c).share 1 = fullShare.right from rfl,
    show (dats m 0 c).share 2 = fullShare from rfl, show (dats m 0 c).share 3 = fullShare from rfl]

/-- ENTRY: the whole array of bf16 rows is dealt to its two windows in halves. -/
theorem deal (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_chain, arrays_chain]
  iintro ⟨H0, H4, H5⟩
  ihave Hh := (pointsTo_share (PosShare.mem_left_op_right fullShare)).1 $$ H0
  icases Hh with ⟨Hl, Hr⟩
  isplitl [Hl]; · iexact Hl
  isplitl [Hr]; · iexact Hr
  isplitl [H4]; · iexact H4
  iexact H5

/-- EXIT: the halves, still at the entry contents, make the array whole again; the output array is at `rowMins`. -/
theorem gather (c : Dev nD) :
    (dats m 0 c).arrays ((dats m 0 c).arrAt · cfg0.N) ⊢ (Pipeline.arrBufs (Ix := Unit) (Name := ℕ) (U := UR sig nD τ) (Lvl := ℕ) spec0 c (fun b => V2 m c b) : sProp 𝕄) := by
  rw [arrBufs_chain, arrays_chain]
  rw [(dats m 0 c).arrAt_in 0 rfl, (dats m 0 c).arrAt_in 1 rfl, (dats m 0 c).arrAt_in 2 rfl, A_eq, A_eq, A_eq]
  rw [V2_of m c main_v0 (by decide), V2_of m c main_v4 (by decide), V2_out]
  iintro ⟨Hl, Hr, H4, H5⟩
  isplitl [Hl Hr]
  · iapply (pointsTo_share (PosShare.mem_left_op_right fullShare)).2
    isplitl [Hl]; · iexact Hl
    iexact Hr
  isplitl [H4]; · iexact H4
  iexact H5

/-- The buffers that are no window's array are not touched by the region. -/
theorem rest_kept (c : Dev nD) :
    (Pipeline.unscopedRest (Ix := Unit) (Name := ℕ) (U := UR sig nD τ) (Lvl := ℕ) spec0 c (fun b => V2 m c b) : sProp 𝕄) = Pipeline.unscopedRest spec0 c (V m c) := by
  unfold Pipeline.unscopedRest
  refine bigSep_congr fun b hb => ?_
  have hne : b ≠ main_v5 := fun e => (Finset.mem_sdiff.mp hb).2 (Finset.mem_image.mpr ⟨3, Finset.mem_univ _, e.symm⟩)
  beta_reduce
  rw [V2_of m c b hne]

/-! ## The program as three segments -/

abbrev 𝒱₀ : Variants := Variants.none
/-- No core owes another anything: no level is assigned. -/
abbrev Lz : GSem nD τ sig → Finset Unit := fun _ => ∅
abbrev lvz : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev Owe (c : Dev nD) : sProp 𝕄 := iprop(∃ W, owes (c : Thread nD τ) (0 : CellTallies nD τ sig Unit) W)

/-- The six lines before the region, over the unscoped buffers from the launch contents. -/
def segBefore : HostSeg (Ix := Unit) (Name := ℕ) (U := UR sig nD τ) (Lvl := ℕ) (pcfgs (F := F)) defs₀ 𝒱₀ Lz lvz :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Vl m) Owe
/-- The fifteen lines after it, from the contents the region leaves. -/
def segAfter : HostSeg (Ix := Unit) (Name := ℕ) (U := UR sig nD τ) (Lvl := ℕ) (pcfgs (F := F)) defs₀ 𝒱₀ Lz lvz :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) Owe

set_option backward.isDefEq.respectTransparency.types false in
/-- The region: entered from every unscoped buffer at the contents after the first stretch, left with the output array
    at `rowMins`. Nothing but the running minimum's buffer enters the invariant; every buffer that is no window's array
    bypasses the region. -/
def region : RegionSeg (pcfgs (F := F)) adm (dats m) () defs₀ 𝒱₀ Lz lvz 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ Lz lvz 0 fun _ _ => rfl
  pre c := iprop(StableHlo.held (c : Thread nD τ) (Pipeline.ucRefs τ sig) (V0 m c) ∗ Owe c)
  post c := iprop(StableHlo.held (c : Thread nD τ) (Pipeline.ucRefs τ sig) (V2 m c) ∗ Owe c)
  X _ := iprop(emp)
  Y _ := iprop(emp)
  Z c := Pipeline.unscopedRest spec0 c (V m c)
  hentry c := by
    rw [← Pipeline.unscopedBufs_held (Ix := Unit) (Name := ℕ) (U := UR sig nD τ) (Lvl := ℕ) c (V0 m c),
      Pipeline.unscopedBufs_split₀ cfgs 0 winFacts₀0.arr_unscoped c]
    iintro ⟨⟨⟨Ha, Hrest⟩, HO⟩, -, -⟩
    ihave Harr := (deal m c) $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = (Pipeline.scopedRest (Ix := Unit) (Name := ℕ) (U := UR sig nD τ) (Lvl := ℕ) (Val := Elt F) spec0 c : sProp 𝕄) from rfl]
    iintro ⟨-, -, Hr⟩; iexact Hr
  hout c := by
    rw [Pipeline.ownSems0_none, show (dats m 0 c).Φ (Fin.last cfg0.N) = PhiS m c (Fin.last cfg0.N).val (Nat.le_of_lt_succ (Fin.last cfg0.N).isLt) from rfl,
      PhiS_pos m c _ _ (by rw [Fin.val_last]; have : cfg0.N = 64 := N_0; omega), scopedRest_acc]
    iintro HS
    isplitr; · iempintro
    isplitr; · iempintro
    iexists _; iexact HS
  hexit c := by
    iintro ⟨Ha, HO, -, HZ⟩
    ihave Hb := (gather m c) $$ Ha
    imodintro
    isplitr [HO]
    · rw [← Pipeline.unscopedBufs_held (Ix := Unit) (Name := ℕ) (U := UR sig nD τ) (Lvl := ℕ) c (V2 m c),
        Pipeline.unscopedBufs_split₀ cfgs 0 winFacts₀0.arr_unscoped c, rest_kept]
      isplitl [Hb]; · iexact Hb
      iexact HZ
    · unfold Pipeline.Dat.owesAt Pipeline.owesWithin
      icases HO with ⟨%W, -, HO⟩; iexists W; iexact HO

/-- @main as the list of the three. -/
abbrev segs : List (Seg (pcfgs (F := F)) adm (dats m) () defs₀ 𝒱₀ Lz lvz) := [.host (segBefore m), .region (region m), .host (segAfter m)]

/-- What a final state is read for: the argument array as launched, and the result at the last valuation. -/
def Ends : PUnit × MemSt nD τ sig (Elt F) → Prop := fun r =>
  ∀ c : Dev nD, r.2.mem ((c.tc : Thread nD τ).loc main_v16) = V3 m c main_v16
    ∧ r.2.mem ((c.tc : Thread nD τ).loc main_arg0) = m ((c.tc : Thread nD τ).loc main_arg0)

set_option backward.isDefEq.respectTransparency.types false in
/-- From any memory with zero counters every weakly fair execution of @main terminates, faulting nowhere, the result
    buffer at the last valuation and the argument array unchanged. -/
theorem run_main : θ_run defs (onTc (τ := τ) (main (F := F))) (s₀ m ρ) (Ends m) := by
  refine Pipeline.θ_run_regions_kit (pcfgs (F := F)) adm (dats m) () cellOf_inj emb₁ defs₀ 𝒱₀ Lz lvz m ρ main (segs m)
    (fun c Q => by rw [main_segs adm (dats m) () 𝒱₀ Lz lvz (segBefore m) (segAfter m) (region m) rfl rfl c])
    (by simp only [Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ Owe c))
    (Tₙ := fun c => StableHlo.held (c : Thread nD τ) (Pipeline.ucRefs τ sig) (V3 m c))
    (hch := ⟨fun _ => .rfl, fun _ => .rfl, fun _ => .rfl, fun _ => .rfl⟩)
    (hinit := ?_)
    (QY := fun c s => s.mem ((c.tc : Thread nD τ).loc main_v16) = V3 m c main_v16
      ∧ s.mem ((c.tc : Thread nD τ).loc main_arg0) = m ((c.tc : Thread nD τ).loc main_arg0))
    (hfin := fun c s' => ?_) (hQ := fun _ h => h)
  · refine Pipeline.initEach Lz lvz fun c => ?_
    rw [show unscopedBufs c (fun b => m ((c : Thread nD τ).loc b)) = StableHlo.held (c : Thread nD τ) (Pipeline.ucRefs τ sig) (Vl m c) from
      Pipeline.unscopedBufs_held (Ix := Unit) (Name := ℕ) (U := UR sig nD τ) (Lvl := ℕ) c (Vl m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V3 m c) s') $$ [Hh HSI]
    · isplitl [Hh] <;> iassumption
    icases Hr with ⟨%h, HSI⟩
    imodintro
    isplitr
    · ipureintro
      exact ⟨h (Proc.devRef .tc main_v16) (Finset.mem_filter.mpr ⟨StableHlo.devRef_mem_tcRefs main_v16, by decide⟩),
        (h (Proc.devRef .tc main_arg0) (Finset.mem_filter.mpr ⟨StableHlo.devRef_mem_tcRefs main_arg0, by decide⟩)).trans (V3_arg m c)⟩
    · iexact HSI

/-- THE FRAME: the program runs to the end and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.RowMin

end
-- ==== Proof.KernelIdeal.Setting.lean ====
/-
  The nearest-neighbour kernel's region and what surrounds it.

  The grid is 8 × 8: point t has query tile i = t / 8 and key tile j = t % 8. At j = 0 the running row minimum (a
  [1024,1] scratch) is reset to +inf; at every point it is lowered by the tile's row minima, the diagonal entries
  excluded on the tiles with i = j; at j = 7 it is copied to the output block of query tile i, which is written back
  there and idle everywhere else. Here: the contents of the buffers when the region is entered, each window's block
  read off them, the four branch conditions decided over the grid in closed form, where the output window is idle,
  and the names of the staging and scratch memrefs the body is called with.
-/
import proofs.«106038_j61701500175092_2_alg».proof.Proof.Gen.KernelIdeal.Launch
import proofs.«106038_j61701500175092_2_alg».proof.Proof.Gen.KernelIdeal.Skeleton
import proofs.«106038_j61701500175092_2_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation; -/
abbrev Vl (c : Dev nD) : Valuation τ sig (Elt F) := fun b => m (c, b)
/-- after the six host lines before the region (the bf16 copy, the squares, their row sums, the two reshapes); -/
abbrev V0 (c : Dev nD) : Valuation τ sig (Elt F) := StableHlo.after hostOps0 (Vl m c)
/-- and read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched, the
    block index has not moved since the point before. One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The branch conditions, over the grid -/

/-- Key tile 0: the running minimum is reset. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 8 = 0 :=
  (by decide +kernel : ∀ t : Fin grid0.N, atFirst (grid0.coords t) ↔ t.val % 8 = 0)

/-- Query tile ≠ key tile: no entry of the tile is a distance of a row to itself. -/
abbrev offDiag (i : grid0.Coords) : Prop := (Scalar.cmpi .ne (Scalar.extui (Scalar.cmpi .ne (BitVec.ofNat 32 (i 0).val) (BitVec.ofNat 32 (i 1).val))) 0#32) = 1#1
theorem offDiag_iff : ∀ t : Fin cfg0.N, offDiag (grid0.coords t) ↔ t.val / 8 ≠ t.val % 8 :=
  (by decide +kernel : ∀ t : Fin grid0.N, offDiag (grid0.coords t) ↔ t.val / 8 ≠ t.val % 8)

/-- Query tile = key tile: the tile's diagonal is excluded. -/
abbrev onDiag (i : grid0.Coords) : Prop := (Scalar.cmpi .ne (Scalar.extui (Scalar.cmpi .eq (BitVec.ofNat 32 (i 0).val) (BitVec.ofNat 32 (i 1).val))) 0#32) = 1#1
theorem onDiag_iff : ∀ t : Fin cfg0.N, onDiag (grid0.coords t) ↔ t.val / 8 = t.val % 8 :=
  (by decide +kernel : ∀ t : Fin grid0.N, onDiag (grid0.coords t) ↔ t.val / 8 = t.val % 8)

/-- Key tile 7: the running minimum is copied out. -/
abbrev atLast (i : grid0.Coords) : Prop := k0_cond4 i = 1#1
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live0 : ∀ i, cfg0.idle 0 i = false := fun _ => rfl
theorem live1 : ∀ i, cfg0.idle 1 i = false := fun _ => rfl
theorem live2 : ∀ i, cfg0.idle 2 i = false := fun _ => rfl
/-- Away from key tile 7 the output window is idle and not written back; -/
theorem idle3 : ∀ t : Fin cfg0.N, ¬atLast (grid0.coords t) → cfg0.idle 3 (grid0.coords t) = true := by decide +kernel
theorem noFlush3 : ∀ t : Fin cfg0.N, ¬atLast (grid0.coords t) → (cfg0.win 3).flush t = false := by decide +kernel
/-- at key tile 7 it is live. -/
theorem live3 : ∀ t : Fin cfg0.N, atLast (grid0.coords t) → cfg0.idle 3 (grid0.coords t) = false := by decide +kernel

/-! ## The memrefs the body is called with -/

abbrev ms0 (t : Fin cfg0.N) : Memref sig .tc .vmem S1024x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
/-- The running minimum's buffer, -/
abbrev accM : Memref sig .tc .vmem S1024x1 .f32 := Memref.whole cc0_scratch0
/-- as a view; -/
abbrev accV : View sig .tc .vmem S1024x1 .f32 := accM.view
/-- and one staging buffer of the output window, through which its contents are stated. -/
abbrev outV : View sig .tc .vmem S1024x1 .f32 := (Memref.whole cc0_stg3_0 : Memref sig .tc .vmem S1024x1 .f32).view

/-- The core's scoped buffers that no window stages are the running minimum's buffer, held at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

end Cert.KernelIdeal.RowMin

end
-- ==== Proof.KernelIdeal.Runs.lean ====
/-
  The kernel body run symbolically, once per control case: which of its four conditionals a grid point takes is
  fixed by the key tile being the first, a middle one or the last, and by the tile lying on the diagonal or not.
-/
import proofs.«106038_j61701500175092_2_alg».proof.Proof.KernelIdeal.Setting

set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body at a point of key tile 0, off the diagonal: on whole memrefs — the three input blocks at their contents, the output's
    buffer at contents handed back untouched, the running minimum at anything (it is reset) — it runs to the end
    with the inputs as they were and each buffer it stored into holding the stores' pieces, which the run finds. -/
noncomputable def runFirstOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : atFirst i) (h2 : offDiag i) (h3 : ¬onDiag i) (h4 : ¬atLast i)
    (x0 : Vec F S1024x768 .bf16) (x1 : Vec F S1024x768 .bf16) (x2 : Vec F S1x1024 .f32) :
    Σ' (L3 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__koleo_kernel i arg2 harg2 arg3 harg3 arg4 harg4 arg5 harg5 arg6 harg6) K } := by
  refine ⟨[], ?_, fun xi E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The body at a point of key tile 0, on the diagonal (the grid's first point): on whole memrefs — the three input blocks at their contents, the output's
    buffer at contents handed back untouched, the running minimum at anything (it is reset) — it runs to the end
    with the inputs as they were and each buffer it stored into holding the stores' pieces, which the run finds. -/
noncomputable def runFirstDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : atFirst i) (h2 : ¬offDiag i) (h3 : onDiag i) (h4 : ¬atLast i)
    (x0 : Vec F S1024x768 .bf16) (x1 : Vec F S1024x768 .bf16) (x2 : Vec F S1x1024 .f32) :
    Σ' (L3 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__koleo_kernel i arg2 harg2 arg3 harg3 arg4 harg4 arg5 harg5 arg6 harg6) K } := by
  refine ⟨[], ?_, fun xi E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The body at a point of key tiles 1 to 6, off the diagonal: on whole memrefs — the three input blocks at their contents, the output's
    buffer at contents handed back untouched, the running minimum at what the point before left — it runs to the end
    with the inputs as they were and each buffer it stored into holding the stores' pieces, which the run finds. -/
noncomputable def runMidOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : offDiag i) (h3 : ¬onDiag i) (h4 : ¬atLast i)
    (x0 : Vec F S1024x768 .bf16) (x1 : Vec F S1024x768 .bf16) (x2 : Vec F S1x1024 .f32) (xs : Vec F S1024x1 .f32) :
    Σ' (L3 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__koleo_kernel i arg2 harg2 arg3 harg3 arg4 harg4 arg5 harg5 arg6 harg6) K } := by
  refine ⟨[], ?_, fun xi E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The body at a point of key tiles 1 to 6, on the diagonal: on whole memrefs — the three input blocks at their contents, the output's
    buffer at contents handed back untouched, the running minimum at what the point before left — it runs to the end
    with the inputs as they were and each buffer it stored into holding the stores' pieces, which the run finds. -/
noncomputable def runMidDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : ¬offDiag i) (h3 : onDiag i) (h4 : ¬atLast i)
    (x0 : Vec F S1024x768 .bf16) (x1 : Vec F S1024x768 .bf16) (x2 : Vec F S1x1024 .f32) (xs : Vec F S1024x1 .f32) :
    Σ' (L3 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__koleo_kernel i arg2 harg2 arg3 harg3 arg4 harg4 arg5 harg5 arg6 harg6) K } := by
  refine ⟨[], ?_, fun xi E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The body at a point of key tile 7, off the diagonal: on whole memrefs — the three input blocks at their contents, the output's
    buffer at anything, the running minimum at what the point before left — it runs to the end
    with the inputs as they were and each buffer it stored into holding the stores' pieces, which the run finds. -/
noncomputable def runLastOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : offDiag i) (h3 : ¬onDiag i) (h4 : atLast i)
    (x0 : Vec F S1024x768 .bf16) (x1 : Vec F S1024x768 .bf16) (x2 : Vec F S1x1024 .f32) (xs : Vec F S1024x1 .f32) :
    Σ' (L3 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__koleo_kernel i arg2 harg2 arg3 harg3 arg4 harg4 arg5 harg5 arg6 harg6) K } := by
  refine ⟨?_, ?_, fun E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

set_option maxHeartbeats 1000000 in
/-- The body at a point of key tile 7, on the diagonal (the grid's last point): on whole memrefs — the three input blocks at their contents, the output's
    buffer at anything, the running minimum at what the point before left — it runs to the end
    with the inputs as they were and each buffer it stored into holding the stores' pieces, which the run finds. -/
noncomputable def runLastDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : ¬offDiag i) (h3 : onDiag i) (h4 : atLast i)
    (x0 : Vec F S1024x768 .bf16) (x1 : Vec F S1024x768 .bf16) (x2 : Vec F S1x1024 .f32) (xs : Vec F S1024x1 .f32) :
    Σ' (L3 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__koleo_kernel i arg2 harg2 arg3 harg3 arg4 harg4 arg5 harg5 arg6 harg6) K } := by
  refine ⟨?_, ?_, fun E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.RowMin

end
-- ==== Proof.KernelIdeal.Accum.lean ====
/-
  The running row minimum, point by point, and the body's obligation to the pipeline.

  After point t the running minimum's buffer holds what the point's case stored over what the point before left
  (at key tile 0 it was reset first, so nothing earlier matters), and the output's buffer holds the copy made at
  key tile 7. The array of bf16 rows is behind two input windows — the query tile's rows and the key tile's rows —,
  so each of the two holds one half of it.
-/
import proofs.«106038_j61701500175092_2_alg».proof.Proof.KernelIdeal.Runs
import Idealize.ShloMosaic.Lib.Ring

set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What a list of stores leaves in the running minimum's buffer, read back over anything; -/
def accOf (L : List (View.Piece (Elt F) S1024x1 .f32)) : Vec F S1024x1 .f32 := accV.read (Elt F) (accV.writes (Elt F) accV.junk L)
/-- and in the output window's buffer. -/
def outOf (L : List (View.Piece (Elt F) S1024x1 .f32)) : Vec F S1024x1 .f32 := outV.read (Elt F) (outV.writes (Elt F) outV.junk L)

/-- The body's run at point `t`, a point of key tile 0, off the diagonal: at the point's memrefs and input blocks. -/
abbrev atFirstOff (c : Dev nD) (t : Fin cfg0.N) (a1 : t.val % 8 = 0) (ad : ¬t.val / 8 = t.val % 8) (a4 : ¬t.val % 8 = 7) :=
  runFirstOff (F := F) c (grid0.coords t) (ms0 t) (hs0 t) (ms1 t) (hs1 t) (ms2 t) (hs2 t) (ms3 t) (hs3 t) accM (Memref.isWhole_whole _) ((atFirst_iff t).mpr a1) ((offDiag_iff t).mpr ad) (fun h => ad ((onDiag_iff t).mp h)) (fun h => a4 ((atLast_iff t).mp h)) (iblk m c 0 t) (iblk m c 1 t) (iblk m c 2 t)

/-- Its stores into the running minimum's buffer cover the buffer. -/
theorem accCoverFirstOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : atFirst i) (h2 : offDiag i) (h3 : ¬onDiag i) (h4 : ¬atLast i)
    (x0 : Vec F S1024x768 .bf16) (x1 : Vec F S1024x768 .bf16) (x2 : Vec F S1x1024 .f32) (y : S1024x1.Idx) :
    ∃ pc ∈ (runFirstOff c i arg2 harg2 arg3 harg3 arg4 harg4 arg5 harg5 arg6 harg6 h1 h2 h3 h4 x0 x1 x2).2.1, y ∈ pc.1.set :=
  View.cover_of_tiledL (runFirstOff c i arg2 harg2 arg3 harg3 arg4 harg4 arg5 harg5 arg6 harg6 h1 h2 h3 h4 x0 x1 x2).2.1 S1024x1.size (by sl_kernel_rfl) y

/-- The body's run at point `t`, a point of key tile 0, on the diagonal (the grid's first point): at the point's memrefs and input blocks. -/
abbrev atFirstDiag (c : Dev nD) (t : Fin cfg0.N) (a1 : t.val % 8 = 0) (ad : t.val / 8 = t.val % 8) (a4 : ¬t.val % 8 = 7) :=
  runFirstDiag (F := F) c (grid0.coords t) (ms0 t) (hs0 t) (ms1 t) (hs1 t) (ms2 t) (hs2 t) (ms3 t) (hs3 t) accM (Memref.isWhole_whole _) ((atFirst_iff t).mpr a1) (fun h => ((offDiag_iff t).mp h) ad) ((onDiag_iff t).mpr ad) (fun h => a4 ((atLast_iff t).mp h)) (iblk m c 0 t) (iblk m c 1 t) (iblk m c 2 t)

/-- Its stores into the running minimum's buffer cover the buffer. -/
theorem accCoverFirstDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : atFirst i) (h2 : ¬offDiag i) (h3 : onDiag i) (h4 : ¬atLast i)
    (x0 : Vec F S1024x768 .bf16) (x1 : Vec F S1024x768 .bf16) (x2 : Vec F S1x1024 .f32) (y : S1024x1.Idx) :
    ∃ pc ∈ (runFirstDiag c i arg2 harg2 arg3 harg3 arg4 harg4 arg5 harg5 arg6 harg6 h1 h2 h3 h4 x0 x1 x2).2.1, y ∈ pc.1.set :=
  View.cover_of_tiledL (runFirstDiag c i arg2 harg2 arg3 harg3 arg4 harg4 arg5 harg5 arg6 harg6 h1 h2 h3 h4 x0 x1 x2).2.1 S1024x1.size (by sl_kernel_rfl) y

/-- The body's run at point `t`, a point of key tiles 1 to 6, off the diagonal: at the point's memrefs and input blocks, the running minimum at `xs`. -/
abbrev atMidOff (c : Dev nD) (t : Fin cfg0.N) (a1 : ¬t.val % 8 = 0) (ad : ¬t.val / 8 = t.val % 8) (a4 : ¬t.val % 8 = 7) (xs : Vec F S1024x1 .f32) :=
  runMidOff (F := F) c (grid0.coords t) (ms0 t) (hs0 t) (ms1 t) (hs1 t) (ms2 t) (hs2 t) (ms3 t) (hs3 t) accM (Memref.isWhole_whole _) (fun h => a1 ((atFirst_iff t).mp h)) ((offDiag_iff t).mpr ad) (fun h => ad ((onDiag_iff t).mp h)) (fun h => a4 ((atLast_iff t).mp h)) (iblk m c 0 t) (iblk m c 1 t) (iblk m c 2 t) xs

/-- Its stores into the running minimum's buffer cover the buffer. -/
theorem accCoverMidOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : offDiag i) (h3 : ¬onDiag i) (h4 : ¬atLast i)
    (x0 : Vec F S1024x768 .bf16) (x1 : Vec F S1024x768 .bf16) (x2 : Vec F S1x1024 .f32) (xs : Vec F S1024x1 .f32) (y : S1024x1.Idx) :
    ∃ pc ∈ (runMidOff c i arg2 harg2 arg3 harg3 arg4 harg4 arg5 harg5 arg6 harg6 h1 h2 h3 h4 x0 x1 x2 xs).2.1, y ∈ pc.1.set :=
  View.cover_of_tiledL (runMidOff c i arg2 harg2 arg3 harg3 arg4 harg4 arg5 harg5 arg6 harg6 h1 h2 h3 h4 x0 x1 x2 xs).2.1 S1024x1.size (by sl_kernel_rfl) y

/-- The body's run at point `t`, a point of key tiles 1 to 6, on the diagonal: at the point's memrefs and input blocks, the running minimum at `xs`. -/
abbrev atMidDiag (c : Dev nD) (t : Fin cfg0.N) (a1 : ¬t.val % 8 = 0) (ad : t.val / 8 = t.val % 8) (a4 : ¬t.val % 8 = 7) (xs : Vec F S1024x1 .f32) :=
  runMidDiag (F := F) c (grid0.coords t) (ms0 t) (hs0 t) (ms1 t) (hs1 t) (ms2 t) (hs2 t) (ms3 t) (hs3 t) accM (Memref.isWhole_whole _) (fun h => a1 ((atFirst_iff t).mp h)) (fun h => ((offDiag_iff t).mp h) ad) ((onDiag_iff t).mpr ad) (fun h => a4 ((atLast_iff t).mp h)) (iblk m c 0 t) (iblk m c 1 t) (iblk m c 2 t) xs

/-- Its stores into the running minimum's buffer cover the buffer. -/
theorem accCoverMidDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : ¬offDiag i) (h3 : onDiag i) (h4 : ¬atLast i)
    (x0 : Vec F S1024x768 .bf16) (x1 : Vec F S1024x768 .bf16) (x2 : Vec F S1x1024 .f32) (xs : Vec F S1024x1 .f32) (y : S1024x1.Idx) :
    ∃ pc ∈ (runMidDiag c i arg2 harg2 arg3 harg3 arg4 harg4 arg5 harg5 arg6 harg6 h1 h2 h3 h4 x0 x1 x2 xs).2.1, y ∈ pc.1.set :=
  View.cover_of_tiledL (runMidDiag c i arg2 harg2 arg3 harg3 arg4 harg4 arg5 harg5 arg6 harg6 h1 h2 h3 h4 x0 x1 x2 xs).2.1 S1024x1.size (by sl_kernel_rfl) y

/-- The body's run at point `t`, a point of key tile 7, off the diagonal: at the point's memrefs and input blocks, the running minimum at `xs`. -/
abbrev atLastOff (c : Dev nD) (t : Fin cfg0.N) (a1 : ¬t.val % 8 = 0) (ad : ¬t.val / 8 = t.val % 8) (a4 : t.val % 8 = 7) (xs : Vec F S1024x1 .f32) :=
  runLastOff (F := F) c (grid0.coords t) (ms0 t) (hs0 t) (ms1 t) (hs1 t) (ms2 t) (hs2 t) (ms3 t) (hs3 t) accM (Memref.isWhole_whole _) (fun h => a1 ((atFirst_iff t).mp h)) ((offDiag_iff t).mpr ad) (fun h => ad ((onDiag_iff t).mp h)) ((atLast_iff t).mpr a4) (iblk m c 0 t) (iblk m c 1 t) (iblk m c 2 t) xs

/-- Its stores into the running minimum's buffer cover the buffer. -/
theorem accCoverLastOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : offDiag i) (h3 : ¬onDiag i) (h4 : atLast i)
    (x0 : Vec F S1024x768 .bf16) (x1 : Vec F S1024x768 .bf16) (x2 : Vec F S1x1024 .f32) (xs : Vec F S1024x1 .f32) (y : S1024x1.Idx) :
    ∃ pc ∈ (runLastOff c i arg2 harg2 arg3 harg3 arg4 harg4 arg5 harg5 arg6 harg6 h1 h2 h3 h4 x0 x1 x2 xs).2.1, y ∈ pc.1.set :=
  View.cover_of_tiledL (runLastOff c i arg2 harg2 arg3 harg3 arg4 harg4 arg5 harg5 arg6 harg6 h1 h2 h3 h4 x0 x1 x2 xs).2.1 S1024x1.size (by sl_kernel_rfl) y

/-- Its store into the output's buffer covers the buffer. -/
theorem outCoverLastOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : offDiag i) (h3 : ¬onDiag i) (h4 : atLast i)
    (x0 : Vec F S1024x768 .bf16) (x1 : Vec F S1024x768 .bf16) (x2 : Vec F S1x1024 .f32) (xs : Vec F S1024x1 .f32) (y : S1024x1.Idx) :
    ∃ pc ∈ (runLastOff c i arg2 harg2 arg3 harg3 arg4 harg4 arg5 harg5 arg6 harg6 h1 h2 h3 h4 x0 x1 x2 xs).1, y ∈ pc.1.set :=
  View.cover_of_tiledL (runLastOff c i arg2 harg2 arg3 harg3 arg4 harg4 arg5 harg5 arg6 harg6 h1 h2 h3 h4 x0 x1 x2 xs).1 S1024x1.size (by sl_kernel_rfl) y

/-- The body's run at point `t`, a point of key tile 7, on the diagonal (the grid's last point): at the point's memrefs and input blocks, the running minimum at `xs`. -/
abbrev atLastDiag (c : Dev nD) (t : Fin cfg0.N) (a1 : ¬t.val % 8 = 0) (ad : t.val / 8 = t.val % 8) (a4 : t.val % 8 = 7) (xs : Vec F S1024x1 .f32) :=
  runLastDiag (F := F) c (grid0.coords t) (ms0 t) (hs0 t) (ms1 t) (hs1 t) (ms2 t) (hs2 t) (ms3 t) (hs3 t) accM (Memref.isWhole_whole _) (fun h => a1 ((atFirst_iff t).mp h)) (fun h => ((offDiag_iff t).mp h) ad) ((onDiag_iff t).mpr ad) ((atLast_iff t).mpr a4) (iblk m c 0 t) (iblk m c 1 t) (iblk m c 2 t) xs

/-- Its stores into the running minimum's buffer cover the buffer. -/
theorem accCoverLastDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : ¬offDiag i) (h3 : onDiag i) (h4 : atLast i)
    (x0 : Vec F S1024x768 .bf16) (x1 : Vec F S1024x768 .bf16) (x2 : Vec F S1x1024 .f32) (xs : Vec F S1024x1 .f32) (y : S1024x1.Idx) :
    ∃ pc ∈ (runLastDiag c i arg2 harg2 arg3 harg3 arg4 harg4 arg5 harg5 arg6 harg6 h1 h2 h3 h4 x0 x1 x2 xs).2.1, y ∈ pc.1.set :=
  View.cover_of_tiledL (runLastDiag c i arg2 harg2 arg3 harg3 arg4 harg4 arg5 harg5 arg6 harg6 h1 h2 h3 h4 x0 x1 x2 xs).2.1 S1024x1.size (by sl_kernel_rfl) y

/-- Its store into the output's buffer covers the buffer. -/
theorem outCoverLastDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : ¬offDiag i) (h3 : onDiag i) (h4 : atLast i)
    (x0 : Vec F S1024x768 .bf16) (x1 : Vec F S1024x768 .bf16) (x2 : Vec F S1x1024 .f32) (xs : Vec F S1024x1 .f32) (y : S1024x1.Idx) :
    ∃ pc ∈ (runLastDiag c i arg2 harg2 arg3 harg3 arg4 harg4 arg5 harg5 arg6 harg6 h1 h2 h3 h4 x0 x1 x2 xs).1, y ∈ pc.1.set :=
  View.cover_of_tiledL (runLastDiag c i arg2 harg2 arg3 harg3 arg4 harg4 arg5 harg5 arg6 harg6 h1 h2 h3 h4 x0 x1 x2 xs).1 S1024x1.size (by sl_kernel_rfl) y

/-! ## What the two buffers hold after each point -/

/-- After position `n`: (the output's staging buffer, the running minimum's buffer). The case is the one the closed
    forms select; a case that reads the running minimum takes what position `n - 1` left. Where the output window
    is idle its component is a placeholder nothing consults. -/
def outsAt (c : Dev nD) : (n : ℕ) → n < cfg0.N → Vec F S1024x1 .f32 × Vec F S1024x1 .f32
  | 0, hn => (outOf (atFirstDiag m c ⟨0, hn⟩ (by (try dsimp only)) (by (try dsimp only)) (by (try dsimp only); omega)).1, accOf (atFirstDiag m c ⟨0, hn⟩ (by (try dsimp only)) (by (try dsimp only)) (by (try dsimp only); omega)).2.1)
  | n + 1, hn =>
    if a1 : (n + 1) % 8 = 0 then
      (outOf (atFirstOff m c ⟨n + 1, hn⟩ a1 (by (try dsimp only); omega) (by (try dsimp only); omega)).1, accOf (atFirstOff m c ⟨n + 1, hn⟩ a1 (by (try dsimp only); omega) (by (try dsimp only); omega)).2.1)
    else if a4 : (n + 1) % 8 = 7 then
      if ad : (n + 1) / 8 = (n + 1) % 8 then
        (outOf (atLastDiag m c ⟨n + 1, hn⟩ a1 ad a4 (outsAt c n (Nat.lt_of_succ_lt hn)).2).1, accOf (atLastDiag m c ⟨n + 1, hn⟩ a1 ad a4 (outsAt c n (Nat.lt_of_succ_lt hn)).2).2.1)
      else
        (outOf (atLastOff m c ⟨n + 1, hn⟩ a1 ad a4 (outsAt c n (Nat.lt_of_succ_lt hn)).2).1, accOf (atLastOff m c ⟨n + 1, hn⟩ a1 ad a4 (outsAt c n (Nat.lt_of_succ_lt hn)).2).2.1)
    else
      if ad : (n + 1) / 8 = (n + 1) % 8 then
        (outOf (atMidDiag m c ⟨n + 1, hn⟩ a1 ad a4 (outsAt c n (Nat.lt_of_succ_lt hn)).2).1, accOf (atMidDiag m c ⟨n + 1, hn⟩ a1 ad a4 (outsAt c n (Nat.lt_of_succ_lt hn)).2).2.1)
      else
        (outOf (atMidOff m c ⟨n + 1, hn⟩ a1 ad a4 (outsAt c n (Nat.lt_of_succ_lt hn)).2).1, accOf (atMidOff m c ⟨n + 1, hn⟩ a1 ad a4 (outsAt c n (Nat.lt_of_succ_lt hn)).2).2.1)

/-- `outsAt` at a point of key tile 0, off the diagonal. -/
theorem outsAt_FirstOff (c : Dev nD) (t : Fin cfg0.N) (a1 : t.val % 8 = 0) (ad : ¬t.val / 8 = t.val % 8) (a4 : ¬t.val % 8 = 7) :
    outsAt m c t.val t.isLt = (outOf (atFirstOff m c t a1 ad a4).1, accOf (atFirstOff m c t a1 ad a4).2.1) := by
  obtain ⟨n, hn⟩ := t
  cases n with
  | zero => exact absurd (by simp) ad
  | succ n => exact (dif_pos a1).trans rfl

/-- `outsAt` at a point of key tile 0, on the diagonal (the grid's first point). -/
theorem outsAt_FirstDiag (c : Dev nD) (t : Fin cfg0.N) (a1 : t.val % 8 = 0) (ad : t.val / 8 = t.val % 8) (a4 : ¬t.val % 8 = 7) :
    outsAt m c t.val t.isLt = (outOf (atFirstDiag m c t a1 ad a4).1, accOf (atFirstDiag m c t a1 ad a4).2.1) := by
  obtain ⟨n, hn⟩ := t
  cases n with
  | zero => exact rfl
  | succ n => exact (by exfalso; (try dsimp only at a1 ad); omega)

/-- `outsAt` at a point of key tiles 1 to 6, off the diagonal. -/
theorem outsAt_MidOff (c : Dev nD) (t : Fin cfg0.N) (a1 : ¬t.val % 8 = 0) (ad : ¬t.val / 8 = t.val % 8) (a4 : ¬t.val % 8 = 7) :
    outsAt m c t.val t.isLt = (outOf (atMidOff m c t a1 ad a4 (outsAt m c (t.val - 1) (Nat.lt_of_le_of_lt (Nat.sub_le _ _) t.isLt)).2).1, accOf (atMidOff m c t a1 ad a4 (outsAt m c (t.val - 1) (Nat.lt_of_le_of_lt (Nat.sub_le _ _) t.isLt)).2).2.1) := by
  obtain ⟨n, hn⟩ := t
  cases n with
  | zero => exact absurd (Nat.zero_mod _) a1
  | succ n => exact (dif_neg a1).trans ((dif_neg a4).trans ((dif_neg ad).trans rfl))

/-- `outsAt` at a point of key tiles 1 to 6, on the diagonal. -/
theorem outsAt_MidDiag (c : Dev nD) (t : Fin cfg0.N) (a1 : ¬t.val % 8 = 0) (ad : t.val / 8 = t.val % 8) (a4 : ¬t.val % 8 = 7) :
    outsAt m c t.val t.isLt = (outOf (atMidDiag m c t a1 ad a4 (outsAt m c (t.val - 1) (Nat.lt_of_le_of_lt (Nat.sub_le _ _) t.isLt)).2).1, accOf (atMidDiag m c t a1 ad a4 (outsAt m c (t.val - 1) (Nat.lt_of_le_of_lt (Nat.sub_le _ _) t.isLt)).2).2.1) := by
  obtain ⟨n, hn⟩ := t
  cases n with
  | zero => exact absurd (Nat.zero_mod _) a1
  | succ n => exact (dif_neg a1).trans ((dif_neg a4).trans ((dif_pos ad).trans rfl))

/-- `outsAt` at a point of key tile 7, off the diagonal. -/
theorem outsAt_LastOff (c : Dev nD) (t : Fin cfg0.N) (a1 : ¬t.val % 8 = 0) (ad : ¬t.val / 8 = t.val % 8) (a4 : t.val % 8 = 7) :
    outsAt m c t.val t.isLt = (outOf (atLastOff m c t a1 ad a4 (outsAt m c (t.val - 1) (Nat.lt_of_le_of_lt (Nat.sub_le _ _) t.isLt)).2).1, accOf (atLastOff m c t a1 ad a4 (outsAt m c (t.val - 1) (Nat.lt_of_le_of_lt (Nat.sub_le _ _) t.isLt)).2).2.1) := by
  obtain ⟨n, hn⟩ := t
  cases n with
  | zero => exact absurd (Nat.zero_mod _) a1
  | succ n => exact (dif_neg a1).trans ((dif_pos a4).trans ((dif_neg ad).trans rfl))

/-- `outsAt` at a point of key tile 7, on the diagonal (the grid's last point). -/
theorem outsAt_LastDiag (c : Dev nD) (t : Fin cfg0.N) (a1 : ¬t.val % 8 = 0) (ad : t.val / 8 = t.val % 8) (a4 : t.val % 8 = 7) :
    outsAt m c t.val t.isLt = (outOf (atLastDiag m c t a1 ad a4 (outsAt m c (t.val - 1) (Nat.lt_of_le_of_lt (Nat.sub_le _ _) t.isLt)).2).1, accOf (atLastDiag m c t a1 ad a4 (outsAt m c (t.val - 1) (Nat.lt_of_le_of_lt (Nat.sub_le _ _) t.isLt)).2).2.1) := by
  obtain ⟨n, hn⟩ := t
  cases n with
  | zero => exact absurd (Nat.zero_mod _) a1
  | succ n => exact (dif_neg a1).trans ((dif_pos a4).trans ((dif_pos ad).trans rfl))

/-! ## The invariant and the proof data -/

/-- Before position `n`: before the first point the running minimum's buffer at anything; afterwards at what the
    point before left. -/
def PhiS (c : Dev nD) : (n : ℕ) → n ≤ cfg0.N → sProp 𝕄
  | 0, _ => (Pipeline.scopedRest (Ix := Unit) (Name := ℕ) (U := UR sig nD τ) (Lvl := ℕ) (Val := Elt F) spec0 c : sProp 𝕄)
  | n + 1, hn => owns (c : Thread nD τ) accM fullShare ((outsAt m c n hn).2)

theorem PhiS_zero (c : Dev nD) (n : ℕ) (h : n ≤ cfg0.N) (hz : n = 0) : PhiS m c n h = (Pipeline.scopedRest (Ix := Unit) (Name := ℕ) (U := UR sig nD τ) (Lvl := ℕ) (Val := Elt F) spec0 c : sProp 𝕄) := by
  subst hz; rfl
theorem PhiS_succ (c : Dev nD) (n : ℕ) (hn : n < cfg0.N) :
    PhiS m c (n + 1) hn = owns (c : Thread nD τ) accM fullShare ((outsAt m c n hn).2) := rfl
theorem PhiS_pos (c : Dev nD) (n : ℕ) (h : n ≤ cfg0.N) (hz : n ≠ 0) :
    PhiS m c n h = owns (c : Thread nD τ) accM fullShare ((outsAt m c (n - 1) (by omega)).2) := by
  cases n with
  | zero => exact absurd rfl hz
  | succ n => rfl

/-- The proof data on core `c`: the arrays as the region finds them; after the body each input's buffer at its block
    and the output's at `outsAt`; the invariant above; nothing owed; the array of bf16 rows dealt in halves to the two
    windows on it, the other arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 4800000 in
/-- The body at any point: the inputs' buffers hold their blocks; arithmetic on the point says which case it is in;
    that case's run applies, the running minimum handed over at what the point before left (at anything at the first
    point) and taken back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 (grid0.coords t)], after0]
  rw [show (dats m 0 c).leavesExact 1 t = owns (c : Thread nD τ) (ms1 t) fullShare ((dats m 0 c).after 1 t) from by
    unfold Dat.leavesExact; rw [live1 (grid0.coords t)], after1]
  rw [show (dats m 0 c).leavesExact 2 t = owns (c : Thread nD τ) (ms2 t) fullShare ((dats m 0 c).after 2 t) from by
    unfold Dat.leavesExact; rw [live2 (grid0.coords t)], after2]
  have hN : t.val < 64 := lt_of_lt_of_eq t.isLt (show cfg0.N = 64 from N_0)
  by_cases a1 : t.val % 8 = 0
  · have a4 : ¬t.val % 8 = 7 := by omega
    by_cases ad : t.val / 8 = t.val % 8
    · have hz : t.val = 0 := by omega
      rw [Dat.leavesExact_idle (dats m 0 c) 3 t (idle3 t (fun h => a4 ((atLast_iff t).mp h))) (noFlush3 t (fun h => a4 ((atLast_iff t).mp h)))]
      rw [outsAt_FirstDiag m c t a1 ad a4]
      unfold outOf accOf; (try dsimp only)
      rw [PhiS_castSucc m c t, PhiS_zero m c _ _ hz, scopedRest_acc]
      iintro ⟨HS, Ho, ⟨%d0, H0⟩, ⟨%d1, H1⟩, ⟨%d2, H2⟩, ⟨%d3, H3⟩⟩
      iapply ((atFirstDiag m c t a1 ad a4).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (accCoverFirstDiag c _ _ _ _ _ _ _ _ _ _ _ _ _ _ _ _ _ _)
      isplitl [Ho]; · iexact Ho
      isplitl [H0]; · iexact H0
      isplitl [H1]; · iexact H1
      isplitl [H2]; · iexact H2
      iexists _; iexact H3
    · have hz : t.val ≠ 0 := by omega
      rw [Dat.leavesExact_idle (dats m 0 c) 3 t (idle3 t (fun h => a4 ((atLast_iff t).mp h))) (noFlush3 t (fun h => a4 ((atLast_iff t).mp h)))]
      rw [outsAt_FirstOff m c t a1 ad a4]
      unfold outOf accOf; (try dsimp only)
      rw [PhiS_castSucc m c t, PhiS_pos m c _ _ hz]
      iintro ⟨HS, Ho, ⟨%d0, H0⟩, ⟨%d1, H1⟩, ⟨%d2, H2⟩, ⟨%d3, H3⟩⟩
      iapply ((atFirstOff m c t a1 ad a4).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS]
      · unfold owns; iexists _; isplitr
        swap; · iexact HS
        ipureintro; exact View.read_writes_of_cover _ _ _ _ _ (accCoverFirstOff c _ _ _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := by omega
    by_cases a4 : t.val % 8 = 7
    · by_cases ad : t.val / 8 = t.val % 8
      ·
        rw [show (dats m 0 c).leavesExact 3 t = owns (c : Thread nD τ) (ms3 t) fullShare ((dats m 0 c).after 3 t) from by
          unfold Dat.leavesExact; rw [live3 t ((atLast_iff t).mpr a4)], after3]
        rw [outsAt_LastDiag m c t a1 ad a4]
        unfold outOf accOf; (try dsimp only)
        rw [PhiS_castSucc m c t, PhiS_pos m c _ _ hz]
        iintro ⟨HS, Ho, ⟨%d0, H0⟩, ⟨%d1, H1⟩, ⟨%d2, H2⟩, ⟨%d3, H3⟩⟩
        iapply ((atLastDiag m c t a1 ad a4 _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS]
        · unfold owns; iexists _; isplitr
          swap; · iexact HS
          ipureintro; exact View.read_writes_of_cover _ _ _ _ _ (accCoverLastDiag c _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLastDiag c _ _ _ _ _ _ _ _ _ _ _ _ _ _ _ _ _ _ _)
      ·
        rw [show (dats m 0 c).leavesExact 3 t = owns (c : Thread nD τ) (ms3 t) fullShare ((dats m 0 c).after 3 t) from by
          unfold Dat.leavesExact; rw [live3 t ((atLast_iff t).mpr a4)], after3]
        rw [outsAt_LastOff m c t a1 ad a4]
        unfold outOf accOf; (try dsimp only)
        rw [PhiS_castSucc m c t, PhiS_pos m c _ _ hz]
        iintro ⟨HS, Ho, ⟨%d0, H0⟩, ⟨%d1, H1⟩, ⟨%d2, H2⟩, ⟨%d3, H3⟩⟩
        iapply ((atLastOff m c t a1 ad a4 _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS]
        · unfold owns; iexists _; isplitr
          swap; · iexact HS
          ipureintro; exact View.read_writes_of_cover _ _ _ _ _ (accCoverLastOff c _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLastOff c _ _ _ _ _ _ _ _ _ _ _ _ _ _ _ _ _ _ _)
    · by_cases ad : t.val / 8 = t.val % 8
      ·
        rw [Dat.leavesExact_idle (dats m 0 c) 3 t (idle3 t (fun h => a4 ((atLast_iff t).mp h))) (noFlush3 t (fun h => a4 ((atLast_iff t).mp h)))]
        rw [outsAt_MidDiag m c t a1 ad a4]
        unfold outOf accOf; (try dsimp only)
        rw [PhiS_castSucc m c t, PhiS_pos m c _ _ hz]
        iintro ⟨HS, Ho, ⟨%d0, H0⟩, ⟨%d1, H1⟩, ⟨%d2, H2⟩, ⟨%d3, H3⟩⟩
        iapply ((atMidDiag m c t a1 ad a4 _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS]
        · unfold owns; iexists _; isplitr
          swap; · iexact HS
          ipureintro; exact View.read_writes_of_cover _ _ _ _ _ (accCoverMidDiag c _ _ _ _ _ _ _ _ _ _ _ _ _ _ _ _ _ _ _)
        isplitl [Ho]; · iexact Ho
        isplitl [H0]; · iexact H0
        isplitl [H1]; · iexact H1
        isplitl [H2]; · iexact H2
        iexists _; iexact H3
      ·
        rw [Dat.leavesExact_idle (dats m 0 c) 3 t (idle3 t (fun h => a4 ((atLast_iff t).mp h))) (noFlush3 t (fun h => a4 ((atLast_iff t).mp h)))]
        rw [outsAt_MidOff m c t a1 ad a4]
        unfold outOf accOf; (try dsimp only)
        rw [PhiS_castSucc m c t, PhiS_pos m c _ _ hz]
        iintro ⟨HS, Ho, ⟨%d0, H0⟩, ⟨%d1, H1⟩, ⟨%d2, H2⟩, ⟨%d3, H3⟩⟩
        iapply ((atMidOff m c t a1 ad a4 _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS]
        · unfold owns; iexists _; isplitr
          swap; · iexact HS
          ipureintro; exact View.read_writes_of_cover _ _ _ _ _ (accCoverMidOff c _ _ _ _ _ _ _ _ _ _ _ _ _ _ _ _ _ _ _)
        isplitl [Ho]; · iexact Ho
        isplitl [H0]; · iexact H0
        isplitl [H1]; · iexact H1
        isplitl [H2]; · iexact H2
        iexists _; iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.RowMin

end
-- ==== Proof.KernelIdeal.Frame.lean ====
/-
  The whole program run: six host lines, the region, fifteen host lines.

  Between the stretches the core holds every unscoped buffer whole at a valuation: the launch contents; those after
  the first six lines; those with the output array replaced by what the region's write-backs leave; those after the
  last fifteen lines. At the region's entry the array of bf16 rows, which two input windows read, is dealt to them in
  halves, and the halves are put together again at its exit — neither window writes it. Every weakly fair
  execution then terminates, with the argument array as launched and the result at the last valuation.
-/
import proofs.«106038_j61701500175092_2_alg».proof.Proof.KernelIdeal.Accum
import Idealize.ShloMosaic.Lib.Pipeline.Frame

set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## The buffers between the stretches -/

/-- What the region's write-backs leave in the output array. -/
abbrev rowMins (c : Dev nD) : Buf (Elt F) ((c : Thread nD τ).loc main_v5) := (dats m 0 c).arrAt 3 cfg0.N
/-- Core `c`'s unscoped buffers after the region: the output array at `rowMins`, the others as the region found them. -/
abbrev V2 (c : Dev nD) : Valuation τ sig (Elt F) := Function.update (V0 m c) main_v5 (rowMins m c)
/-- And after the fifteen lines that follow. -/
abbrev V3 (c : Dev nD) : Valuation τ sig (Elt F) := StableHlo.after hostOps1 (V2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The references the first stretch writes, -/
abbrev written0 : List (Ref sig .tc) := [main_v0, main_v1, main_cst, main_v2, main_v3, main_v4]
theorem hostOps0_writes : (hostOps0 : List (HloOp τ sig (Elt F))).Forall fun op => op.writes ⊆ (written0.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
/-- and the last. -/
abbrev written1 : List (Ref sig .tc) := [main_v6, main_cst_0, main_v7, main_v8, main_v9, main_v10, main_cst_1, main_v11, main_v12, main_v13, main_cst_2, main_v14, main_cst_3, main_v15, main_v16]
theorem hostOps1_writes : (hostOps1 : List (HloOp τ sig (Elt F))).Forall fun op => op.writes ⊆ (written1.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩)

theorem V0_of (c : Dev nD) (r : Ref sig .tc) (h : r ∉ written0) : V0 m c r = Vl m c r :=
  StableHlo.after_of_writes_sub hostOps0 _ hostOps0_writes h
theorem V2_of (c : Dev nD) (r : Ref sig .tc) (h : r ≠ main_v5) : V2 m c r = V0 m c r := by
  simp only [V2, Function.update_of_ne (StableHlo.devRef_ne_of_ne h : (Proc.devRef .tc r : DevRef τ sig) ≠ Proc.devRef .tc main_v5)]
theorem V2_out (c : Dev nD) : V2 m c main_v5 = rowMins m c := by
  simp only [V2, Function.update_self]
theorem V3_of (c : Dev nD) (r : Ref sig .tc) (h : r ∉ written1) : V3 m c r = V2 m c r :=
  StableHlo.after_of_writes_sub hostOps1 _ hostOps1_writes h
/-- No line and no window writes the argument. -/
theorem V3_arg (c : Dev nD) : V3 m c main_arg0 = m ((c : Thread nD τ).loc main_arg0) :=
  (V3_of m c main_arg0 (by decide)).trans <| (V2_of m c main_arg0 (by decide)).trans <| (V0_of m c main_arg0 (by decide)).trans rfl

/-! ## One array behind two windows -/

theorem arrRefs_eq : Finset.univ.image (Pipeline.arrRef spec0) = ({main_v0, main_v4, main_v5} : Finset (Ref sig .tc)) := by decide

/-- The distinct buffers behind the windows' arrays, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v4) ↦{fullShare} W main_v4) ∗ (((c : Thread nD τ).loc main_v5) ↦{fullShare} W main_v5)) := by
  unfold Pipeline.arrBufs
  rw [arrRefs_eq, BI.bigSep_insert (by decide), BI.bigSep_insert (by decide), BI.bigSep_singleton]
  rfl

/-- The windows' holdings, one by one: the two windows on the array of bf16 rows hold a half each. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1) ∗ (((c : Thread nD τ).loc main_v4) ↦{fullShare} G 2) ∗ (((c : Thread nD τ).loc main_v5) ↦{fullShare} G 3)) := by
  unfold Dat.arrays
  rw [bigSep_W0]
  rw [show (cfg0.win 0).arr.view.set = Finset.univ from (arr_whole0 0).set_eq_univ,
    show (cfg0.win 2).arr.view.set = Finset.univ from (arr_whole0 2).set_eq_univ,
    show (cfg0.win 3).arr.view.set = Finset.univ from (arr_whole0 3).set_eq_univ]
  rw [show (dats m 0 c).share 0 = fullShare.left from rfl, show (dats m 0 c).share 1 = fullShare.right from rfl,
    show (dats m 0 c).share 2 = fullShare from rfl, show (dats m 0 c).share 3 = fullShare from rfl]

/-- ENTRY: the whole array of bf16 rows is dealt to its two windows in halves. -/
theorem deal (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_chain, arrays_chain]
  iintro ⟨H0, H4, H5⟩
  ihave Hh := (pointsTo_share (PosShare.mem_left_op_right fullShare)).1 $$ H0
  icases Hh with ⟨Hl, Hr⟩
  isplitl [Hl]; · iexact Hl
  isplitl [Hr]; · iexact Hr
  isplitl [H4]; · iexact H4
  iexact H5

/-- EXIT: the halves, still at the entry contents, make the array whole again; the output array is at `rowMins`. -/
theorem gather (c : Dev nD) :
    (dats m 0 c).arrays ((dats m 0 c).arrAt · cfg0.N) ⊢ (Pipeline.arrBufs (Ix := Unit) (Name := ℕ) (U := UR sig nD τ) (Lvl := ℕ) spec0 c (fun b => V2 m c b) : sProp 𝕄) := by
  rw [arrBufs_chain, arrays_chain]
  rw [(dats m 0 c).arrAt_in 0 rfl, (dats m 0 c).arrAt_in 1 rfl, (dats m 0 c).arrAt_in 2 rfl, A_eq, A_eq, A_eq]
  rw [V2_of m c main_v0 (by decide), V2_of m c main_v4 (by decide), V2_out]
  iintro ⟨Hl, Hr, H4, H5⟩
  isplitl [Hl Hr]
  · iapply (pointsTo_share (PosShare.mem_left_op_right fullShare)).2
    isplitl [Hl]; · iexact Hl
    iexact Hr
  isplitl [H4]; · iexact H4
  iexact H5

/-- The buffers that are no window's array are not touched by the region. -/
theorem rest_kept (c : Dev nD) :
    (Pipeline.unscopedRest (Ix := Unit) (Name := ℕ) (U := UR sig nD τ) (Lvl := ℕ) spec0 c (fun b => V2 m c b) : sProp 𝕄) = Pipeline.unscopedRest spec0 c (V m c) := by
  unfold Pipeline.unscopedRest
  refine bigSep_congr fun b hb => ?_
  have hne : b ≠ main_v5 := fun e => (Finset.mem_sdiff.mp hb).2 (Finset.mem_image.mpr ⟨3, Finset.mem_univ _, e.symm⟩)
  beta_reduce
  rw [V2_of m c b hne]

/-! ## The program as three segments -/

abbrev 𝒱₀ : Variants := Variants.none
/-- No core owes another anything: no level is assigned. -/
abbrev Lz : GSem nD τ sig → Finset Unit := fun _ => ∅
abbrev lvz : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev Owe (c : Dev nD) : sProp 𝕄 := iprop(∃ W, owes (c : Thread nD τ) (0 : CellTallies nD τ sig Unit) W)

/-- The six lines before the region, over the unscoped buffers from the launch contents. -/
def segBefore : HostSeg (Ix := Unit) (Name := ℕ) (U := UR sig nD τ) (Lvl := ℕ) (pcfgs (F := F)) defs₀ 𝒱₀ Lz lvz :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Vl m) Owe
/-- The fifteen lines after it, from the contents the region leaves. -/
def segAfter : HostSeg (Ix := Unit) (Name := ℕ) (U := UR sig nD τ) (Lvl := ℕ) (pcfgs (F := F)) defs₀ 𝒱₀ Lz lvz :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) Owe

set_option backward.isDefEq.respectTransparency.types false in
/-- The region: entered from every unscoped buffer at the contents after the first stretch, left with the output array
    at `rowMins`. Nothing but the running minimum's buffer enters the invariant; every buffer that is no window's array
    bypasses the region. -/
def region : RegionSeg (pcfgs (F := F)) adm (dats m) () defs₀ 𝒱₀ Lz lvz 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ Lz lvz 0 fun _ _ => rfl
  pre c := iprop(StableHlo.held (c : Thread nD τ) (Pipeline.ucRefs τ sig) (V0 m c) ∗ Owe c)
  post c := iprop(StableHlo.held (c : Thread nD τ) (Pipeline.ucRefs τ sig) (V2 m c) ∗ Owe c)
  X _ := iprop(emp)
  Y _ := iprop(emp)
  Z c := Pipeline.unscopedRest spec0 c (V m c)
  hentry c := by
    rw [← Pipeline.unscopedBufs_held (Ix := Unit) (Name := ℕ) (U := UR sig nD τ) (Lvl := ℕ) c (V0 m c),
      Pipeline.unscopedBufs_split₀ cfgs 0 winFacts₀0.arr_unscoped c]
    iintro ⟨⟨⟨Ha, Hrest⟩, HO⟩, -, -⟩
    ihave Harr := (deal m c) $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = (Pipeline.scopedRest (Ix := Unit) (Name := ℕ) (U := UR sig nD τ) (Lvl := ℕ) (Val := Elt F) spec0 c : sProp 𝕄) from rfl]
    iintro ⟨-, -, Hr⟩; iexact Hr
  hout c := by
    rw [Pipeline.ownSems0_none, show (dats m 0 c).Φ (Fin.last cfg0.N) = PhiS m c (Fin.last cfg0.N).val (Nat.le_of_lt_succ (Fin.last cfg0.N).isLt) from rfl,
      PhiS_pos m c _ _ (by rw [Fin.val_last]; have : cfg0.N = 64 := N_0; omega), scopedRest_acc]
    iintro HS
    isplitr; · iempintro
    isplitr; · iempintro
    iexists _; iexact HS
  hexit c := by
    iintro ⟨Ha, HO, -, HZ⟩
    ihave Hb := (gather m c) $$ Ha
    imodintro
    isplitr [HO]
    · rw [← Pipeline.unscopedBufs_held (Ix := Unit) (Name := ℕ) (U := UR sig nD τ) (Lvl := ℕ) c (V2 m c),
        Pipeline.unscopedBufs_split₀ cfgs 0 winFacts₀0.arr_unscoped c, rest_kept]
      isplitl [Hb]; · iexact Hb
      iexact HZ
    · unfold Pipeline.Dat.owesAt Pipeline.owesWithin
      icases HO with ⟨%W, -, HO⟩; iexists W; iexact HO

/-- @main as the list of the three. -/
abbrev segs : List (Seg (pcfgs (F := F)) adm (dats m) () defs₀ 𝒱₀ Lz lvz) := [.host (segBefore m), .region (region m), .host (segAfter m)]

/-- What a final state is read for: the argument array as launched, and the result at the last valuation. -/
def Ends : PUnit × MemSt nD τ sig (Elt F) → Prop := fun r =>
  ∀ c : Dev nD, r.2.mem ((c.tc : Thread nD τ).loc main_v16) = V3 m c main_v16
    ∧ r.2.mem ((c.tc : Thread nD τ).loc main_arg0) = m ((c.tc : Thread nD τ).loc main_arg0)

set_option backward.isDefEq.respectTransparency.types false in
/-- From any memory with zero counters every weakly fair execution of @main terminates, faulting nowhere, the result
    buffer at the last valuation and the argument array unchanged. -/
theorem run_main : θ_run defs (onTc (τ := τ) (main (F := F))) (s₀ m ρ) (Ends m) := by
  refine Pipeline.θ_run_regions_kit (pcfgs (F := F)) adm (dats m) () cellOf_inj emb₁ defs₀ 𝒱₀ Lz lvz m ρ main (segs m)
    (fun c Q => by rw [main_segs adm (dats m) () 𝒱₀ Lz lvz (segBefore m) (segAfter m) (region m) rfl rfl c])
    (by simp only [Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ Owe c))
    (Tₙ := fun c => StableHlo.held (c : Thread nD τ) (Pipeline.ucRefs τ sig) (V3 m c))
    (hch := ⟨fun _ => .rfl, fun _ => .rfl, fun _ => .rfl, fun _ => .rfl⟩)
    (hinit := ?_)
    (QY := fun c s => s.mem ((c.tc : Thread nD τ).loc main_v16) = V3 m c main_v16
      ∧ s.mem ((c.tc : Thread nD τ).loc main_arg0) = m ((c.tc : Thread nD τ).loc main_arg0))
    (hfin := fun c s' => ?_) (hQ := fun _ h => h)
  · refine Pipeline.initEach Lz lvz fun c => ?_
    rw [show unscopedBufs c (fun b => m ((c : Thread nD τ).loc b)) = StableHlo.held (c : Thread nD τ) (Pipeline.ucRefs τ sig) (Vl m c) from
      Pipeline.unscopedBufs_held (Ix := Unit) (Name := ℕ) (U := UR sig nD τ) (Lvl := ℕ) c (Vl m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V3 m c) s') $$ [Hh HSI]
    · isplitl [Hh] <;> iassumption
    icases Hr with ⟨%h, HSI⟩
    imodintro
    isplitr
    · ipureintro
      exact ⟨h (Proc.devRef .tc main_v16) (Finset.mem_filter.mpr ⟨StableHlo.devRef_mem_tcRefs main_v16, by decide⟩),
        (h (Proc.devRef .tc main_arg0) (Finset.mem_filter.mpr ⟨StableHlo.devRef_mem_tcRefs main_arg0, by decide⟩)).trans (V3_arg m c)⟩
    · iexact HSI

/-- THE FRAME: the program runs to the end and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.RowMin

end
-- ==== Proof.KernelIdeal.Pieces.lean ====
/-
  What each case's stores leave, as values: the pieces the runs found, read back, are the body's payloads at the
  loaded blocks.
-/
import proofs.«106038_j61701500175092_2_alg».proof.Proof.KernelIdeal.Accum
import Idealize.ShloMosaic.Lib.Pipeline.Value

set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hz : (![0, 0] : Fin 2 → Nat) = fun _ => 0 := funext fun a => by fin_cases a <;> rfl

/-- At a point of key tile 0, off the diagonal the running minimum's buffer is left at the tile's row minima taken with the freshly stored +inf. -/
theorem accFirstOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : atFirst i) (h2 : offDiag i) (h3 : ¬onDiag i) (h4 : ¬atLast i)
    (x0 : Vec F S1024x768 .bf16) (x1 : Vec F S1024x768 .bf16) (x2 : Vec F S1x1024 .f32) :
    accOf (runFirstOff c i arg2 harg2 arg3 harg3 arg4 harg4 arg5 harg5 arg6 harg6 h1 h2 h3 h4 x0 x1 x2).2.1 = k0_pay3 x0 x1 x2 (k0_pay1 (F := F)) := by
  unfold accOf
  rw [View.read_writes_eq_canon _ _ _ (accCoverFirstOff c i arg2 harg2 arg3 harg3 arg4 harg4 arg5 harg5 arg6 harg6 h1 h2 h3 h4 x0 x1 x2)]
  unfold runFirstOff
  dsimp only
  sl_unfold_words
  rw [View.canon_cons_unit_zero (S := S1024x1) hz, View.readCov_unit_zero (S := S1024x1) _ hz]
  simp only [View.readAt_eq_ld, harg2.read_unread, harg3.read_unread, harg4.read_unread, View.ld_unit_zero (S := S1024x768) hz, View.ld_unit_zero (S := S1x1024) hz, View.ld_unit_zero (S := S1024x1) hz]

/-- At a point of key tile 0, on the diagonal (the grid's first point) the running minimum's buffer is left at the tile's row minima (the diagonal excluded) taken with the freshly stored +inf. -/
theorem accFirstDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : atFirst i) (h2 : ¬offDiag i) (h3 : onDiag i) (h4 : ¬atLast i)
    (x0 : Vec F S1024x768 .bf16) (x1 : Vec F S1024x768 .bf16) (x2 : Vec F S1x1024 .f32) :
    accOf (runFirstDiag c i arg2 harg2 arg3 harg3 arg4 harg4 arg5 harg5 arg6 harg6 h1 h2 h3 h4 x0 x1 x2).2.1 = k0_pay4 x0 x1 x2 (k0_pay1 (F := F)) := by
  unfold accOf
  rw [View.read_writes_eq_canon _ _ _ (accCoverFirstDiag c i arg2 harg2 arg3 harg3 arg4 harg4 arg5 harg5 arg6 harg6 h1 h2 h3 h4 x0 x1 x2)]
  unfold runFirstDiag
  dsimp only
  sl_unfold_words
  rw [View.canon_cons_unit_zero (S := S1024x1) hz, View.readCov_unit_zero (S := S1024x1) _ hz]
  simp only [View.readAt_eq_ld, harg2.read_unread, harg3.read_unread, harg4.read_unread, View.ld_unit_zero (S := S1024x768) hz, View.ld_unit_zero (S := S1x1024) hz, View.ld_unit_zero (S := S1024x1) hz]

/-- At a point of key tiles 1 to 6, off the diagonal the running minimum's buffer is left at the tile's row minima taken with what the point before left. -/
theorem accMidOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : offDiag i) (h3 : ¬onDiag i) (h4 : ¬atLast i)
    (x0 : Vec F S1024x768 .bf16) (x1 : Vec F S1024x768 .bf16) (x2 : Vec F S1x1024 .f32) (xs : Vec F S1024x1 .f32) :
    accOf (runMidOff c i arg2 harg2 arg3 harg3 arg4 harg4 arg5 harg5 arg6 harg6 h1 h2 h3 h4 x0 x1 x2 xs).2.1 = k0_pay3 x0 x1 x2 xs := by
  unfold accOf
  rw [View.read_writes_eq_canon _ _ _ (accCoverMidOff c i arg2 harg2 arg3 harg3 arg4 harg4 arg5 harg5 arg6 harg6 h1 h2 h3 h4 x0 x1 x2 xs)]
  unfold runMidOff
  dsimp only
  rw [View.canon_unit_zero hz]
  simp only [View.readAt_eq_ld, harg2.read_unread, harg3.read_unread, harg4.read_unread, harg6.read_unread, View.ld_unit_zero (S := S1024x768) hz, View.ld_unit_zero (S := S1x1024) hz, View.ld_unit_zero (S := S1024x1) hz]

/-- At a point of key tiles 1 to 6, on the diagonal the running minimum's buffer is left at the tile's row minima (the diagonal excluded) taken with what the point before left. -/
theorem accMidDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : ¬offDiag i) (h3 : onDiag i) (h4 : ¬atLast i)
    (x0 : Vec F S1024x768 .bf16) (x1 : Vec F S1024x768 .bf16) (x2 : Vec F S1x1024 .f32) (xs : Vec F S1024x1 .f32) :
    accOf (runMidDiag c i arg2 harg2 arg3 harg3 arg4 harg4 arg5 harg5 arg6 harg6 h1 h2 h3 h4 x0 x1 x2 xs).2.1 = k0_pay4 x0 x1 x2 xs := by
  unfold accOf
  rw [View.read_writes_eq_canon _ _ _ (accCoverMidDiag c i arg2 harg2 arg3 harg3 arg4 harg4 arg5 harg5 arg6 harg6 h1 h2 h3 h4 x0 x1 x2 xs)]
  unfold runMidDiag
  dsimp only
  rw [View.canon_unit_zero hz]
  simp only [View.readAt_eq_ld, harg2.read_unread, harg3.read_unread, harg4.read_unread, harg6.read_unread, View.ld_unit_zero (S := S1024x768) hz, View.ld_unit_zero (S := S1x1024) hz, View.ld_unit_zero (S := S1024x1) hz]

/-- At a point of key tile 7, off the diagonal the running minimum's buffer is left at the tile's row minima taken with what the point before left. -/
theorem accLastOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : offDiag i) (h3 : ¬onDiag i) (h4 : atLast i)
    (x0 : Vec F S1024x768 .bf16) (x1 : Vec F S1024x768 .bf16) (x2 : Vec F S1x1024 .f32) (xs : Vec F S1024x1 .f32) :
    accOf (runLastOff c i arg2 harg2 arg3 harg3 arg4 harg4 arg5 harg5 arg6 harg6 h1 h2 h3 h4 x0 x1 x2 xs).2.1 = k0_pay3 x0 x1 x2 xs := by
  unfold accOf
  rw [View.read_writes_eq_canon _ _ _ (accCoverLastOff c i arg2 harg2 arg3 harg3 arg4 harg4 arg5 harg5 arg6 harg6 h1 h2 h3 h4 x0 x1 x2 xs)]
  unfold runLastOff
  dsimp only
  sl_unfold_words
  rw [View.canon_unit_zero hz]
  simp only [View.readAt_eq_ld, harg2.read_unread, harg3.read_unread, harg4.read_unread, harg6.read_unread, View.ld_unit_zero (S := S1024x768) hz, View.ld_unit_zero (S := S1x1024) hz, View.ld_unit_zero (S := S1024x1) hz]

/-- and the output's buffer holds a copy of it. -/
theorem outLastOff (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : offDiag i) (h3 : ¬onDiag i) (h4 : atLast i)
    (x0 : Vec F S1024x768 .bf16) (x1 : Vec F S1024x768 .bf16) (x2 : Vec F S1x1024 .f32) (xs : Vec F S1024x1 .f32) :
    outOf (runLastOff c i arg2 harg2 arg3 harg3 arg4 harg4 arg5 harg5 arg6 harg6 h1 h2 h3 h4 x0 x1 x2 xs).1 = k0_pay3 x0 x1 x2 xs := by
  unfold outOf
  rw [View.read_writes_eq_canon _ _ _ (outCoverLastOff c i arg2 harg2 arg3 harg3 arg4 harg4 arg5 harg5 arg6 harg6 h1 h2 h3 h4 x0 x1 x2 xs)]
  unfold runLastOff
  dsimp only
  sl_unfold_words
  rw [View.canon_unit_zero hz, View.readCov_unit_zero (S := S1024x1) _ hz]
  simp only [View.readAt_eq_ld, harg2.read_unread, harg3.read_unread, harg4.read_unread, harg6.read_unread, View.ld_unit_zero (S := S1024x768) hz, View.ld_unit_zero (S := S1x1024) hz, View.ld_unit_zero (S := S1024x1) hz]

/-- At a point of key tile 7, on the diagonal (the grid's last point) the running minimum's buffer is left at the tile's row minima (the diagonal excluded) taken with what the point before left. -/
theorem accLastDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : ¬offDiag i) (h3 : onDiag i) (h4 : atLast i)
    (x0 : Vec F S1024x768 .bf16) (x1 : Vec F S1024x768 .bf16) (x2 : Vec F S1x1024 .f32) (xs : Vec F S1024x1 .f32) :
    accOf (runLastDiag c i arg2 harg2 arg3 harg3 arg4 harg4 arg5 harg5 arg6 harg6 h1 h2 h3 h4 x0 x1 x2 xs).2.1 = k0_pay4 x0 x1 x2 xs := by
  unfold accOf
  rw [View.read_writes_eq_canon _ _ _ (accCoverLastDiag c i arg2 harg2 arg3 harg3 arg4 harg4 arg5 harg5 arg6 harg6 h1 h2 h3 h4 x0 x1 x2 xs)]
  unfold runLastDiag
  dsimp only
  sl_unfold_words
  rw [View.canon_unit_zero hz]
  simp only [View.readAt_eq_ld, harg2.read_unread, harg3.read_unread, harg4.read_unread, harg6.read_unread, View.ld_unit_zero (S := S1024x768) hz, View.ld_unit_zero (S := S1x1024) hz, View.ld_unit_zero (S := S1024x1) hz]

/-- and the output's buffer holds a copy of it. -/
theorem outLastDiag (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (h1 : ¬atFirst i) (h2 : ¬offDiag i) (h3 : onDiag i) (h4 : atLast i)
    (x0 : Vec F S1024x768 .bf16) (x1 : Vec F S1024x768 .bf16) (x2 : Vec F S1x1024 .f32) (xs : Vec F S1024x1 .f32) :
    outOf (runLastDiag c i arg2 harg2 arg3 harg3 arg4 harg4 arg5 harg5 arg6 harg6 h1 h2 h3 h4 x0 x1 x2 xs).1 = k0_pay4 x0 x1 x2 xs := by
  unfold outOf
  rw [View.read_writes_eq_canon _ _ _ (outCoverLastDiag c i arg2 harg2 arg3 harg3 arg4 harg4 arg5 harg5 arg6 harg6 h1 h2 h3 h4 x0 x1 x2 xs)]
  unfold runLastDiag
  dsimp only
  sl_unfold_words
  rw [View.canon_unit_zero hz, View.readCov_unit_zero (S := S1024x1) _ hz]
  simp only [View.readAt_eq_ld, harg2.read_unread, harg3.read_unread, harg4.read_unread, harg6.read_unread, View.ld_unit_zero (S := S1024x768) hz, View.ld_unit_zero (S := S1x1024) hz, View.ld_unit_zero (S := S1024x1) hz]

end Cert.KernelIdeal.RowMin

end
-- ==== Proof.KernelIdeal.Running.lean ====
/-
  The running row minimum as a recursion over the grid's points, in the body's own operations: reset and lowered by
  the first key tile, then lowered by each further key tile of the same query tile — on the diagonal tile with the
  diagonal excluded. What the runs left in the running minimum's buffer, and at key tile 7 in the output's, is this.
-/
import proofs.«106038_j61701500175092_2_alg».proof.Proof.KernelIdeal.Pieces

set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The running minimum after position `n`. -/
def accAfter (c : Dev nD) : (n : ℕ) → n < cfg0.N → Vec F S1024x1 .f32
  | 0, h => k0_pay4 (iblk m c 0 ⟨0, h⟩) (iblk m c 1 ⟨0, h⟩) (iblk m c 2 ⟨0, h⟩) (k0_pay1 (F := F))
  | n + 1, h =>
    if (n + 1) % 8 = 0 then k0_pay3 (iblk m c 0 ⟨n + 1, h⟩) (iblk m c 1 ⟨n + 1, h⟩) (iblk m c 2 ⟨n + 1, h⟩) (k0_pay1 (F := F))
    else if (n + 1) / 8 = (n + 1) % 8 then k0_pay4 (iblk m c 0 ⟨n + 1, h⟩) (iblk m c 1 ⟨n + 1, h⟩) (iblk m c 2 ⟨n + 1, h⟩) (accAfter c n (Nat.lt_of_succ_lt h))
    else k0_pay3 (iblk m c 0 ⟨n + 1, h⟩) (iblk m c 1 ⟨n + 1, h⟩) (iblk m c 2 ⟨n + 1, h⟩) (accAfter c n (Nat.lt_of_succ_lt h))

/-- The running minimum's buffer after each point holds it: by induction on the point. -/
theorem outsAt_acc (c : Dev nD) : ∀ (n : ℕ) (h : n < cfg0.N), (outsAt m c n h).2 = accAfter m c n h
  | 0, h => by
    rw [outsAt_FirstDiag m c ⟨0, h⟩ (by (try dsimp only)) (by (try dsimp only)) (by (try dsimp only); omega)]
    dsimp only
    rw [accFirstDiag]
    rfl
  | n + 1, h => by
    have hN : n + 1 < 64 := lt_of_lt_of_eq h (show cfg0.N = 64 from N_0)
    by_cases a1 : (n + 1) % 8 = 0
    · have ad : ¬(n + 1) / 8 = (n + 1) % 8 := by omega
      have a4 : ¬(n + 1) % 8 = 7 := by omega
      rw [outsAt_FirstOff m c ⟨n + 1, h⟩ a1 ad a4]
      dsimp only
      rw [accFirstOff]
      rw [accAfter, if_pos a1]
    · by_cases ad : (n + 1) / 8 = (n + 1) % 8
      · by_cases a4 : (n + 1) % 8 = 7
        · rw [outsAt_LastDiag m c ⟨n + 1, h⟩ a1 ad a4]
          dsimp only
          rw [accLastDiag]
          rw [accAfter, if_neg a1, if_pos ad]
          show k0_pay4 _ _ _ (outsAt m c n _).2 = k0_pay4 _ _ _ (accAfter m c n _)
          rw [outsAt_acc c n]
        · rw [outsAt_MidDiag m c ⟨n + 1, h⟩ a1 ad a4]
          dsimp only
          rw [accMidDiag]
          rw [accAfter, if_neg a1, if_pos ad]
          show k0_pay4 _ _ _ (outsAt m c n _).2 = k0_pay4 _ _ _ (accAfter m c n _)
          rw [outsAt_acc c n]
      · by_cases a4 : (n + 1) % 8 = 7
        · rw [outsAt_LastOff m c ⟨n + 1, h⟩ a1 ad a4]
          dsimp only
          rw [accLastOff]
          rw [accAfter, if_neg a1, if_neg ad]
          show k0_pay3 _ _ _ (outsAt m c n _).2 = k0_pay3 _ _ _ (accAfter m c n _)
          rw [outsAt_acc c n]
        · rw [outsAt_MidOff m c ⟨n + 1, h⟩ a1 ad a4]
          dsimp only
          rw [accMidOff]
          rw [accAfter, if_neg a1, if_neg ad]
          show k0_pay3 _ _ _ (outsAt m c n _).2 = k0_pay3 _ _ _ (accAfter m c n _)
          rw [outsAt_acc c n]

/-- At key tile 7 the output's buffer holds a copy of it. -/
theorem outsAt_out (c : Dev nD) : ∀ (n : ℕ) (h : n < cfg0.N), n % 8 = 7 → (outsAt m c n h).1 = accAfter m c n h
  | 0, h, a4 => absurd a4 (by decide)
  | n + 1, h, a4 => by
    have a1 : ¬(n + 1) % 8 = 0 := by omega
    by_cases ad : (n + 1) / 8 = (n + 1) % 8
    · rw [outsAt_LastDiag m c ⟨n + 1, h⟩ a1 ad a4]
      dsimp only
      rw [outLastDiag]
      rw [accAfter, if_neg a1, if_pos ad]
      show k0_pay4 _ _ _ (outsAt m c n _).2 = k0_pay4 _ _ _ (accAfter m c n _)
      rw [outsAt_acc m c n]
    · rw [outsAt_LastOff m c ⟨n + 1, h⟩ a1 ad a4]
      dsimp only
      rw [outLastOff]
      rw [accAfter, if_neg a1, if_neg ad]
      show k0_pay3 _ _ _ (outsAt m c n _).2 = k0_pay3 _ _ _ (accAfter m c n _)
      rw [outsAt_acc m c n]

end Cert.KernelIdeal.RowMin

end
-- ==== Proof.NearestRow.lean ====
import Idealize.ShloMosaic.PureOps.Ideal
import Idealize.ShloMosaic.PureOps.Ideal.Laws
import Idealize.ShloMosaic.Lib.ValueIdx
import Mathlib.Data.EReal.Operations
import Mathlib.Data.EReal.Inv
import Mathlib.Data.Finset.Fold

/-!
# The nearest-neighbour loss, index by index

For an array `x` of 8192 rows of 768 extended reals, write `sq i = 0 + ∑ₖ x[i,k]·x[i,k]` for the squared
length of row `i` (a sum started from the value of the zero word) and `gram i j = ∑ₖ x[i,k]·x[j,k]` for the
inner product of rows `i` and `j`.

Two ways of writing "the squared distance from row `i` to its nearest other row":

* `refRow x i`: the minimum over `j`, started from `+∞`, of `max ((sq i + sq j) − 2·gram i j) 0`, with the
  diagonal entry `j = i` replaced by `+∞`;
* `kerRow x i`: the minimum over `j`, started from `+∞`, of `sq j − 2·gram i j` with the diagonal entry
  replaced by `+∞`; then `sq i` is added, and the result is clamped below by `0`.

They are equal (`kerRow_eq_refRow`): the map `t ↦ max (t + s) 0` is monotone on the extended reals, so it
commutes with a minimum over a finite family, and it sends `+∞` to `+∞` as soon as `s ≠ −∞`; here `s = sq i`
is a sum of squares, hence non-negative, hence not `−∞`. No finiteness of `x` is used: addition on the
extended reals is commutative and associative at the infinities too, and that is all the rearrangement
`(sq j − c) + sq i = (sq i + sq j) − c` needs.

`lossTail r` is what both programs do with the vector `r` of those 8192 row values: square root, plus a small
constant, logarithm, sum from zero, divide by 8192, negate.

The float literals stay the 32-bit words the programs spell; only `+∞`'s word and the zero word are ever
evaluated.
-/

noncomputable section

namespace Cert.NearestRow

open Idealize.ShloMosaic Idealize.ShloMosaic.ValueIdx

/-- The input's shape: 8192 rows of 768 entries. -/
abbrev SX : Shape := ⟨2, ![8192, 768]⟩
/-- One value per row. -/
abbrev SRow : Shape := ⟨1, ![8192]⟩
/-- A single value. -/
abbrev SOne : Shape := ⟨0, ![]⟩

/-- The input read as extended reals. -/
abbrev Input : Type := SX.Idx → EReal

/-! ## The words that are evaluated -/

/-- The word `0x7F800000` denotes `+∞`. -/
theorem infWord : Ideal.ofBits .f32 0x7F800000#32 = ⊤ := by simp [Ideal.ofBits, Ideal.ieee]

/-- The word `0x00000000` denotes `0`. -/
theorem zeroWord : Ideal.ofBits .f32 0x00000000#32 = 0 := Ideal.ofBits_zero_f32

/-! ## Squared lengths, inner products, and the two row values -/

/-- The squared length of row `i`: the zero word's value plus the sum of the squares of its entries. -/
def sq (x : Input) (i : Fin 8192) : EReal :=
  Ideal.ofBits .f32 0x00000000#32 + ∑ k : Fin 768, x (ix2 i k) * x (ix2 i k)

/-- The inner product of rows `i` and `j`. -/
def gram (x : Input) (i j : Fin 8192) : EReal :=
  ∑ k : Fin 768, x (ix2 i k) * x (ix2 j k)

/-- The clamped squared distance between rows `i` and `j`, by the Gram identity:
    `max ((sq i + sq j) − 2·gram i j) 0`. -/
def dist2 (x : Input) (i j : Fin 8192) : EReal :=
  max ((sq x i + sq x j) - Ideal.ofBits .f32 0x40000000#32 * gram x i j) (Ideal.ofBits .f32 0x00000000#32)

/-- Row `i` of the distance matrix with its diagonal entry replaced by `+∞`. -/
def refEntry (x : Input) (i j : Fin 8192) : EReal :=
  if i = j then Ideal.ofBits .f32 0x7F800000#32 else dist2 x i j

/-- The first form: the minimum, from `+∞`, over `j` of the clamped squared distances, the diagonal excluded. -/
def refRow (x : Input) (i : Fin 8192) : EReal :=
  (Finset.univ : Finset (Fin 8192)).fold min (Ideal.ofBits .f32 0x7F800000#32) (refEntry x i)

/-- The entry the second form minimises: `sq j − 2·gram i j`, the diagonal entry replaced by `+∞`. The row's own
    squared length is not in it. -/
def kerEntry (x : Input) (i j : Fin 8192) : EReal :=
  if i = j then Ideal.ofBits .f32 0x7F800000#32 else sq x j - Ideal.ofBits .f32 0x40000000#32 * gram x i j

/-- The minimum, from `+∞`, over `j` of those entries. -/
def kerMin (x : Input) (i : Fin 8192) : EReal :=
  (Finset.univ : Finset (Fin 8192)).fold min (Ideal.ofBits .f32 0x7F800000#32) (kerEntry x i)

/-- The second form: that minimum plus the row's own squared length, clamped below by `0`. -/
def kerRow (x : Input) (i : Fin 8192) : EReal :=
  max (kerMin x i + sq x i) (Ideal.ofBits .f32 0x00000000#32)

/-! ## The law that joins them -/

/-- A square is non-negative on the extended reals, at the infinities too (`(−∞)·(−∞) = +∞`). -/
theorem mul_self_nonneg (a : EReal) : 0 ≤ a * a := by
  rcases le_total 0 a with h | h
  · exact mul_nonneg h h
  · have h' : 0 ≤ -a := EReal.neg_nonneg.mpr h
    have := mul_nonneg h' h'
    rwa [neg_mul_neg] at this

/-- A squared length is non-negative. -/
theorem sq_nonneg (x : Input) (i : Fin 8192) : 0 ≤ sq x i := by
  unfold sq
  rw [zeroWord, zero_add]
  exact Finset.sum_nonneg fun k _ => mul_self_nonneg _

/-- So it is not `−∞`. -/
theorem sq_ne_bot (x : Input) (i : Fin 8192) : sq x i ≠ ⊥ :=
  fun h => absurd (h ▸ sq_nonneg x i) (not_le.mpr EReal.bot_lt_zero)

/-- Adding `s` and clamping below by `z` is monotone. -/
theorem shiftClamp_mono (s z : EReal) : Monotone fun t : EReal => max (t + s) z :=
  fun _ _ h => max_le_max (add_le_add h le_rfl) le_rfl

/-- A monotone map commutes with the minimum of a finite family (the starting value included). -/
theorem map_fold_min {ι : Type*} (g : EReal → EReal) (hg : Monotone g) (s : Finset ι) (b : EReal) (f : ι → EReal) :
    g (s.fold min b f) = s.fold min (g b) fun j => g (f j) :=
  (Finset.fold_hom (op := min) (op' := min) (m := g) (fun a c => hg.map_min)).symm

/-- The shift-and-clamp sends `+∞` to `+∞` when the shift is not `−∞`. -/
theorem shiftClamp_top {s : EReal} (hs : s ≠ ⊥) (z : EReal) : max (⊤ + s) z = ⊤ := by
  rw [EReal.top_add_of_ne_bot hs]; exact max_eq_left le_top

/-- Away from the diagonal the shifted entry is the Gram identity's: `(sq j − c) + sq i = (sq i + sq j) − c`,
    by commutativity and associativity of addition alone. -/
theorem shift_entry (a b c : EReal) : (b - c) + a = (a + b) - c := by
  rw [sub_eq_add_neg, sub_eq_add_neg, add_comm (b + -c) a, add_assoc]

/-- THE LAW: the two forms of a row's value agree, for every input. -/
theorem kerRow_eq_refRow (x : Input) (i : Fin 8192) : kerRow x i = refRow x i := by
  unfold kerRow kerMin refRow
  rw [map_fold_min (fun t => max (t + sq x i) (Ideal.ofBits .f32 0x00000000#32))
    (shiftClamp_mono _ _) Finset.univ _ (kerEntry x i)]
  have htop : max (Ideal.ofBits .f32 0x7F800000#32 + sq x i) (Ideal.ofBits .f32 0x00000000#32)
      = Ideal.ofBits .f32 0x7F800000#32 := by
    rw [infWord]; exact shiftClamp_top (sq_ne_bot x i) _
  rw [htop]
  refine Finset.fold_congr fun j _ => ?_
  unfold kerEntry refEntry
  by_cases h : i = j
  · rw [if_pos h, if_pos h]; exact htop
  · rw [if_neg h, if_neg h, shift_entry]; rfl

/-! ## What both programs do with the row values -/

theorem rowReduces : SRow.ReducesTo [0] SOne := by decide
theorem oneBroadcasts : SOne.BroadcastsInDim SRow (![] : Fin 0 → Fin SRow.rank) := by decide
theorem oneNonempty : 0 < SOne.numel := by decide

/-- From a vector of 8192 values: square root, plus the word `0x322BCC77` (about `1e-8`), logarithm, the sum started
    from the zero word, divided by the word `0x46000000` (8192), negated. -/
def lossTailVec (v : FVec Ideal SRow .f32) : FVec Ideal SOne .f32 :=
  Host.negf (F := Ideal) (Host.divf (F := Ideal)
    (Host.reduceAdd (F := Ideal)
      (Host.log (F := Ideal) (addf (F := Ideal) (Host.sqrt (F := Ideal) v)
        (broadcastInDim SRow ![] oneBroadcasts (constant (F := Ideal) SOne .f32 0x322BCC77#32))))
      (constant (F := Ideal) SOne .f32 0x00000000#32) rowReduces oneNonempty)
    (constant (F := Ideal) SOne .f32 0x46000000#32))

/-- The same from the row values as a function of the row number. -/
def lossTail (r : Fin 8192 → EReal) : FVec Ideal SOne .f32 :=
  lossTailVec fun j => r (j 0)

end Cert.NearestRow

end
-- ==== Proof.ReferenceRows.lean ====
import proofs.«106038_j61701500175092_2_alg».proof.Proof.Gen.ReferenceIdeal.Read
import proofs.«106038_j61701500175092_2_alg».proof.Proof.NearestRow

/-!
# The reference program computes `lossTail` of the rows' nearest-neighbour values

The reference forms the whole 8192 × 8192 matrix of clamped squared distances by the Gram identity, writes `+∞` on
its diagonal, takes each row's minimum from `+∞`, and finishes with the common tail. Read index by index:

* its row sums of squares are `sq` (`sumsq_eq`), its matrix product with the transpose is `gram` (`dot_eq`);
* so entry `(i, j)` of the clamped matrix is `dist2 x i j` (`clamped_eq`);
* the mask compares the row number with the column number as 32-bit words, which for numbers below 8192 is
  equality of the numbers (`diag_select`), so the masked entry is `refEntry x i j` (`masked_eq`);
* a minimum over one axis from a starting value is the fold of `min` over that axis's coordinates, so row `i`'s
  minimum is `refRow x i` (`rowmin_eq`);
* what is left is the tail, applied to that vector (`ref_value_eq`, `ref_result_eq`).
-/

noncomputable section

namespace Cert.ReferenceIdeal.RefValue

open Cert.ReferenceIdeal Cert.ReferenceIdeal.Gen Cert.ReferenceIdeal.Read Cert.NearestRow
open Idealize.ShloMosaic Idealize.ShloMosaic.ValueIdx

/-- The program's input array, as extended reals. -/
abbrev Arg : Type := (⟨S8192x768, .f32⟩ : BufTy).Contents (Elt Ideal)

/-! ## Sums of squares and inner products -/

/-- The row sums of squares are `sq`. -/
theorem sumsq_eq (x : Arg) (i : Fin 8192) : val_main_v1 (F := Ideal) x (ix1 i) = sq x i := by
  rw [val_main_v1_apply]
  unfold NearestRow.sq
  refine congrArg₂ (· + ·) rfl (Finset.sum_congr rfl fun k _ => ?_)
  have e : idx_main_v1 (ix1 i) k = ix2 i k :=
    funext fun a => Fin.ext (by match a with | ⟨0, _⟩ => rfl | ⟨1, _⟩ => rfl)
  rw [val_main_v0_apply, e]
  rfl

/-- The product with the transpose is `gram`. -/
theorem dot_eq (x : Arg) (i j : Fin 8192) : val_main_v8 (F := Ideal) x (ix2 i j) = gram x i j := by
  rw [val_main_v8_apply]
  unfold gram
  refine Finset.sum_congr rfl fun k _ => ?_
  have el : lidx_main_v8 (ix2 i j) k = ix2 i k :=
    funext fun a => Fin.ext (by match a with | ⟨0, _⟩ => rfl | ⟨1, _⟩ => rfl)
  have er : idx_main_v7 (ridx_main_v8 (ix2 i j) k) = ix2 j k :=
    funext fun a => Fin.ext (by match a with | ⟨0, _⟩ => rfl | ⟨1, _⟩ => rfl)
  rw [val_main_v7_apply, el, er]

/-! ## The clamped matrix of squared distances -/

/-- Entry `(i, j)` of the clamped matrix is the Gram identity's clamped squared distance. -/
theorem clamped_eq (x : Arg) (i j : Fin 8192) : val_main_v13 (F := Ideal) x (ix2 i j) = dist2 x i j := by
  have e4 : idx_main_v2 (idx_main_v4 (ix2 i j)) = ix1 i :=
    funext fun a => Fin.ext (by match a with | ⟨0, _⟩ => rfl)
  have e5 : idx_main_v3 (idx_main_v5 (ix2 i j)) = ix1 j :=
    funext fun a => Fin.ext (by match a with | ⟨0, _⟩ => rfl)
  rw [val_main_v13_apply, val_main_v11_apply, val_main_v6_apply, val_main_v4_apply, val_main_v2_apply,
    val_main_v5_apply, val_main_v3_apply, val_main_v10_apply, val_main_v9_apply, val_main_cst_0_apply,
    val_main_v12_apply, val_main_cst_1_apply, e4, e5, sumsq_eq, sumsq_eq, dot_eq]
  rfl

/-! ## The diagonal mask -/

/-- Comparing two numbers below 8192 as 32-bit words (after adding the zero word to the first) is comparing the
    numbers. -/
theorem diag_select {α : Type} (i j : Fin 8192) (A B : α) :
    Scalar.select (IntOp.cmpi .eq (IntOp.addi (BitVec.ofNat 32 i.val) 0#32) (BitVec.ofNat 32 j.val)) A B
      = if i = j then A else B := by
  have hw : BitVec.ofNat 32 i.val = BitVec.ofNat 32 j.val ↔ i = j := by
    constructor
    · intro e
      have h := congrArg BitVec.toNat e
      simp only [BitVec.toNat_ofNat] at h
      have := i.isLt; have := j.isLt
      exact Fin.ext (by omega)
    · rintro rfl; rfl
  show (if BitVec.ofBool (BitVec.ofNat 32 i.val + 0#32 == BitVec.ofNat 32 j.val) = 1#1 then A else B) = _
  rw [BitVec.add_zero]
  by_cases e : i = j
  · subst e; simp
  · have ne : (BitVec.ofNat 32 i.val == BitVec.ofNat 32 j.val) = false :=
      beq_eq_false_iff_ne.mpr fun h => e (hw.mp h)
    rw [ne, if_neg e]
    exact if_neg (by decide)

/-- Entry `(i, j)` of the masked matrix: `+∞` on the diagonal, the clamped squared distance off it. -/
theorem masked_eq (x : Arg) (i j : Fin 8192) : val_main_v19 (F := Ideal) x (ix2 i j) = refEntry x i j := by
  rw [val_main_v19_apply, val_main_v18_apply, val_main_v17_apply, val_main_v14_apply, val_main_v16_apply,
    val_main_c_apply, val_main_v15_apply, val_main_call0_v1_apply, val_main_call0_v0_apply, val_main_cst_2_apply,
    clamped_eq]
  exact diag_select i j _ _

/-! ## The row minimum -/

theorem matrixReduces : S8192x8192.Reduces [1] S8192 := by decide

/-- Row `i` with column `k` put back is `(i, k)`. -/
theorem lift_row (i : Fin 8192) (k : Fin (S8192x8192.size 1)) :
    matrixReduces.lift (ix1 i) k = ix2 i (⟨k.val, k.isLt⟩ : Fin 8192) := by
  funext c; apply Fin.ext
  match c with
  | ⟨0, _⟩ => rfl
  | ⟨1, _⟩ => rfl

/-- Row `i`'s minimum is `refRow x i`. -/
theorem rowmin_eq (x : Arg) (i : Fin 8192) : val_main_v20 (F := Ideal) x (ix1 i) = refRow x i := by
  unfold val_main_v20
  refine (Host.reduce_eq_fold_single (FloatOps.minimumf (F := Ideal) (φ := .f32))
    (val_main_v19 (F := Ideal) x : FVec Ideal S8192x8192 .f32) (val_main_cst_3 (F := Ideal) : FVec Ideal S_ .f32)
    reducesTo_S8192x8192_S8192_d1 matrixReduces h_S_ (ix1 i)).trans ?_
  unfold refRow
  have hf : (val_main_v19 (F := Ideal) x ∘ matrixReduces.lift (ix1 i)) = fun k : Fin 8192 => refEntry x i k :=
    funext fun k => by
      show val_main_v19 (F := Ideal) x (matrixReduces.lift (ix1 i) k) = _
      rw [lift_row]; exact masked_eq x i _
  exact congrArg (fun f => Finset.fold min (Ideal.ofBits .f32 0x7F800000#32) f (Finset.univ : Finset (Fin 8192))) hf

/-- The vector of row minima is the vector of the `refRow`s. -/
theorem rowmin_vec (x : Arg) : val_main_v20 (F := Ideal) x = fun j => refRow x (j 0) :=
  funext fun j => by rw [eq_ix1 j]; exact rowmin_eq x (j 0)

/-! ## The result -/

/-- The reference's result, as its stage-by-stage reading names it, is the tail of the rows' nearest-neighbour values. -/
theorem ref_value_eq (x : Arg) : val_main_v27 (F := Ideal) x = lossTail fun i => refRow x i := by
  show lossTailVec (val_main_v20 (F := Ideal) x) = lossTailVec fun j => refRow x (j 0)
  rw [rowmin_vec]

/-- The same with the run's own term on the left: the operations' composed term of the argument, as the run states
    it, is the tail of the rows' nearest-neighbour values. -/
theorem ref_result_eq (x : FVec Ideal S8192x768 .f32) :
    Host.negf (F := Ideal) (Host.divf (Host.reduceAdd (Host.log (addf (Host.sqrt (Host.reduce FloatOps.minimumf (select (cmpi .eq (addi (iotaInDim S8192x8192 32 0) (broadcastInDim S8192x8192 ![] bcast_S_S8192x8192 (constantI S_ 32 0#32))) (iotaInDim S8192x8192 32 1)) (broadcastInDim S8192x8192 ![] bcast_S_S8192x8192 (id (constant S_ .f32 0x7F800000#32))) (maximumf (subf (addf (broadcastInDim S8192x8192 ![0, 1] bcast_S8192x1_S8192x8192_0_1 (broadcastInDim S8192x1 ![0] bcast_S8192_S8192x1_0 (Host.reduceAdd (mulf (x) (x)) (constant S_ .f32 0x00000000#32) reducesTo_S8192x768_S8192_d1 h_S_))) (broadcastInDim S8192x8192 ![0, 1] bcast_S1x8192_S8192x8192_0_1 (broadcastInDim S1x8192 ![1] bcast_S8192_S1x8192_1 (Host.reduceAdd (mulf (x) (x)) (constant S_ .f32 0x00000000#32) reducesTo_S8192x768_S8192_d1 h_S_)))) (mulf (broadcastInDim S8192x8192 ![] bcast_S_S8192x8192 (constant S_ .f32 0x40000000#32)) (Host.dotGeneral dot_S8192x768_S768x8192_S8192x8192_1_0_0_1_n_n none (x) (transpose S768x8192 [1, 0] (x) transposes_S8192x768_S768x8192_1_0)))) (broadcastInDim S8192x8192 ![] bcast_S_S8192x8192 (constant S_ .f32 0x00000000#32)))) (constant S_ .f32 0x7F800000#32) reducesTo_S8192x8192_S8192_d1 h_S_)) (broadcastInDim S8192 ![] bcast_S_S8192 (constant S_ .f32 0x322BCC77#32)))) (constant S_ .f32 0x00000000#32) reducesTo_S8192_S_d0 h_S_) (constant S_ .f32 0x46000000#32))
      = lossTail fun i => refRow x i :=
  (val_main_v27_eq (F := Ideal) x).trans (ref_value_eq x)

open Idealize.ShloMosaic.TcCoe Idealize.SL.Sem Idealize.ShloMosaic.StableHlo in
/-- The reference's run with its result named: from any memory with zero counters every weakly fair execution ends
    with the result buffer at the tail of the rows' nearest-neighbour values of the argument, the argument unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27)
          = lossTail (fun i => refRow (m ((c.tc : Thread nD τ).loc main_arg0)) i)
        ∧ r.2.mem ((c.tc : Thread nD τ).loc main_arg0) = m ((c.tc : Thread nD τ).loc main_arg0) :=
  (θ_run defs _ _).mono
    (fun _ h c => ⟨(h c).1.trans ((val_main_v27_eq (F := Ideal) _).trans (ref_value_eq _)), (h c).2⟩)
    (Cert.ReferenceIdeal.Value.run (F := Ideal) m ρ)

end Cert.ReferenceIdeal.RefValue

end
-- ==== Proof.TileMin.lean ====
import Mathlib.Data.EReal.Basic
import Mathlib.Data.Finset.Fold
import Mathlib.Data.Fintype.Basic

/-!
# A minimum over 8192 columns, taken 1024 columns at a time

The 8192 columns are cut into 8 tiles of 1024; column `b·1024 + c` is column `c` of tile `b`. A running value
starts at `e`; step `b` replaces it by the minimum of itself and the minimum, from `e`, over tile `b`. After the
eight steps the running value is the minimum, from `e`, over all 8192 columns (`tileAcc_eight`). Nothing is
asked of `e`: a minimum is idempotent, so meeting `e` again in every tile changes nothing.

The proof is by the universal property of a minimum: `c` is below the running value after `n` steps exactly
when it is below `e` and below every entry in the first `n·1024` columns.
-/

noncomputable section

namespace Cert.NearestRow

variable (e : EReal) (f : Fin 8192 → EReal)

/-- Column `c` of tile `b`, as a column of the whole. -/
def tileCol (b : Fin 8) (c : Fin 1024) : Fin 8192 :=
  ⟨b.val * 1024 + c.val, by have := b.isLt; have := c.isLt; omega⟩

@[simp] theorem tileCol_val (b : Fin 8) (c : Fin 1024) : (tileCol b c).val = b.val * 1024 + c.val := rfl

/-- Two columns of one tile are the same column of the whole only if they are the same column of the tile. -/
theorem tileCol_inj (b : Fin 8) {c c' : Fin 1024} : tileCol b c = tileCol b c' ↔ c = c' := by
  constructor
  · intro h
    have := congrArg Fin.val h
    simp only [tileCol_val] at this
    exact Fin.ext (by omega)
  · rintro rfl; rfl

/-- A column of the whole lies in tile `b` exactly when its number divided by 1024 is `b`. -/
theorem eq_tileCol_iff (j : Fin 8192) (b : Fin 8) (c : Fin 1024) :
    j = tileCol b c ↔ j.val / 1024 = b.val ∧ j.val % 1024 = c.val := by
  constructor
  · rintro rfl
    have := c.isLt
    simp only [tileCol_val]
    omega
  · rintro ⟨h1, h2⟩
    apply Fin.ext
    simp only [tileCol_val]
    omega

/-- A column outside tile `b` is none of the tile's columns. -/
theorem ne_tileCol_of_div_ne {j : Fin 8192} {b : Fin 8} (h : j.val / 1024 ≠ b.val) (c : Fin 1024) :
    j ≠ tileCol b c :=
  fun hj => h ((eq_tileCol_iff j b c).mp hj).1

/-- The minimum, from `e`, over the 1024 columns of tile `b`. -/
def tileMin (b : Fin 8) : EReal :=
  (Finset.univ : Finset (Fin 1024)).fold min e fun c => f (tileCol b c)

/-- Two families that agree on a tile have the same minimum there. -/
theorem tileMin_congr {f g : Fin 8192 → EReal} (b : Fin 8) (h : ∀ c : Fin 1024, f (tileCol b c) = g (tileCol b c)) :
    tileMin e f b = tileMin e g b :=
  Finset.fold_congr fun c _ => h c

/-- The running value after `n` steps (it stays put once the eight tiles are used up). -/
def tileAcc : ℕ → EReal
  | 0 => e
  | n + 1 => if h : n < 8 then min (tileAcc n) (tileMin e f ⟨n, h⟩) else tileAcc n

@[simp] theorem tileAcc_zero : tileAcc e f 0 = e := rfl

/-- One step: the running value on the left, the tile's minimum on the right. -/
theorem tileAcc_succ {n : ℕ} (h : n < 8) :
    tileAcc e f (n + 1) = min (tileAcc e f n) (tileMin e f ⟨n, h⟩) := by
  rw [tileAcc, dif_pos h]

/-- Below the running value after `n` steps = below `e` and below every entry of the first `n·1024` columns. -/
theorem le_tileAcc (c : EReal) : ∀ n : ℕ, n ≤ 8 →
    (c ≤ tileAcc e f n ↔ c ≤ e ∧ ∀ j : Fin 8192, j.val < n * 1024 → c ≤ f j)
  | 0, _ => by
    rw [tileAcc_zero]
    exact ⟨fun h => ⟨h, fun j hj => absurd hj (by omega)⟩, fun h => h.1⟩
  | n + 1, hn => by
    have h : n < 8 := by omega
    rw [tileAcc_succ e f h, le_min_iff, le_tileAcc c n (by omega), tileMin, Finset.le_fold_min]
    constructor
    · rintro ⟨⟨he, hlo⟩, _, hhi⟩
      refine ⟨he, fun j hj => ?_⟩
      by_cases hjn : j.val < n * 1024
      · exact hlo j hjn
      · have hc := hhi ⟨j.val - n * 1024, by omega⟩ (Finset.mem_univ _)
        have hj' : tileCol ⟨n, h⟩ ⟨j.val - n * 1024, by omega⟩ = j := by
          apply Fin.ext; simp only [tileCol_val]; omega
        rwa [hj'] at hc
    · rintro ⟨he, hall⟩
      refine ⟨⟨he, fun j hj => hall j (by omega)⟩, he, fun c' _ => hall _ ?_⟩
      have := c'.isLt
      simp only [tileCol_val]; omega

/-- THE TILING LAW: after the eight steps the running value is the minimum, from `e`, over all columns. -/
theorem tileAcc_eight : tileAcc e f 8 = (Finset.univ : Finset (Fin 8192)).fold min e f := by
  refine eq_of_forall_le_iff fun c => ?_
  rw [le_tileAcc e f c 8 le_rfl, Finset.le_fold_min]
  exact ⟨fun ⟨he, h⟩ => ⟨he, fun j _ => h j (by have := j.isLt; omega)⟩,
    fun ⟨he, h⟩ => ⟨he, fun j _ => h j (Finset.mem_univ _)⟩⟩

/-- Any sequence that starts at `e` and steps as written — the running value on the left, the tile's minimum on
    the right — is the running value. -/
theorem eq_tileAcc (a : ℕ → EReal) (h0 : a 0 = e)
    (hs : ∀ (n : ℕ) (h : n < 8), a (n + 1) = min (a n) (tileMin e f ⟨n, h⟩)) :
    ∀ n : ℕ, n ≤ 8 → a n = tileAcc e f n
  | 0, _ => h0
  | n + 1, hn => by
    rw [hs n (by omega), tileAcc_succ e f (by omega), eq_tileAcc a h0 hs n (by omega)]

/-- So after eight such steps it is the minimum over all columns. -/
theorem steps_eight (a : ℕ → EReal) (h0 : a 0 = e)
    (hs : ∀ (n : ℕ) (h : n < 8), a (n + 1) = min (a n) (tileMin e f ⟨n, h⟩)) :
    a 8 = (Finset.univ : Finset (Fin 8192)).fold min e f :=
  (eq_tileAcc e f a h0 hs 8 le_rfl).trans (tileAcc_eight e f)

end Cert.NearestRow

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelIdeal.Blocks.lean ====
/-
  The windows' blocks and the host lines before the region, read at an index, at the ideal values.

  At grid point t the query tile is t / 8 and the key tile t % 8. The first window's block is the query tile's 1024
  rows of the input (the bf16 copy is the input itself at the ideal values), the second the key tile's rows, the
  third the key tile's squared row lengths.
-/
import proofs.«106038_j61701500175092_2_alg».proof.Proof.KernelIdeal.Running
import proofs.«106038_j61701500175092_2_alg».proof.Proof.ReferenceRows
import proofs.«106038_j61701500175092_2_alg».proof.Proof.TileMin
import proofs.«106038_j61701500175092_2_alg».proof.Proof.LibKeepdims
import Idealize.ShloMosaic.Lib.ValueIdx
import Idealize.ShloMosaic.Lib.ValueLayout
import Idealize.ShloMosaic.Lib.StableHlo.Run

set_option maxRecDepth 16384

noncomputable section

namespace Cert.KernelIdeal.RowMin

open Cert.KernelIdeal Cert.KernelIdeal.Gen
open Idealize.ShloMosaic Idealize.ShloMosaic.TcCoe Idealize.ShloMosaic.ValueIdx Idealize.SL.Sem
open Idealize.ShloMosaic.Pipeline (Dat)
open Cert.NearestRow (Input kerEntry kerMin kerRow gram tileCol tileMin tileAcc)

variable (m : (ℓ : Loc nD τ sig) → Buf (Elt Ideal) ℓ)

/-- The input array, as the specification reads it. -/
abbrev xin (c : Dev nD) : Input := m ((c : Thread nD τ).loc main_arg0)

/-- The query tile and the key tile of a grid point. -/
def qt (t : Fin cfg0.N) : Fin 8 := ⟨t.val / 8, by have := lt_of_lt_of_eq t.isLt (show cfg0.N = 64 from N_0); omega⟩
def kt (t : Fin cfg0.N) : Fin 8 := ⟨t.val % 8, Nat.mod_lt _ (by decide)⟩

/-- The printed index maps, decided over the grid. -/
theorem index_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = 0 :=
  (by decide +kernel : ∀ t : Fin grid0.N, _)

/-! ## The host lines before the region -/

/-- The bf16 copy of the input is the input. -/
theorem V_rows (c : Dev nD) : (V m c main_v0 : S8192x768.Idx → EReal) = xin m c := by
  show StableHlo.after hostOps0 _ (Proc.devRef .tc main_v0) = _
  after_results
  rfl

/-- The squared row lengths as a row, -/
theorem V_sqrow (c : Dev nD) (j : Fin 8192) : (V m c main_v4 : S1x8192.Idx → EReal) (ix2 (0 : Fin 1) j) = NearestRow.sq (xin m c) j := by
  have e : (V m c main_v4 : S1x8192.Idx → EReal)
      = shapeCast S1x8192 (Cert.ReferenceIdeal.Read.val_main_v1 (F := Ideal) (xin m c)) shapeCasts_S8192_S1x8192 := by
    show StableHlo.after hostOps0 _ (Proc.devRef .tc main_v4) = _
    after_results
    rfl
  rw [e, shapeCast_a_1a_apply]
  exact Cert.ReferenceIdeal.RefValue.sumsq_eq (xin m c) j

/-- and as a column. -/
theorem V_sqcol (c : Dev nD) (i : Fin 8192) : (V m c main_v3 : S8192x1.Idx → EReal) (ix2 i (0 : Fin 1)) = NearestRow.sq (xin m c) i := by
  have e : (V m c main_v3 : S8192x1.Idx → EReal)
      = shapeCast S8192x1 (Cert.ReferenceIdeal.Read.val_main_v1 (F := Ideal) (xin m c)) shapeCasts_S8192_S8192x1 := by
    show StableHlo.after hostOps0 _ (Proc.devRef .tc main_v3) = _
    after_results
    rfl
  rw [e, Cert.Lib.shapeCast_a_a1_apply]
  exact Cert.ReferenceIdeal.RefValue.sumsq_eq (xin m c) i

/-! ## The blocks -/

/-- The first window's block at `t`: the query tile's rows. -/
theorem iblk0_apply (c : Dev nD) (t : Fin cfg0.N) (r : Fin 1024) (k : Fin 768) :
    (iblk m c 0 t : Vec Ideal S1024x768 .bf16) (ix2 r k) = xin m c (ix2 (tileCol (qt t) r) k) := by
  obtain ⟨e0, e1, -⟩ := index_facts t
  unfold iblk
  rw [View.read_apply]
  show V m c main_v0 _ = _
  rw [← V_rows m c]
  show V m c main_v0 _ = V m c main_v0 _
  congr 1
  funext a
  apply Fin.ext
  match a with
  | ⟨0, _⟩ => show win0_0.index t (0 : Fin 2) * 1024 + 1 * r.val = (tileCol (qt t) r).val; rw [e0, Cert.NearestRow.tileCol_val]; simp only [qt]; omega
  | ⟨1, _⟩ => show win0_0.index t (1 : Fin 2) * 768 + 1 * k.val = k.val; rw [e1]; omega

/-- The second window's block at `t`: the key tile's rows. -/
theorem iblk1_apply (c : Dev nD) (t : Fin cfg0.N) (r : Fin 1024) (k : Fin 768) :
    (iblk m c 1 t : Vec Ideal S1024x768 .bf16) (ix2 r k) = xin m c (ix2 (tileCol (kt t) r) k) := by
  obtain ⟨-, -, e0, e1, -⟩ := index_facts t
  unfold iblk
  rw [View.read_apply]
  show V m c main_v0 _ = _
  rw [← V_rows m c]
  show V m c main_v0 _ = V m c main_v0 _
  congr 1
  funext a
  apply Fin.ext
  match a with
  | ⟨0, _⟩ => show win0_1.index t (0 : Fin 2) * 1024 + 1 * r.val = (tileCol (kt t) r).val; rw [e0, Cert.NearestRow.tileCol_val]; simp only [kt]; omega
  | ⟨1, _⟩ => show win0_1.index t (1 : Fin 2) * 768 + 1 * k.val = k.val; rw [e1]; omega

/-- The third window's block at `t`: the key tile's squared row lengths. -/
theorem iblk2_apply (c : Dev nD) (t : Fin cfg0.N) (j : Fin 1024) :
    (iblk m c 2 t : Vec Ideal S1x1024 .f32) (ix2 (0 : Fin 1) j) = NearestRow.sq (xin m c) (tileCol (kt t) j) := by
  obtain ⟨-, -, -, -, e0, e1, -⟩ := index_facts t
  unfold iblk
  rw [View.read_apply]
  show V m c main_v4 _ = _
  rw [← V_sqrow m c]
  show V m c main_v4 _ = V m c main_v4 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * j.val = (tileCol (kt t) j).val; rw [e1, Cert.NearestRow.tileCol_val]; simp only [kt]; omega

end Cert.KernelIdeal.RowMin

end
-- ==== Proof.LibTransposedDot.lean ====
/-
  A matrix product against a transposed right operand, read at an index.

  For the dimension numbers of an `M×K` by `N×K` product (`DotDims.transposedRhs`: both operands contracted on
  their second axis, no batch axis), the sum over the contraction index of the operands' products at result index
  `(i, j)` is `Σ_k l[i,k]·r[j,k]` over `k : Fin K` — a row of the left operand against a row of the right one.
  Stated for the sum itself, and for a kernel's matrix product into a zero accumulator and a host's `dot_general`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of such a product has one axis. -/
theorem transposedRhs_contr_rank (M K N : Nat) : (DotDims.transposedRhs M K N).contr.rank = 1 := rfl

/-- The left operand's index at result `(i, j)` and contraction position `k` is `(i, k)`. -/
theorem transposedRhs_lhsIdx (M K N : Nat) (i : Fin M) (j : Fin N) (k : Fin K) :
    (DotDims.transposedRhs M K N).lhsIdx (ix2 i j) ((contrEquiv1 (DotDims.transposedRhs M K N) K rfl rfl).symm k) = ix2 i k := by
  funext a
  refine Fin.ext ?_
  match a with
  | ⟨0, _⟩ => rfl
  | ⟨1, _⟩ =>
    show (((contrEquiv1 (DotDims.transposedRhs M K N) K rfl rfl).symm k) ⟨0, (Nat.one_pos : 0 < 1)⟩ : ℕ) = k.val
    exact contrEquiv1_symm_val (DotDims.transposedRhs M K N) K rfl rfl k

/-- The right operand's index at result `(i, j)` and contraction position `k` is `(j, k)`. -/
theorem transposedRhs_rhsIdx (M K N : Nat) (i : Fin M) (j : Fin N) (k : Fin K) :
    (DotDims.transposedRhs M K N).rhsIdx (ix2 i j) ((contrEquiv1 (DotDims.transposedRhs M K N) K rfl rfl).symm k) = ix2 j k := by
  funext a
  refine Fin.ext ?_
  match a with
  | ⟨0, _⟩ => rfl
  | ⟨1, _⟩ =>
    show (((contrEquiv1 (DotDims.transposedRhs M K N) K rfl rfl).symm k) ⟨0, (Nat.one_pos : 0 < 1)⟩ : ℕ) = k.val
    exact contrEquiv1_symm_val (DotDims.transposedRhs M K N) K rfl rfl k

/-- THE PRODUCT'S SUM at `(i, j)`: over `k : Fin K`, of `l[i,k]·r[j,k]`. -/
theorem transposedRhs_sum (M K N : Nat) (l : (⟨2, ![M, K]⟩ : Shape).Idx → EReal) (r : (⟨2, ![N, K]⟩ : Shape).Idx → EReal)
    (i : Fin M) (j : Fin N) :
    (∑ q : (DotDims.transposedRhs M K N).contr.Idx,
        l ((DotDims.transposedRhs M K N).lhsIdx (ix2 i j) q) * r ((DotDims.transposedRhs M K N).rhsIdx (ix2 i j) q))
      = ∑ k : Fin K, l (ix2 i k) * r (ix2 j k) := by
  rw [← Equiv.sum_comp (contrEquiv1 (DotDims.transposedRhs M K N) K rfl rfl).symm]
  exact Finset.sum_congr rfl fun k _ => by rw [transposedRhs_lhsIdx, transposedRhs_rhsIdx]

/-- A kernel's matrix product with these dimension numbers into the zero splat, at the ideal values, read at `(i, j)`. -/
theorem transposedRhs_matmul_zero_apply (M K N : Nat) {φ₁ φ₂ : FTy} (prec : Option ContractPrecision)
    (l : FVec Ideal ⟨2, ![M, K]⟩ φ₁) (r : FVec Ideal ⟨2, ![N, K]⟩ φ₂) (i : Fin M) (j : Fin N) :
    matmul (DotDims.transposedRhs M K N) prec l r (constant ⟨2, ![M, N]⟩ .f32 0x00000000#32) (ix2 i j)
      = ∑ k : Fin K, l (ix2 i k) * r (ix2 j k) :=
  (Ideal.matmul_constant_zero_apply (DotDims.transposedRhs M K N) prec l r (ix2 i j)).trans (transposedRhs_sum M K N l r i j)

/-- A host `dot_general` with these dimension numbers, at the ideal values, read at `(i, j)`. -/
theorem transposedRhs_dotGeneral_apply (M K N : Nat) {φ₁ φ₂ : FTy} (prec : Option ContractPrecision)
    (l : FVec Ideal ⟨2, ![M, K]⟩ φ₁) (r : FVec Ideal ⟨2, ![N, K]⟩ φ₂) (i : Fin M) (j : Fin N) :
    Host.dotGeneral (DotDims.transposedRhs M K N) prec l r (ix2 i j) = ∑ k : Fin K, l (ix2 i k) * r (ix2 j k) :=
  (Ideal.dotGeneral_apply (DotDims.transposedRhs M K N) prec _ l r (ix2 i j)).trans (transposedRhs_sum M K N l r i j)

end Cert.Lib

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.KernelIdeal.Payloads.lean ====
import proofs.«106038_j61701500175092_2_alg».proof.Proof.Gen.KernelIdeal.Skeleton
import proofs.«106038_j61701500175092_2_alg».proof.Proof.LibTransposedDot
import proofs.«106038_j61701500175092_2_alg».proof.Proof.LibKeepdims
import proofs.«106038_j61701500175092_2_alg».proof.Proof.LibRowReduce
import Idealize.ShloMosaic.PureOps.Ideal.Laws
import Idealize.ShloMosaic.PureOps.Reduce
import Idealize.ShloMosaic.Lib.Pipeline.Value
import Idealize.ShloMosaic.Lib.ValueLayout
import Idealize.ShloMosaic.Lib.ValueIdx

/-!
# What one grid step of the kernel computes, entry by entry

At a grid step the kernel holds 1024 rows `x0` and 1024 rows `x1` of the input (768 entries each), the squared
lengths `x2` of the rows of `x1` as a `1 × 1024` row, and a running column `xs` of 1024 values. Read at an entry,
on the extended reals:

* the value it starts the running column with is `+∞`'s word (`pay1_apply`);
* the tile it forms has, at `(r, c)`, the squared length of row `c` of `x1` minus twice the inner product of row `r`
  of `x0` with row `c` of `x1` (`pay2_apply`): the matrix product contracts both operands on their second axis, into
  a zero accumulator, and a one-row array broadcast down the rows reads its column;
* off the diagonal tiles, the new running value of row `r` is the minimum of the old one (on the left) and the
  minimum, from `+∞`'s word, of row `r` of the tile (`pay3_apply`);
* on a diagonal tile the same with the tile's own diagonal replaced by `+∞`'s word first (`pay4_apply`): the mask
  compares the row number with the column number as 32-bit words, which for numbers below 1024 is equality.

A minimum of a two-axis array over its second axis is read at a row as the fold of `min` over the row
(`multiReduction_min_row`), and a `[1024]` array cast to `[1024, 1]` reads its entry whatever the unit coordinate.
-/

noncomputable section

namespace Cert.KernelIdeal.Payload

open Cert.KernelIdeal Cert.KernelIdeal.Gen Cert.Lib
open Idealize.ShloMosaic Idealize.ShloMosaic.ValueIdx

/-! ## A row minimum -/

/-- A minimum of an `[a, b]` array over its second axis reads, at row `r`, the fold of `min` from the starting value
    over the entries `(r, k)`, `k : Fin b`. -/
theorem multiReduction_min_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) :
    multiReduction .minimumf [1] ⟨1, ![a]⟩ X acc h hφ hacc (ix1 r)
      = (Finset.univ : Finset (Fin b)).fold min (Ideal.ofBits φ acc) (fun k => X (ix2 r k)) := by
  refine (multiReduction_minimumf_eq_fold X acc h hφ hacc (ix1 r)).trans ?_
  refine (h.fold_filter_drop_single (FloatOps.minimumf (F := Ideal) (φ := φ)) _ X (ix1 r)).trans ?_
  have e : (X ∘ h.lift (ix1 r)) = fun k : Fin b => X (ix2 r k) := funext fun k => congrArg X (lift_row h r k)
  rw [e]
  rfl

/-! ## The tile's own diagonal -/

/-- Comparing two numbers below 1024 as 32-bit words is comparing the numbers. -/
theorem diag_word {α : Type} (r c : Fin 1024) (A B : α) :
    Scalar.select (IntOp.cmpi .eq (BitVec.ofNat 32 r.val) (BitVec.ofNat 32 c.val)) A B = if r = c then A else B := by
  have hw : BitVec.ofNat 32 r.val = BitVec.ofNat 32 c.val ↔ r = c := by
    constructor
    · intro e
      have h := congrArg BitVec.toNat e
      simp only [BitVec.toNat_ofNat] at h
      have := r.isLt; have := c.isLt
      exact Fin.ext (by omega)
    · rintro rfl; rfl
  show (if BitVec.ofBool (BitVec.ofNat 32 r.val == BitVec.ofNat 32 c.val) = 1#1 then A else B) = _
  by_cases e : r = c
  · subst e; simp
  · have ne : (BitVec.ofNat 32 r.val == BitVec.ofNat 32 c.val) = false :=
      beq_eq_false_iff_ne.mpr fun h => e (hw.mp h)
    rw [ne, if_neg e]
    exact if_neg (by decide)

/-- The row-number array of a `1024 × 1024` tile reads, at `(r, c)`, the word of `r`. -/
theorem iota_row_apply (h : S1024x1024.Iotas .tc 32 [0]) (r c : Fin 1024) :
    iota .tc S1024x1024 32 [0] h (ix2 r c) = BitVec.ofNat 32 r.val := by
  show BitVec.ofNat 32 (0 * 1024 + r.val) = _
  rw [Nat.zero_mul, Nat.zero_add]

/-- The column-number array reads, at `(r, c)`, the word of `c`. -/
theorem iota_col_apply (h : S1024x1024.Iotas .tc 32 [1]) (r c : Fin 1024) :
    iota .tc S1024x1024 32 [1] h (ix2 r c) = BitVec.ofNat 32 c.val := by
  show BitVec.ofNat 32 (0 * 1024 + c.val) = _
  rw [Nat.zero_mul, Nat.zero_add]

/-! ## The four payloads -/

/-- The starting value of the running column is `+∞`'s word, at every row. -/
theorem pay1_apply (r : Fin 1024) : k0_pay1 (F := Ideal) (ix2 r 0) = Ideal.ofBits .f32 0x7F800000#32 := by
  unfold k0_pay1
  exact congrFun (shapeCast_self _ _) _

/-- THE TILE at `(r, c)`: the squared length of row `c` of `x1`, minus twice the inner product of row `r` of `x0` with
    row `c` of `x1`. -/
theorem pay2_apply (x0 x1 : Vec Ideal S1024x768 .bf16) (x2 : Vec Ideal S1x1024 .f32) (r c : Fin 1024) :
    k0_pay2 x0 x1 x2 (ix2 r c)
      = x2 (ix2 0 c) - Ideal.ofBits .f32 0x40000000#32 * ∑ k : Fin 768, x0 (ix2 r k) * x1 (ix2 c k) := by
  unfold k0_pay2
  refine congrArg₂ (· - ·) ?_ (congrArg₂ (· * ·) rfl ?_)
  · exact (broadcastTo_1b_ab_apply _ _ r c).trans (congrFun (shapeCast_self x2 _) _)
  · refine (transposedRhs_matmul_zero_apply 1024 768 1024 none
      (shapeCast S1024x768 (x0 : FVec Ideal S1024x768 .bf16) _) (shapeCast S1024x768 (x1 : FVec Ideal S1024x768 .bf16) _) r c).trans ?_
    exact Finset.sum_congr rfl fun k _ =>
      congrArg₂ (· * ·) (congrFun (shapeCast_self x0 _) _) (congrFun (shapeCast_self x1 _) _)

/-- OFF THE DIAGONAL TILES: the new running value of row `r` is the minimum of the old one and the minimum, from
    `+∞`'s word, of row `r` of the tile. -/
theorem pay3_apply (x0 x1 : Vec Ideal S1024x768 .bf16) (x2 : Vec Ideal S1x1024 .f32) (xs : Vec Ideal S1024x1 .f32)
    (r : Fin 1024) :
    k0_pay3 x0 x1 x2 xs (ix2 r 0)
      = min (xs (ix2 r 0)) ((Finset.univ : Finset (Fin 1024)).fold min (Ideal.ofBits .f32 0x7F800000#32)
          fun c => k0_pay2 x0 x1 x2 (ix2 r c)) := by
  unfold k0_pay3
  refine (congrFun (shapeCast_self _ _) _).trans ?_
  refine congrArg (min (xs (ix2 r 0))) ?_
  refine (shapeCast_a_a1_apply _ _ r 0).trans ?_
  exact multiReduction_min_row (k0_pay2 x0 x1 x2) 0x7F800000#32 _ (.inl rfl) rfl r

/-- ON A DIAGONAL TILE: the same with the tile's own diagonal replaced by `+∞`'s word first. -/
theorem pay4_apply (x0 x1 : Vec Ideal S1024x768 .bf16) (x2 : Vec Ideal S1x1024 .f32) (xs : Vec Ideal S1024x1 .f32)
    (r : Fin 1024) :
    k0_pay4 x0 x1 x2 xs (ix2 r 0)
      = min (xs (ix2 r 0)) ((Finset.univ : Finset (Fin 1024)).fold min (Ideal.ofBits .f32 0x7F800000#32)
          fun c => if r = c then Ideal.ofBits .f32 0x7F800000#32 else k0_pay2 x0 x1 x2 (ix2 r c)) := by
  unfold k0_pay4
  refine (congrFun (shapeCast_self _ _) _).trans ?_
  refine congrArg (min (xs (ix2 r 0))) ?_
  refine (shapeCast_a_a1_apply _ _ r 0).trans ?_
  refine (multiReduction_min_row
    (select (cmpi .eq (iota .tc S1024x1024 32 [0] iota_S1024x1024_d0_w32) (iota .tc S1024x1024 32 [1] iota_S1024x1024_d1_w32))
      (broadcast S1024x1024 (Scalar.ofBits (F := Ideal) .f32 0x7F800000#32)) (k0_pay2 x0 x1 x2))
    0x7F800000#32 _ (.inl rfl) rfl r).trans ?_
  refine Finset.fold_congr fun c _ => ?_
  show Scalar.select (IntOp.cmpi .eq (iota .tc S1024x1024 32 [0] iota_S1024x1024_d0_w32 (ix2 r c))
      (iota .tc S1024x1024 32 [1] iota_S1024x1024_d1_w32 (ix2 r c)))
    (Ideal.ofBits .f32 0x7F800000#32) (k0_pay2 x0 x1 x2 (ix2 r c)) = _
  rw [iota_row_apply, iota_col_apply]
  exact diag_word r c _ _

end Cert.KernelIdeal.Payload

end
-- ==== Proof.KernelIdeal.TileStep.lean ====
import proofs.«106038_j61701500175092_2_alg».proof.Proof.KernelIdeal.Payloads
import proofs.«106038_j61701500175092_2_alg».proof.Proof.NearestRow
import proofs.«106038_j61701500175092_2_alg».proof.Proof.TileMin

/-!
# One grid step, in terms of the input

Grid step `(a, b)` holds the rows of query tile `a` (`x0`), the rows of key tile `b` (`x1`) and the squared lengths of
the rows of key tile `b` (`x2`). Under those three readings of the blocks, the tile the step forms has at `(r, c)` the
entry `sq j − 2·gram i j` for `i` = row `r` of tile `a` and `j` = row `c` of tile `b` (`tile_entry`), so the step
replaces the running value of row `i` by the minimum of itself and the minimum, from `+∞`'s word, over key tile `b`
of `kerEntry x i`:

* when `a ≠ b` no column of the tile is column `i`, so `kerEntry`'s diagonal case never occurs (`step_off`);
* when `a = b` column `c` of the tile is column `i` exactly when `c = r`, which is the tile's own diagonal
  (`step_diag`).

`first_off` and `first_diag` are the same steps taken from the starting value.
-/

noncomputable section

namespace Cert.KernelIdeal.Payload

open Cert.KernelIdeal Cert.KernelIdeal.Gen Cert.NearestRow
open Idealize.ShloMosaic Idealize.ShloMosaic.ValueIdx

/-- Columns of different tiles are different columns. -/
theorem tileCol_ne {a b : Fin 8} (h : a ≠ b) (r c : Fin 1024) : tileCol a r ≠ tileCol b c := by
  intro e
  have hv := congrArg Fin.val e
  simp only [tileCol_val] at hv
  have := r.isLt; have := c.isLt
  exact h (Fin.ext (by omega))

section Step

variable (x : Input) (a b : Fin 8) (x0 x1 : Vec Ideal S1024x768 .bf16) (x2 : Vec Ideal S1x1024 .f32)
  (xs : Vec Ideal S1024x1 .f32)
  (h0 : ∀ (r : Fin 1024) (k : Fin 768), x0 (ix2 r k) = x (ix2 (tileCol a r) k))
  (h1 : ∀ (c : Fin 1024) (k : Fin 768), x1 (ix2 c k) = x (ix2 (tileCol b c) k))
  (h2 : ∀ c : Fin 1024, x2 (ix2 0 c) = NearestRow.sq x (tileCol b c))

include h0 h1 h2

/-- THE TILE in terms of the input: at `(r, c)`, the squared length of row `c` of key tile `b` minus twice its inner
    product with row `r` of query tile `a`. -/
theorem tile_entry (r c : Fin 1024) :
    k0_pay2 x0 x1 x2 (ix2 r c)
      = NearestRow.sq x (tileCol b c) - Ideal.ofBits .f32 0x40000000#32 * gram x (tileCol a r) (tileCol b c) := by
  refine (pay2_apply x0 x1 x2 r c).trans ?_
  unfold gram
  refine congrArg₂ (· - ·) (h2 c) (congrArg₂ (· * ·) rfl (Finset.sum_congr rfl fun k _ => ?_))
  exact congrArg₂ (· * ·) (h0 r k) (h1 c k)

/-- A STEP OFF THE DIAGONAL: the running value of row `r` of tile `a`, then the minimum over key tile `b`. -/
theorem step_off (hab : a ≠ b) (r : Fin 1024) :
    k0_pay3 x0 x1 x2 xs (ix2 r 0)
      = min (xs (ix2 r 0)) (tileMin (Ideal.ofBits .f32 0x7F800000#32) (kerEntry x (tileCol a r)) b) := by
  refine (pay3_apply x0 x1 x2 xs r).trans (congrArg (min (xs (ix2 r 0))) ?_)
  unfold tileMin
  refine Finset.fold_congr fun c _ => ?_
  refine (tile_entry x a b x0 x1 x2 h0 h1 h2 r c).trans ?_
  unfold kerEntry
  rw [if_neg (tileCol_ne hab r c)]

/-- A STEP ON THE DIAGONAL: the same, the tile's own diagonal being the excluded column. -/
theorem step_diag (hab : a = b) (r : Fin 1024) :
    k0_pay4 x0 x1 x2 xs (ix2 r 0)
      = min (xs (ix2 r 0)) (tileMin (Ideal.ofBits .f32 0x7F800000#32) (kerEntry x (tileCol a r)) b) := by
  refine (pay4_apply x0 x1 x2 xs r).trans (congrArg (min (xs (ix2 r 0))) ?_)
  unfold tileMin
  refine Finset.fold_congr fun c _ => ?_
  unfold kerEntry
  by_cases hrc : r = c
  · rw [if_pos hrc, if_pos (by rw [hab, hrc])]
  · have hne : tileCol a r ≠ tileCol b c := fun e => hrc ((tileCol_inj b).mp (hab ▸ e))
    rw [if_neg hrc, if_neg hne]
    exact tile_entry x a b x0 x1 x2 h0 h1 h2 r c

/-- The first step of a row of grid steps, off the diagonal: from the starting value. -/
theorem first_off (hab : a ≠ b) (r : Fin 1024) :
    k0_pay3 x0 x1 x2 (k0_pay1 (F := Ideal)) (ix2 r 0)
      = min (Ideal.ofBits .f32 0x7F800000#32)
          (tileMin (Ideal.ofBits .f32 0x7F800000#32) (kerEntry x (tileCol a r)) b) :=
  (step_off x a b x0 x1 x2 (k0_pay1 (F := Ideal)) h0 h1 h2 hab r).trans
    (congrArg (fun t => min t (tileMin (Ideal.ofBits .f32 0x7F800000#32) (kerEntry x (tileCol a r)) b)) (pay1_apply r))

/-- The first step of a row of grid steps, on the diagonal. -/
theorem first_diag (hab : a = b) (r : Fin 1024) :
    k0_pay4 x0 x1 x2 (k0_pay1 (F := Ideal)) (ix2 r 0)
      = min (Ideal.ofBits .f32 0x7F800000#32)
          (tileMin (Ideal.ofBits .f32 0x7F800000#32) (kerEntry x (tileCol a r)) b) :=
  (step_diag x a b x0 x1 x2 (k0_pay1 (F := Ideal)) h0 h1 h2 hab r).trans
    (congrArg (fun t => min t (tileMin (Ideal.ofBits .f32 0x7F800000#32) (kerEntry x (tileCol a r)) b)) (pay1_apply r))

end Step

end Cert.KernelIdeal.Payload

end
-- ==== Proof.KernelIdeal.TiledRow.lean ====
/-
  The running minimum, row by row.

  For the query tile's row r, after the key tiles 0 to j the running minimum at r is the minimum, started from +inf,
  over the columns of those tiles of the row's entries — +inf at the row itself, the squared length of the other row
  less twice the inner product elsewhere; by induction on the grid point.
-/
import proofs.«106038_j61701500175092_2_alg».proof.Proof.KernelIdeal.Blocks
import proofs.«106038_j61701500175092_2_alg».proof.Proof.KernelIdeal.TileStep
import proofs.«106038_j61701500175092_2_alg».proof.Proof.KernelIdeal.Frame
import Idealize.ShloMosaic.Lib.Pipeline.Value

set_option maxRecDepth 16384

noncomputable section

namespace Cert.KernelIdeal.RowMin

open Cert.KernelIdeal Cert.KernelIdeal.Gen
open Idealize.ShloMosaic Idealize.ShloMosaic.TcCoe Idealize.ShloMosaic.ValueIdx Idealize.SL.Sem
open Idealize.ShloMosaic.Pipeline (Dat)
open Cert.NearestRow (Input kerEntry kerMin kerRow gram tileCol tileMin tileAcc)

variable (m : (ℓ : Loc nD τ sig) → Buf (Elt Ideal) ℓ)

open Cert.KernelIdeal.Payload (step_off step_diag first_off first_diag)

/-- Two points of one query tile: the point before a point that is not at key tile 0. -/
theorem qt_pred (n : ℕ) (h : n + 1 < cfg0.N) (a1 : ¬(n + 1) % 8 = 0) : qt ⟨n, Nat.lt_of_succ_lt h⟩ = qt ⟨n + 1, h⟩ := by
  apply Fin.ext; show n / 8 = (n + 1) / 8; omega

/-- The running minimum at row `r` after position `n`: the tiled minimum over the key tiles met so far. -/
theorem accAfter_apply (c : Dev nD) : ∀ (n : ℕ) (h : n < cfg0.N) (r : Fin 1024),
    (accAfter m c n h : Vec Ideal S1024x1 .f32) (ix2 r (0 : Fin 1))
      = tileAcc (Ideal.ofBits .f32 0x7F800000#32) (kerEntry (xin m c) (tileCol (qt ⟨n, h⟩) r)) (n % 8 + 1)
  | 0, h, r => by
    rw [accAfter, first_diag (xin m c) (qt ⟨0, h⟩) (kt ⟨0, h⟩) (iblk m c 0 ⟨0, h⟩) (iblk m c 1 ⟨0, h⟩) (iblk m c 2 ⟨0, h⟩) (iblk0_apply m c ⟨0, h⟩) (iblk1_apply m c ⟨0, h⟩) (iblk2_apply m c ⟨0, h⟩) (Fin.ext (by simp [qt, kt])) r]
    show _ = tileAcc _ _ 1
    rw [Cert.NearestRow.tileAcc_succ _ _ (by decide : 0 < 8), Cert.NearestRow.tileAcc_zero]
    rfl
  | n + 1, h, r => by
    have hN : n + 1 < 64 := lt_of_lt_of_eq h (show cfg0.N = 64 from N_0)
    have hj : (n + 1) % 8 < 8 := Nat.mod_lt _ (by decide)
    by_cases a1 : (n + 1) % 8 = 0
    · have hab : qt ⟨n + 1, h⟩ ≠ kt ⟨n + 1, h⟩ := fun e => by have := congrArg Fin.val e; simp only [qt, kt] at this; omega
      rw [accAfter, if_pos a1, first_off (xin m c) (qt ⟨n + 1, h⟩) (kt ⟨n + 1, h⟩) (iblk m c 0 ⟨n + 1, h⟩) (iblk m c 1 ⟨n + 1, h⟩) (iblk m c 2 ⟨n + 1, h⟩) (iblk0_apply m c ⟨n + 1, h⟩) (iblk1_apply m c ⟨n + 1, h⟩) (iblk2_apply m c ⟨n + 1, h⟩) hab r]
      rw [a1]
      show _ = tileAcc _ _ 1
      rw [Cert.NearestRow.tileAcc_succ _ _ (by decide : 0 < 8), Cert.NearestRow.tileAcc_zero]
      have hk : kt ⟨n + 1, h⟩ = ⟨0, by decide⟩ := Fin.ext a1
      rw [hk]
    · have hs : (n + 1) % 8 = n % 8 + 1 := by omega
      by_cases ad : (n + 1) / 8 = (n + 1) % 8
      · have hab : qt ⟨n + 1, h⟩ = kt ⟨n + 1, h⟩ := Fin.ext ad
        rw [accAfter, if_neg a1, if_pos ad, step_diag (xin m c) (qt ⟨n + 1, h⟩) (kt ⟨n + 1, h⟩) (iblk m c 0 ⟨n + 1, h⟩) (iblk m c 1 ⟨n + 1, h⟩) (iblk m c 2 ⟨n + 1, h⟩) (accAfter m c n (Nat.lt_of_succ_lt h)) (iblk0_apply m c ⟨n + 1, h⟩) (iblk1_apply m c ⟨n + 1, h⟩) (iblk2_apply m c ⟨n + 1, h⟩) hab r]
        rw [accAfter_apply c n (Nat.lt_of_succ_lt h) r, qt_pred n h a1]
        rw [Cert.NearestRow.tileAcc_succ _ _ hj]
        have hk : kt ⟨n + 1, h⟩ = ⟨(n + 1) % 8, hj⟩ := rfl
        rw [hk]
        congr 1
        rw [hs]
      · have hab : qt ⟨n + 1, h⟩ ≠ kt ⟨n + 1, h⟩ := fun e => ad (congrArg Fin.val e)
        rw [accAfter, if_neg a1, if_neg ad, step_off (xin m c) (qt ⟨n + 1, h⟩) (kt ⟨n + 1, h⟩) (iblk m c 0 ⟨n + 1, h⟩) (iblk m c 1 ⟨n + 1, h⟩) (iblk m c 2 ⟨n + 1, h⟩) (accAfter m c n (Nat.lt_of_succ_lt h)) (iblk0_apply m c ⟨n + 1, h⟩) (iblk1_apply m c ⟨n + 1, h⟩) (iblk2_apply m c ⟨n + 1, h⟩) hab r]
        rw [accAfter_apply c n (Nat.lt_of_succ_lt h) r, qt_pred n h a1]
        rw [Cert.NearestRow.tileAcc_succ _ _ hj]
        have hk : kt ⟨n + 1, h⟩ = ⟨(n + 1) % 8, hj⟩ := rfl
        rw [hk]
        congr 1
        rw [hs]

end Cert.KernelIdeal.RowMin

end
-- ==== Proof.KernelIdeal.RowValue.lean ====
/-
  The output array after the region.

  At key tile 7 the running minimum at a row is the minimum over all 8192 columns, and it is what the write-back at
  that point puts in the output array's block of the query tile. The eight write-backs cover the array, which
  therefore ends holding, for each row, the minimum over the other rows of the squared length of the other row less
  twice the inner product.
-/
import proofs.«106038_j61701500175092_2_alg».proof.Proof.KernelIdeal.TiledRow
import proofs.«106038_j61701500175092_2_alg».proof.Proof.KernelIdeal.Frame
import Idealize.ShloMosaic.Lib.Pipeline.Value

set_option maxRecDepth 16384

noncomputable section

namespace Cert.KernelIdeal.RowMin

open Cert.KernelIdeal Cert.KernelIdeal.Gen
open Idealize.ShloMosaic Idealize.ShloMosaic.TcCoe Idealize.ShloMosaic.ValueIdx Idealize.SL.Sem
open Idealize.ShloMosaic.Pipeline (Dat)
open Cert.NearestRow (Input kerEntry kerMin kerRow gram tileCol tileMin tileAcc)

variable (m : (ℓ : Loc nD τ sig) → Buf (Elt Ideal) ℓ)

/-! ## The output array -/

/-- Each row's minimum over the other rows, as the [8192,1] output array. -/
def rowMinFn (c : Dev nD) : S8192x1.Idx → EReal := fun p => kerMin (xin m c) ⟨(p 0).val, idx2_lt0 p⟩
/-- The same as the contents of the output array's buffer. -/
abbrev rowMinArr (c : Dev nD) : Buf (Elt Ideal) ((c : Thread nD τ).loc main_v5) := rowMinFn m c

/-- What the point at key tile 7 of a query tile writes back is that tile's block of it. -/
theorem flushed_eq (c : Dev nD) (t : Fin cfg0.N) (hf : (cfg0.win 3).flush t = true) :
    (dats m 0 c).flushed 3 t = ((cfg0.win 3).blk t).view.read (Elt Ideal) (rowMinArr m c) := by
  have h7 : t.val % 8 = 7 := (flush0_3 t).mp hf
  obtain ⟨-, -, -, -, -, -, e0, e1⟩ := index_facts t
  show (cfg0.win 3).cut (grid0.coords t) ((dats m 0 c).after 3 t) = _
  rw [after3, outsAt_out m c t.val t.isLt h7]
  funext y
  obtain ⟨r, u, rfl⟩ : ∃ (r : Fin 1024) (u : Fin 1), y = ix2 r u := ⟨y 0, y 1, eq_ix2 y⟩
  obtain rfl : u = 0 := Subsingleton.elim _ _
  rw [View.read_apply]
  show (accAfter m c t.val t.isLt : Vec Ideal S1024x1 .f32) (ix2 r (0 : Fin 1)) = rowMinArr m c (((cfg0.win 3).blk t).view.emb (ix2 r (0 : Fin 1)))
  rw [accAfter_apply m c t.val t.isLt r, h7]
  show tileAcc _ _ 8 = rowMinFn m c _
  rw [Cert.NearestRow.tileAcc_eight]
  unfold rowMinFn Cert.NearestRow.kerMin
  refine congrArg (fun j => (Finset.univ : Finset (Fin 8192)).fold min (Ideal.ofBits .f32 0x7F800000#32) (kerEntry (xin m c) j)) ?_
  apply Fin.ext
  show (tileCol (qt ⟨t.val, t.isLt⟩) r).val = win0_3.index t (0 : Fin 2) * 1024 + 1 * r.val
  rw [e0, Cert.NearestRow.tileCol_val]; simp only [qt]; omega

/-- An index of the output array is in point `t`'s block iff each coordinate is in the block's range. -/
theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v5).slice (win0_3.rect t)).set ↔ _
  rw [View.set_slice_whole, Rect.mem_set_unit]
  exact Iff.rfl

/-- The eight write-backs cover the output array, which therefore ends holding the rows' minima. -/
theorem final (c : Dev nD) : (dats m 0 c).arrAt 3 cfg0.N = rowMinArr m c :=
  (dats m 0 c).arrAt_eq_of_cover 3 (rowMinArr m c) (flushed_eq m c) fun i => by
    have hi0 : (i 0).val < 8192 := (i 0).isLt
    have hi1 : (i 1).val < 1 := (i 1).isLt
    have hlt : 8 * ((i 0).val / 1024) + 7 < cfg0.N := by rw [show cfg0.N = 64 from N_0]; omega
    have hv : (⟨8 * ((i 0).val / 1024) + 7, hlt⟩ : Fin cfg0.N).val = 8 * ((i 0).val / 1024) + 7 := rfl
    obtain ⟨-, -, -, -, -, -, e0, e1⟩ := index_facts ⟨8 * ((i 0).val / 1024) + 7, hlt⟩
    refine ⟨⟨8 * ((i 0).val / 1024) + 7, hlt⟩, (flush0_3 _).mpr (by rw [hv]; omega), ?_⟩
    rw [mem_blk3]
    intro a
    match a with
    | ⟨0, _⟩ =>
      show win0_3.index _ (0 : Fin 2) * 1024 ≤ (i 0).val ∧ (i 0).val < win0_3.index _ (0 : Fin 2) * 1024 + 1024
      rw [e0, hv]; omega
    | ⟨1, _⟩ =>
      show win0_3.index _ (1 : Fin 2) * 1 ≤ (i 1).val ∧ (i 1).val < win0_3.index _ (1 : Fin 2) * 1 + 1
      rw [e1]; omega

/-- Row by row. -/
theorem rowMins_apply (c : Dev nD) (i : Fin 8192) : rowMins m c (ix2 i (0 : Fin 1)) = kerMin (xin m c) i := by
  show (dats m 0 c).arrAt 3 cfg0.N (ix2 i (0 : Fin 1)) = _
  rw [final]
  show rowMinFn m c (ix2 i (0 : Fin 1)) = _
  unfold rowMinFn
  rfl

end Cert.KernelIdeal.RowMin

end
-- ==== Proof.KernelIdeal.Result.lean ====
import proofs.«106038_j61701500175092_2_alg».proof.Proof.KernelIdeal.Frame
import proofs.«106038_j61701500175092_2_alg».proof.Proof.KernelIdeal.Blocks
import proofs.«106038_j61701500175092_2_alg».proof.Proof.NearestRow
import Idealize.ShloMosaic.Lib.Pipeline.Value
import Idealize.ShloMosaic.Lib.ValueIdx
import Idealize.ShloMosaic.Lib.StableHlo.Run

/-!
# The fifteen host lines after the region

After the region the output array holds, at row `i`, the minimum over the other rows `j` of `sq j − 2·gram i j`
(`kerMin`). The host then adds the column of squared lengths, clamps below by the zero word, takes square roots on the
`8192 × 1` column, recasts the column as a vector of 8192, and finishes with the common tail.

A square root is taken entry by entry, so taking it before or after the recast is the same thing; the recast of an
`[a, 1]` column reads, at `i`, the column's entry `(i, 0)`. Hence the result is the common tail of the vector whose
entry `i` is `max (kerMin x i + sq x i) 0`, which is `kerRow x i`.
-/

set_option maxRecDepth 16384

noncomputable section

namespace Cert.KernelIdeal.Tail

open Cert.KernelIdeal Cert.KernelIdeal.Gen Cert.KernelIdeal.RowMin
open Idealize.ShloMosaic Idealize.ShloMosaic.TcCoe Idealize.ShloMosaic.ValueIdx Idealize.SL.Sem
open Cert.NearestRow (Input kerMin kerRow lossTail lossTailVec)

/-- An `[a, 1]` column recast as a vector of `a` reads, at `i`, the column's entry `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (m : (ℓ : Loc nD τ sig) → Buf (Elt Ideal) ℓ)

/-- The column after the region with the squared lengths added and clamped below by the zero word. -/
def clamped (c : Dev nD) : FVec Ideal S8192x1 .f32 :=
  maximumf (F := Ideal)
    (addf (F := Ideal) (V2 m c main_v5 : FVec Ideal S8192x1 .f32) (V2 m c main_v3 : FVec Ideal S8192x1 .f32))
    (broadcastInDim S8192x1 ![] bcast_S_S8192x1 (constant (F := Ideal) S_ .f32 0x00000000#32))

/-- The result is the common tail of that column recast as a vector. -/
theorem result_eq_tail (c : Dev nD) :
    (V3 m c main_v16 : S_.Idx → EReal) = lossTailVec (shapeCast S8192 (clamped m c) shapeCasts_S8192x1_S8192) := by
  show StableHlo.after hostOps1 _ (Proc.devRef .tc main_v16) = _
  after_results
  rfl

/-- An entry of the clamped column, once the region's rows are known. -/
theorem clamped_apply (c : Dev nD) (i : Fin 8192)
    (hrow : rowMins m c (ix2 i (0 : Fin 1)) = kerMin (xin m c) i) :
    clamped m c (ix2 i (0 : Fin 1)) = kerRow (xin m c) i := by
  have h5 : (V2 m c main_v5 : FVec Ideal S8192x1 .f32) (ix2 i (0 : Fin 1)) = kerMin (xin m c) i :=
    (congrFun (V2_out m c) _).trans hrow
  have h3 : (V2 m c main_v3 : FVec Ideal S8192x1 .f32) (ix2 i (0 : Fin 1)) = NearestRow.sq (xin m c) i :=
    (congrFun (V2_of m c main_v3 (by decide)) _).trans (V_sqcol m c i)
  have hz : broadcastInDim S8192x1 ![] bcast_S_S8192x1 (constant (F := Ideal) S_ .f32 0x00000000#32) (ix2 i (0 : Fin 1))
      = Ideal.ofBits .f32 0x00000000#32 :=
    broadcastInDim_apply _ bcast_S_S8192x1 _ (ix2 i (0 : Fin 1)) ix0 (fun a => a.elim0)
  exact congrArg₂ max (congrArg₂ (· + ·) h5 h3) hz

/-- THE RESULT: once the region leaves `kerMin` in the output array, the program's result is the common tail of the
    rows' nearest-neighbour values in their second form. -/
theorem result_of_rows (c : Dev nD)
    (hrows : ∀ i : Fin 8192, rowMins m c (ix2 i (0 : Fin 1)) = kerMin (xin m c) i) :
    (V3 m c main_v16 : S_.Idx → EReal) = lossTail fun i => kerRow (xin m c) i := by
  refine (result_eq_tail m c).trans ?_
  show lossTailVec _ = lossTailVec fun j => kerRow (xin m c) (j 0)
  refine congrArg lossTailVec (funext fun j => ?_)
  rw [eq_ix1 j]
  exact (shapeCast_a1_a_apply (clamped m c) shapeCasts_S8192x1_S8192 (j 0)).trans (clamped_apply m c (j 0) (hrows (j 0)))

end Cert.KernelIdeal.Tail

end
-- ==== Proof.lean ====
/-
  Nearest-neighbour spread (the KoLeo loss) of 8192 rows of 768 numbers: the tiled kernel against the whole-matrix
  reference, at the ideal values.

  With s_i the squared length of row i and g_ij the inner product of rows i and j, the reference takes, for each row
  i, the minimum over j of max(s_i + s_j − 2 g_ij, 0) with +inf on the diagonal, then −mean(log(sqrt(·) + eps)). The
  kernel streams 1024 × 1024 tiles of s_j − 2 g_ij over an 8 × 8 grid, keeps a running row minimum across the key
  tiles of a query tile (+inf on the diagonal of the diagonal tiles), and adds s_i and clamps at 0 once per row
  afterwards. The map t ↦ max(t + s_i, 0) is monotone on the extended reals and sends +inf to +inf because s_i, a
  sum of squares, is not −inf; so it commutes with the minimum, and the tiled minimum is the minimum over all
  columns. No finiteness of the input is used.

  Each kernel program's frame — it runs to the end, faults nowhere, leaves its argument as launched — is proved for
  the word-level program and for its idealization by running the body once per control case and composing the host
  lines, the region and the host lines after it; the array of bf16 rows is read through two windows, each holding
  half of it. The idealization rewrote nothing.
-/
import proofs.«106038_j61701500175092_2_alg».proof.Defs
import proofs.«106038_j61701500175092_2_alg».proof.Proof.Gen.Kernel
import proofs.«106038_j61701500175092_2_alg».proof.Proof.Gen.KernelIdeal
import proofs.«106038_j61701500175092_2_alg».proof.Proof.Gen.ReferenceIdeal
import proofs.«106038_j61701500175092_2_alg».proof.Proof.Gen.Pre_finite_inputs
import proofs.«106038_j61701500175092_2_alg».proof.Proof.Kernel.Frame
import proofs.«106038_j61701500175092_2_alg».proof.Proof.KernelIdeal.Frame
import proofs.«106038_j61701500175092_2_alg».proof.Proof.KernelIdeal.RowValue
import proofs.«106038_j61701500175092_2_alg».proof.Proof.KernelIdeal.Result
import proofs.«106038_j61701500175092_2_alg».proof.Proof.ReferenceRows
import Idealize.ShloMosaic.Adequacy
import Idealize.ShloMosaic.Init

noncomputable section

namespace Cert.Proof

open Idealize.ShloMosaic Idealize.ShloMosaic.TcCoe Idealize.SL.Sem

/-- The word-level kernel program runs and leaves its argument unchanged. -/
theorem frame_kernel : Cert.frame_Kernel := fun m ρ _ => Cert.Kernel.RowMin.frame m ρ

/-- So does its idealization. -/
theorem frame_kernelIdeal : Cert.frame_KernelIdeal := fun m ρ _ => Cert.KernelIdeal.RowMin.frame m ρ

/-- The reference is host lines only: its run, the result dropped. -/
theorem frame_reference : Cert.frame_ReferenceIdeal := fun m ρ _ =>
  (θ_run Cert.ReferenceIdeal.defs _ _).mono (fun _ h c => (h c).2) (Cert.ReferenceIdeal.RefValue.ref_run m ρ)

/-- The ideal pass rewrote no operation. -/
theorem preserves : Cert.preserves_Kernel_KernelIdeal := trivial

/-- Both programs end at the common tail of the rows' nearest-neighbour values: the kernel's rows are the reference's. -/
theorem algebraic : Cert.algebraic_KernelIdeal_ReferenceIdeal := by
  intro m ρ m' ρ' _ hagree
  refine ⟨fun c => Cert.NearestRow.lossTail fun i =>
    Cert.NearestRow.refRow (m ((c.tc : Thread Cert.KernelIdeal.nD Cert.KernelIdeal.τ).loc Cert.KernelIdeal.main_arg0)) i, ?_, ?_⟩
  · refine (θ_run Cert.KernelIdeal.defs _ _).mono (fun _ h c => ⟨(h c).1.trans ?_, (h c).2⟩)
      (Cert.KernelIdeal.RowMin.run_main (F := Ideal) m ρ)
    rw [Cert.KernelIdeal.Tail.result_of_rows m c (Cert.KernelIdeal.RowMin.rowMins_apply m c)]
    exact congrArg Cert.NearestRow.lossTail (funext fun i => Cert.NearestRow.kerRow_eq_refRow _ i)
  · refine (θ_run Cert.ReferenceIdeal.defs _ _).mono (fun _ h c => ⟨(h c).1.trans ?_, (h c).2⟩)
      (Cert.ReferenceIdeal.RefValue.ref_run m' ρ')
    rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
